-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x28x1024 : Shape := ⟨3, ![512, 28, 1024]⟩
abbrev S1024x2513 : Shape := ⟨2, ![1024, 2513]⟩
abbrev S2513 : Shape := ⟨1, ![2513]⟩
abbrev S1024x2048 : Shape := ⟨2, ![1024, 2048]⟩
abbrev S2048 : Shape := ⟨1, ![2048]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S512x28x1024 : S_.BroadcastsInDim S512x28x1024 (![] : Fin 0 → Fin S512x28x1024.rank)
  reducesTo_S512x28x1024_S_d0_1_2 : S512x28x1024.ReducesTo [0, 1, 2] S_
  h_S_ : 0 < S_.numel
  bcast_S_S1024x2513 : S_.BroadcastsInDim S1024x2513 (![] : Fin 0 → Fin S1024x2513.rank)
  reducesTo_S1024x2513_S_d0_1 : S1024x2513.ReducesTo [0, 1] S_
  bcast_S_S2513 : S_.BroadcastsInDim S2513 (![] : Fin 0 → Fin S2513.rank)
  reducesTo_S2513_S_d0 : S2513.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S512x2 .f32) (main_arg15 : FVec F S2 .f32) (main_v63 : IVec S_ 1) (main_v67 : IVec S_ 1) : IVec S_ 1 :=
  let main_v68 : IVec S_ 1 := andi main_v63 main_v67
  let main_v69 : FVec F S512x2 .f32 := Host.absf main_arg14
  let main_cst_26 : FVec F S_ .f32 := constant S_ .f32 0x7F800000#32
  let main_v70 : FVec F S512x2 .f32 := broadcastInDim S512x2 ![] bcast_S_S512x2 main_cst_26
  let main_v71 : IVec S512x2 1 := cmpf .olt main_v69 main_v70
  let main_c_27 : IVec S_ 1 := constantI S_ 1 1#1
  let main_v72 : IVec S_ 1 := (fun x v => Host.reduce IntOp.andi x v reducesTo_S512x2_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S1024 .f32) (main_arg12 : FVec F S1024x512 .f32) (main_arg13 : FVec F S512 .f32) (main_arg14 : FVec F S512x2 .f32) (main_arg15 : FVec F S2 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S2513 .f32) (main_arg8 : FVec F S1024x2048 .f32) (main_arg9 : FVec F S2048 .f32) (main_arg10 : FVec F S4096x1024 .f32) (main_arg11 : FVec F S1024 .f32) (main_arg12 : FVec F S1024x512 .f32) (main_arg13 : FVec F S512 .f32) (main_arg14 : FVec F S512x2 .f32) (main_arg15 : FVec F S2 .f32) (main_v33 : IVec S_ 1) : IVec S_ 1 :=
  let main_v34 : FVec F S2513 .f32 := Host.absf main_arg7
  let main_cst_12 : FVec F S_ .f32 := constant S_ .f32 0x7F800000#32
  let main_v35 : FVec F S2513 .f32 := broadcastInDim S2513 ![] bcast_S_S2513 main_cst_12
  let main_v36 : IVec S2513 1 := cmpf .olt main_v34 main_v35
  let main_c_13 : IVec S_ 1 := constantI S_ 1 1#1
  let main_v37 : IVec S_ 1 := (fun x v => Host.reduce IntOp.andi x v reducesTo_S2513_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_arg12 main_arg13 main_arg14 main_arg15 main_v48 main_v49 main_v50

def fn_part1 {F : FTy → Type} [FloatOps F] (main_arg4 : FVec F S1024x2048 .f32) (main_arg5 : FVec F S2048 .f32) (main_arg6 : FVec F S1024x2513 .f32) (main_arg7 : FVec F S2513 .f32) (main_arg8 : FVec F S1024x2048 .f32) (main_arg9 : FVec F S2048 .f32) (main_arg10 : FVec F S4096x1024 .f32) (main_arg11 : FVec F S1024 .f32) (main_arg12 : FVec F S1024x512 .f32) (main_arg13 : FVec F S512 .f32) (main_arg14 : FVec F S512x2 .f32) (main_arg15 : FVec F S2 .f32) (main_v13 : IVec S_ 1) (main_v16 : IVec S2513 1) : IVec S_ 1 :=
  let main_c_5 : IVec S_ 1 := constantI S_ 1 1#1
  let main_v17 : IVec S_ 1 := (fun x v => Host.reduce IntOp.andi x v reducesTo_S2513_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x2513 .f32 := Host.absf main_arg6
  let main_cst_10 : FVec F S_ .f32 := constant S_ .f32 0x7F800000#32
  let main_v30 : FVec F S1024x2513 .f32 := broadcastInDim S1024x2513 ![] bcast_S_S1024x2513 main_cst_10
  let main_v31 : IVec S1024x2513 1 := cmpf .olt main_v29 main_v30
  let main_c_11 : IVec S_ 1 := constantI S_ 1 1#1
  let main_v32 : IVec S_ 1 := (fun x v => Host.reduce IntOp.andi x v reducesTo_S1024x2513_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S512x28x1024 .f32) (main_arg1 : FVec F S512x28x1024 .f32) (main_arg2 : FVec F S1024x2513 .f32) (main_arg3 : FVec F S2513 .f32) (main_arg4 : FVec F S1024x2048 .f32) (main_arg5 : FVec F S2048 .f32) (main_arg6 : FVec F S1024x2513 .f32) (main_arg7 : FVec F S2513 .f32) (main_arg8 : FVec F S1024x2048 .f32) (main_arg9 : FVec F S2048 .f32) (main_arg10 : FVec F S4096x1024 .f32) (main_arg11 : FVec F S1024 .f32) (main_arg12 : FVec F S1024x512 .f32) (main_arg13 : FVec F S512 .f32) (main_arg14 : FVec F S512x2 .f32) (main_arg15 : FVec F S2 .f32) : IVec S_ 1 :=
  let main_v0 : FVec F S512x28x1024 .f32 := Host.absf main_arg0
  let main_cst : FVec F S_ .f32 := constant S_ .f32 0x7F800000#32
  let main_v1 : FVec F S512x28x1024 .f32 := broadcastInDim S512x28x1024 ![] bcast_S_S512x28x1024 main_cst
  let main_v2 : IVec S512x28x1024 1 := cmpf .olt main_v0 main_v1
  let main_c : IVec S_ 1 := constantI S_ 1 1#1
  let main_v3 : IVec S_ 1 := (fun x v => Host.reduce IntOp.andi x v reducesTo_S512x28x1024_S_d0_1_2 h_S_) main_v2 main_c
  let main_v4 : FVec F S512x28x1024 .f32 := Host.absf main_arg1
  let main_cst_0 : FVec F S_ .f32 := constant S_ .f32 0x7F800000#32
  let main_v5 : FVec F S512x28x1024 .f32 := broadcastInDim S512x28x1024 ![] bcast_S_S512x28x1024 main_cst_0
  let main_v6 : IVec S512x28x1024 1 := cmpf .olt main_v4 main_v5
  let main_c_1 : IVec S_ 1 := constantI S_ 1 1#1
  let main_v7 : IVec S_ 1 := (fun x v => Host.reduce IntOp.andi x v reducesTo_S512x28x1024_S_d0_1_2 h_S_) main_v6 main_c_1
  let main_v8 : IVec S_ 1 := andi main_v3 main_v7
  let main_v9 : FVec F S1024x2513 .f32 := Host.absf main_arg2
  let main_cst_2 : FVec F S_ .f32 := constant S_ .f32 0x7F800000#32
  let main_v10 : FVec F S1024x2513 .f32 := broadcastInDim S1024x2513 ![] bcast_S_S1024x2513 main_cst_2
  let main_v11 : IVec S1024x2513 1 := cmpf .olt main_v9 main_v10
  let main_c_3 : IVec S_ 1 := constantI S_ 1 1#1
  let main_v12 : IVec S_ 1 := (fun x v => Host.reduce IntOp.andi x v reducesTo_S1024x2513_S_d0_1 h_S_) main_v11 main_c_3
  let main_v13 : IVec S_ 1 := andi main_v8 main_v12
  let main_v14 : FVec F S2513 .f32 := Host.absf main_arg3
  let main_cst_4 : FVec F S_ .f32 := constant S_ .f32 0x7F800000#32
  let main_v15 : FVec F S2513 .f32 := broadcastInDim S2513 ![] bcast_S_S2513 main_cst_4
  let main_v16 : IVec S2513 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S512x28x1024 : Shape := ⟨3, ![512, 28, 1024]⟩
abbrev S1024x2513 : Shape := ⟨2, ![1024, 2513]⟩
abbrev S2513 : Shape := ⟨1, ![2513]⟩
abbrev S1024x2048 : Shape := ⟨2, ![1024, 2048]⟩
abbrev S2048 : Shape := ⟨1, ![2048]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S512x1x1024 : Shape := ⟨3, ![512, 1, 1024]⟩
abbrev S512x1024 : Shape := ⟨2, ![512, 1024]⟩
abbrev S512x4x1024 : Shape := ⟨3, ![512, 4, 1024]⟩
abbrev S2048x1024 : Shape := ⟨2, ![2048, 1024]⟩
abbrev S_ : Shape := ⟨0, ![]⟩
abbrev S1024x2560 : Shape := ⟨2, ![1024, 2560]⟩
abbrev S2560 : Shape := ⟨1, ![2560]⟩
abbrev S2048x2560 : Shape := ⟨2, ![2048, 2560]⟩
abbrev S128x1024 : Shape := ⟨2, ![128, 1024]⟩
abbrev S128x2560 : Shape := ⟨2, ![128, 2560]⟩
abbrev S1x2560 : Shape := ⟨2, ![1, 2560]⟩
abbrev S128x2048 : Shape := ⟨2, ![128, 2048]⟩
abbrev S1x2048 : Shape := ⟨2, ![1, 2048]⟩
abbrev S1x1024 : Shape := ⟨2, ![1, 1024]⟩
abbrev S128x512 : Shape := ⟨2, ![128, 512]⟩
abbrev S1x512 : Shape := ⟨2, ![1, 512]⟩
abbrev S128x2 : Shape := ⟨2, ![128, 2]⟩
abbrev S1x2 : Shape := ⟨2, ![1, 2]⟩
abbrev S128 : Shape := ⟨1, ![128]⟩
abbrev S128x1 : Shape := ⟨2, ![128, 1]⟩
abbrev S2048x2513 : Shape := ⟨2, ![2048, 2513]⟩
abbrev S512x4x2513 : Shape := ⟨3, ![512, 4, 2513]⟩

abbrev nBuf : Space → Nat
  | .hbm => 71
  | .vmem => 21
  | .smem => 0
  | _ => 0

abbrev bufTy : (tb : Table) → Fin (tcTables nBuf tb) → BufTy
  | .hbm, ⟨0, _⟩ => ⟨S512x28x1024, .f32⟩
  | .hbm, ⟨1, _⟩ => ⟨S512x28x1024, .f32⟩
  | .hbm, ⟨2, _⟩ => ⟨S1024x2513, .f32⟩
  | .hbm, ⟨3, _⟩ => ⟨S2513, .f32⟩
  | .hbm, ⟨4, _⟩ => ⟨S1024x2048, .f32⟩
  | .hbm, ⟨5, _⟩ => ⟨S2048, .f32⟩
  | .hbm, ⟨6, _⟩ => ⟨S1024x2513, .f32⟩
  | .hbm, ⟨7, _⟩ => ⟨S2513, .f32⟩
  | .hbm, ⟨8, _⟩ => ⟨S1024x2048, .f32⟩
  | .hbm, ⟨9, _⟩ => ⟨S2048, .f32⟩
  | .hbm, ⟨10, _⟩ => ⟨S4096x1024, .f32⟩
  | .hbm, ⟨11, _⟩ => ⟨S1024, .f32⟩
  | .hbm, ⟨12, _⟩ => ⟨S1024x512, .f32⟩
  | .hbm, ⟨13, _⟩ => ⟨S512, .f32⟩
  | .hbm, ⟨14, _⟩ => ⟨S512x2, .f32⟩
  | .hbm, ⟨15, _⟩ => ⟨S2, .f32⟩
  | .hbm, ⟨16, _⟩ => ⟨S512x1x1024, .f32⟩
  | .hbm, ⟨17, _⟩ => ⟨S512x1024, .f32⟩
  | .hbm, ⟨18, _⟩ => ⟨S512x1x1024, .f32⟩
  | .hbm, ⟨19, _⟩ => ⟨S512x1024, .f32⟩
  | .hbm, ⟨20, _⟩ => ⟨S512x1x1024, .f32⟩
  | .hbm, ⟨21, _⟩ => ⟨S512x1024, .f32⟩
  | .hbm, ⟨22, _⟩ => ⟨S512x1x1024, .f32⟩
  | .hbm, ⟨23, _⟩ => ⟨S512x1024, .f32⟩
  | .hbm, ⟨24, _⟩ => ⟨S512x1x1024, .f32⟩
  | .hbm, ⟨25, _⟩ => ⟨S512x1x1024, .f32⟩
  | .hbm, ⟨26, _⟩ => ⟨S512x1x1024, .f32⟩
  | .hbm, ⟨27, _⟩ => ⟨S512x1x1024, .f32⟩
  | .hbm, ⟨28, _⟩ => ⟨S512x4x1024, .f32⟩
  | .hbm, ⟨29, _⟩ => ⟨S512x1x1024, .f32⟩
  | .hbm, ⟨30, _⟩ => ⟨S512x1024, .f32⟩
  | .hbm, ⟨31, _⟩ => ⟨S512x1x1024, .f32⟩
  | .hbm, ⟨32, _⟩ => ⟨S512x1024, .f32⟩
  | .hbm, ⟨33, _⟩ => ⟨S512x1x1024, .f32⟩
  | .hbm, ⟨34, _⟩ => ⟨S512x1024, .f32⟩
  | .hbm, ⟨35, _⟩ => ⟨S512x1x1024, .f32⟩
  | .hbm, ⟨36, _⟩ => ⟨S512x1024, .f32⟩
  | .hbm, ⟨37, _⟩ => ⟨S512x1x1024, .f32⟩
  | .hbm, ⟨38, _⟩ => ⟨S512x1x1024, .f32⟩
  | .hbm, ⟨39, _⟩ => ⟨S512x1x1024, .f32⟩
  | .hbm, ⟨40, _⟩ => ⟨S512x1x1024, .f32⟩
  | .hbm, ⟨41, _⟩ => ⟨S512x4x1024, .f32⟩
  | .hbm, ⟨42, _⟩ => ⟨S2048x1024, .f32⟩
  | .hbm, ⟨43, _⟩ => ⟨S2048x1024, .bf16⟩
  | .hbm, ⟨44, _⟩ => ⟨S2048x1024, .f32⟩
  | .hbm, ⟨45, _⟩ => ⟨S2048x1024, .bf16⟩
  | .hbm, ⟨46, _⟩ => ⟨S_, .i32⟩
  | .hbm, ⟨47, _⟩ => ⟨S_, .f32⟩
  | .hbm, ⟨48, _⟩ => ⟨S1024x2560, .f32⟩
  | .hbm, ⟨49, _⟩ => ⟨S_, .i32⟩
  | .hbm, ⟨50, _⟩ => ⟨S_, .f32⟩
  | .hbm, ⟨51, _⟩ => ⟨S2560, .f32⟩
  | .hbm, ⟨52, _⟩ => ⟨S_, .i32⟩
  | .hbm, ⟨53, _⟩ => ⟨S_, .f32⟩
  | .hbm, ⟨54, _⟩ => ⟨S1024x2560, .f32⟩
  | .hbm, ⟨55, _⟩ => ⟨S_, .i32⟩
  | .hbm, ⟨56, _⟩ => ⟨S_, .f32⟩
  | .hbm, ⟨57, _⟩ => ⟨S2560, .f32⟩
  | .hbm, ⟨58, _⟩ => ⟨S1024x2560, .bf16⟩
  | .hbm, ⟨59, _⟩ => ⟨S1024x2048, .bf16⟩
  | .hbm, ⟨60, _⟩ => ⟨S1024x2560, .bf16⟩
  | .hbm, ⟨61, _⟩ => ⟨S1024x2048, .bf16⟩
  | .hbm, ⟨62, _⟩ => ⟨S2048x1024, .f32⟩
  | .hbm, ⟨63, _⟩ => ⟨S2048x1024, .bf16⟩
  | .hbm, ⟨64, _⟩ => ⟨S2048x1024, .f32⟩
  | .hbm, ⟨65, _⟩ => ⟨S2048x1024, .bf16⟩
  | .hbm, ⟨66, _⟩ => ⟨S1024x512, .bf16⟩
  | .hbm, ⟨67, _⟩ => ⟨S512x2, .bf16⟩
  | .hbm, ⟨68, _⟩ => ⟨S2048x2560, .f32⟩
  | .hbm, ⟨69, _⟩ => ⟨S2048x2513, .f32⟩
  | .hbm, ⟨70, _⟩ => ⟨S512x4x2513, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x2560, .bf16⟩
  | .local _ .vmem, ⟨5, _⟩ => ⟨S2560, .f32⟩
  | .local _ .vmem, ⟨6, _⟩ => ⟨S1024x2048, .bf16⟩
  | .local _ .vmem, ⟨7, _⟩ => ⟨S2048, .f32⟩
  | .local _ .vmem, ⟨8, _⟩ => ⟨S1024x2560, .bf16⟩
  | .local _ .vmem, ⟨9, _⟩ => ⟨S2560, .f32⟩
  | .local _ .vmem, ⟨10, _⟩ => ⟨S1024x2048, .bf16⟩
  | .local _ .vmem, ⟨11, _⟩ => ⟨S2048, .f32⟩
  | .local _ .vmem, ⟨12, _⟩ => ⟨S2048x1024, .bf16⟩
  | .local _ .vmem, ⟨13, _⟩ => ⟨S2048x1024, .bf16⟩
  | .local _ .vmem, ⟨14, _⟩ => ⟨S1024, .f32⟩
  | .local _ .vmem, ⟨15, _⟩ => ⟨S1024x512, .bf16⟩
  | .local _ .vmem, ⟨16, _⟩ => ⟨S512, .f32⟩
  | .local _ .vmem, ⟨17, _⟩ => ⟨S512x2, .bf16⟩
  | .local _ .vmem, ⟨18, _⟩ => ⟨S2, .f32⟩
  | .local _ .vmem, ⟨19, _⟩ => ⟨S128x2560, .f32⟩
  | .local _ .vmem, ⟨20, _⟩ => ⟨S128x2560, .f32⟩
  | _, _ => ⟨S512x28x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_call0_v0 : Ref sig .tc := ⟨.hbm, 47, rfl⟩
abbrev main_v30 : Ref sig .tc := ⟨.hbm, 48, rfl⟩
abbrev main_c_0 : Ref sig .tc := ⟨.hbm, 49, rfl⟩
abbrev main_call1_v0 : Ref sig .tc := ⟨.hbm, 50, rfl⟩
abbrev main_v31 : Ref sig .tc := ⟨.hbm, 51, rfl⟩
abbrev main_c_1 : Ref sig .tc := ⟨.hbm, 52, rfl⟩
abbrev main_call2_v0 : Ref sig .tc := ⟨.hbm, 53, rfl⟩
abbrev main_v32 : Ref sig .tc := ⟨.hbm, 54, rfl⟩
abbrev main_c_2 : Ref sig .tc := ⟨.hbm, 55, rfl⟩
abbrev main_call3_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x2 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S128x2560 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S512x28x1024_S512x1x1024_0_12_0 : S512x28x1024.Slices ![0, 12, 0] S512x1x1024
  shapeCasts_S512x1x1024_S512x1024 : S512x1x1024.ShapeCasts S512x1024
  slices_S512x28x1024_S512x1x1024_0_16_0 : S512x28x1024.Slices ![0, 16, 0] S512x1x1024
  slices_S512x28x1024_S512x1x1024_0_20_0 : S512x28x1024.Slices ![0, 20, 0] S512x1x1024
  slices_S512x28x1024_S512x1x1024_0_24_0 : S512x28x1024.Slices ![0, 24, 0] S512x1x1024
  bcast_S512x1024_S512x1x1024_0_2 : S512x1024.BroadcastsInDim S512x1x1024 (![0, 2] : Fin 2 → Fin S512x1x1024.rank)
  concatenates_S512x1x1024_S512x1x1024_S512x1x1024_S512x1x1024_S512x4x1024_d1 : Shape.Concatenates [S512x1x1024, S512x1x1024, S512x1x1024, S512x1x1024] S512x4x1024 1
  shapeCasts_S512x4x1024_S2048x1024 : S512x4x1024.ShapeCasts S2048x1024
  bitsLt_bf16_f32 : FTy.bits .bf16 < FTy.bits .f32
  pads_S1024x2513_S1024x2560_000_0470 : S1024x2513.Pads (![0, 0] : Fin 2 → Nat) ![0, 47] ![0, 0] S1024x2560
  h_S_ : 0 < S_.numel
  pads_S2513_S2560_0470 : S2513.Pads (![0] : Fin 1 → Nat) ![47] ![0] S2560
  slices_S4096x1024_S2048x1024_0_0 : S4096x1024.Slices ![0, 0] S2048x1024
  slices_S4096x1024_S2048x1024_2048_0 : S4096x1024.Slices ![2048, 0] S2048x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x2560_S1024x2560_0_0 : ∀ a, (![0, 0] : Fin 2 → Nat) a + S1024x2560.size a ≤ S1024x2560.size a
  h_S1024x2560 : 0 < S1024x2560.numel
  shapeCasts_S1024x2560_S1024x2560 : S1024x2560.ShapeCasts S1024x2560
  inb_S2560_S2560_0 : ∀ a, (![0] : Fin 1 → Nat) a + S2560.size a ≤ S2560.size a
  h_S2560 : 0 < S2560.numel
  shapeCasts_S2560_S2560 : S2560.ShapeCasts S2560
  shapeCasts_S2560_S1x2560 : S2560.ShapeCasts S1x2560
  broadcasts_S1x2560_S128x2560 : S1x2560.Broadcasts S128x2560
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S128x2 : S1x2.Broadcasts S128x2
  reduces_S128x2_S128 : S128x2.Reduces [1] S128
  shapeCasts_S128_S128x1 : S128.ShapeCasts S128x1
  broadcasts_S128x1_S128x2 : S128x1.Broadcasts S128x2
  slices_S128x2_o0_0_S128x1 : S128x2.Slices ![0, 0] S128x1
  broadcasts_S128x1_S128x2560 : S128x1.Broadcasts S128x2560
  slices_S128x2_o0_1_S128x1 : S128x2.Slices ![0, 1] S128x1
  inb_S128x2560_S128x2560_0_0 : ∀ a, (![0, 0] : Fin 2 → Nat) a + S128x2560.size a ≤ S128x2560.size a
  h_S128x2560 : 0 < S128x2560.numel
  slices_S2048x2560_S2048x2513_0_0 : S2048x2560.Slices ![0, 0] S2048x2513
  shapeCasts_S2048x2513_S512x4x2513 : S2048x2513.ShapeCasts S512x4x2513
  dot_S128x1024_S1024x2560_S128x2560_1_0_0_1_n_n_wf : DotDims.WF S128x1024 S1024x2560 S128x2560 [1] [0] [0] [1] [] []
  dot_S128x1024_S1024x2048_S128x2048_1_0_0_1_n_n_wf : DotDims.WF S128x1024 S1024x2048 S128x2048 [1] [0] [0] [1] [] []
  dot_S128x2048_S2048x1024_S128x1024_1_0_0_1_n_n_wf : DotDims.WF S128x2048 S2048x1024 S128x1024 [1] [0] [0] [1] [] []
  dot_S128x1024_S1024x512_S128x512_1_0_0_1_n_n_wf : DotDims.WF S128x1024 S1024x512 S128x512 [1] [0] [0] [1] [] []
  dot_S128x512_S512x2_S128x2_1_0_0_1_n_n_wf : DotDims.WF S128x512 S512x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .bf16 = 32 ∨ (Rect.block (s := S2048x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S2048x1024.size a
  hwx0_1 : ∀ i : grid0.Coords, EltTy.bits .bf16 = 32 ∨ (Rect.block (s := S2048x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2560.size a ≤ S1024x2560.size a
  hwx0_2 : ∀ i : grid0.Coords, EltTy.bits .bf16 = 32 ∨ (Rect.block (s := S1024x2560) S1024x2560.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2560.size a ≤ S2560.size a
  hwx0_3 : ∀ i : grid0.Coords, EltTy.bits .f32 = 32 ∨ (Rect.block (s := S2560) S2560.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2560.size a ≤ S1024x2560.size a
  hwx0_6 : ∀ i : grid0.Coords, EltTy.bits .bf16 = 32 ∨ (Rect.block (s := S1024x2560) S1024x2560.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2560.size a ≤ S2560.size a
  hwx0_7 : ∀ i : grid0.Coords, EltTy.bits .f32 = 32 ∨ (Rect.block (s := S2560) S2560.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S1024x2048.size a
  hwx0_8 : ∀ i : grid0.Coords, EltTy.bits .bf16 = 32 ∨ (Rect.block (s := S1024x2048) S1024x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x1024.size a ≤ S2048x1024.size a
  hwx0_10 : ∀ i : grid0.Coords, EltTy.bits .bf16 = 32 ∨ (Rect.block (s := S2048x1024) S2048x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S1024x512.size a
  hwx0_13 : ∀ i : grid0.Coords, EltTy.bits .bf16 = 32 ∨ (Rect.block (s := S1024x512) S1024x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x2.size a ≤ S512x2.size a
  hwx0_15 : ∀ i : grid0.Coords, EltTy.bits .bf16 = 32 ∨ (Rect.block (s := S512x2) S512x2.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x2560.size a ≤ S2048x2560.size a
  hwx0_17 : ∀ i : grid0.Coords, EltTy.bits .f32 = 32 ∨ (Rect.block (s := S2048x2560) S128x2560.size (cc0_transform_17 i) (hinb0_17 i)).WholeWords (EltTy.packing .f32)

variable [Facts₀]

def dot_S128x1024_S1024x2560_S128x2560_1_0_0_1_n_n : DotDims S128x1024 S1024x2560 S128x2560 where
  lhsContracting := [1]
  rhsContracting := [0]
  lhsNonContracting := [0]
  rhsNonContracting := [1]
  lhsBatch := []
  rhsBatch := []
  wf := dot_S128x1024_S1024x2560_S128x2560_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x2_S128x2_1_0_0_1_n_n : DotDims S128x512 S512x2 S128x2 where
  lhsContracting := [1]
  rhsContracting := [0]
  lhsNonContracting := [0]
  rhsNonContracting := [1]
  lhsBatch := []
  rhsBatch := []
  wf := dot_S128x512_S512x2_S128x2_1_0_0_1_n_n_wf

abbrev win0_0 : Pipeline.Window sig grid0 :=
  Pipeline.Window.ofSpec (Memref.whole main_v27) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x2560.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2560.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1024x2560.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S2560.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1024x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S2048x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42) S1024x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v43) S512x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v44) S128x2560.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S512x28x1024 : Shape := ⟨3, ![512, 28, 1024]⟩
abbrev S1024x2513 : Shape := ⟨2, ![1024, 2513]⟩
abbrev S2513 : Shape := ⟨1, ![2513]⟩
abbrev S1024x2048 : Shape := ⟨2, ![1024, 2048]⟩
abbrev S2048 : Shape := ⟨1, ![2048]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S512x16x1024 : Shape := ⟨3, ![512, 16, 1024]⟩
abbrev S512x16x2513 : Shape := ⟨3, ![512, 16, 2513]⟩
abbrev S1x1x2513 : Shape := ⟨3, ![1, 1, 2513]⟩
abbrev S512x16x2048 : Shape := ⟨3, ![512, 16, 2048]⟩
abbrev S1x1x2048 : Shape := ⟨3, ![1, 1, 2048]⟩
abbrev S4 : Shape := ⟨1, ![4]⟩
abbrev S_ : Shape := ⟨0, ![]⟩
abbrev S4x1 : Shape := ⟨2, ![4, 1]⟩
abbrev S512x4x2513 : Shape := ⟨3, ![512, 4, 2513]⟩
abbrev S512x4x2048 : Shape := ⟨3, ![512, 4, 2048]⟩
abbrev S7 : Shape := ⟨1, ![7]⟩
abbrev S7x1 : Shape := ⟨2, ![7, 1]⟩
abbrev S512x7x1024 : Shape := ⟨3, ![512, 7, 1024]⟩
abbrev S512x7x2513 : Shape := ⟨3, ![512, 7, 2513]⟩
abbrev S512x7x2048 : Shape := ⟨3, ![512, 7, 2048]⟩
abbrev S512x4x4096 : Shape := ⟨3, ![512, 4, 4096]⟩
abbrev S2048x4096 : Shape := ⟨2, ![2048, 4096]⟩
abbrev S2048x1024 : Shape := ⟨2, ![2048, 1024]⟩
abbrev S1x1024 : Shape := ⟨2, ![1, 1024]⟩
abbrev S2048x512 : Shape := ⟨2, ![2048, 512]⟩
abbrev S1x512 : Shape := ⟨2, ![1, 512]⟩
abbrev S2048x2 : Shape := ⟨2, ![2048, 2]⟩
abbrev S1x2 : Shape := ⟨2, ![1, 2]⟩
abbrev S2048x1 : Shape := ⟨2, ![2048, 1]⟩
abbrev S512x4x2 : Shape := ⟨3, ![512, 4, 2]⟩
abbrev S512x4x1 : Shape := ⟨3, ![512, 4, 1]⟩

abbrev nBuf : Space → Nat
  | .hbm => 118
  | .vmem => 0
  | .smem => 0
  | _ => 0

abbrev bufTy : (tb : Table) → Fin (tcTables nBuf tb) → BufTy
  | .hbm, ⟨0, _⟩ => ⟨S512x28x1024, .f32⟩
  | .hbm, ⟨1, _⟩ => ⟨S512x28x1024, .f32⟩
  | .hbm, ⟨2, _⟩ => ⟨S1024x2513, .f32⟩
  | .hbm, ⟨3, _⟩ => ⟨S2513, .f32⟩
  | .hbm, ⟨4, _⟩ => ⟨S1024x2048, .f32⟩
  | .hbm, ⟨5, _⟩ => ⟨S2048, .f32⟩
  | .hbm, ⟨6, _⟩ => ⟨S1024x2513, .f32⟩
  | .hbm, ⟨7, _⟩ => ⟨S2513, .f32⟩
  | .hbm, ⟨8, _⟩ => ⟨S1024x2048, .f32⟩
  | .hbm, ⟨9, _⟩ => ⟨S2048, .f32⟩
  | .hbm, ⟨10, _⟩ => ⟨S4096x1024, .f32⟩
  | .hbm, ⟨11, _⟩ => ⟨S1024, .f32⟩
  | .hbm, ⟨12, _⟩ => ⟨S1024x512, .f32⟩
  | .hbm, ⟨13, _⟩ => ⟨S512, .f32⟩
  | .hbm, ⟨14, _⟩ => ⟨S512x2, .f32⟩
  | .hbm, ⟨15, _⟩ => ⟨S2, .f32⟩
  | .hbm, ⟨16, _⟩ => ⟨S512x16x1024, .f32⟩
  | .hbm, ⟨17, _⟩ => ⟨S512x16x2513, .f32⟩
  | .hbm, ⟨18, _⟩ => ⟨S1x1x2513, .f32⟩
  | .hbm, ⟨19, _⟩ => ⟨S512x16x2513, .f32⟩
  | .hbm, ⟨20, _⟩ => ⟨S512x16x2513, .f32⟩
  | .hbm, ⟨21, _⟩ => ⟨S512x16x2048, .f32⟩
  | .hbm, ⟨22, _⟩ => ⟨S1x1x2048, .f32⟩
  | .hbm, ⟨23, _⟩ => ⟨S512x16x2048, .f32⟩
  | .hbm, ⟨24, _⟩ => ⟨S512x16x2048, .f32⟩
  | .hbm, ⟨25, _⟩ => ⟨S4, .i32⟩
  | .hbm, ⟨26, _⟩ => ⟨S_, .i32⟩
  | .hbm, ⟨27, _⟩ => ⟨S4, .i32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i1⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S4, .i32⟩
  | .hbm, ⟨39, _⟩ => ⟨S4x1, .i32⟩
  | .hbm, ⟨40, _⟩ => ⟨S512x4x2513, .f32⟩
  | .hbm, ⟨41, _⟩ => ⟨S_, .i32⟩
  | .hbm, ⟨42, _⟩ => ⟨S4, .i32⟩
  | .hbm, ⟨43, _⟩ => ⟨S4, .i1⟩
  | .hbm, ⟨44, _⟩ => ⟨S_, .i32⟩
  | .hbm, ⟨45, _⟩ => ⟨S4, .i32⟩
  | .hbm, ⟨46, _⟩ => ⟨S4, .i32⟩
  | .hbm, ⟨47, _⟩ => ⟨S4, .i32⟩
  | .hbm, ⟨48, _⟩ => ⟨S4x1, .i32⟩
  | .hbm, ⟨49, _⟩ => ⟨S512x4x2048, .f32⟩
  | .hbm, ⟨50, _⟩ => ⟨S7, .i32⟩
  | .hbm, ⟨51, _⟩ => ⟨S_, .i32⟩
  | .hbm, ⟨52, _⟩ => ⟨S7, .i32⟩
  | .hbm, ⟨53, _⟩ => ⟨S7, .i32⟩
  | .hbm, ⟨54, _⟩ => ⟨S_, .i32⟩
  | .hbm, ⟨55, _⟩ => ⟨S7, .i32⟩
  | .hbm, ⟨56, _⟩ => ⟨S7, .i32⟩
  | .hbm, ⟨57, _⟩ => ⟨S_, .i32⟩
  | .hbm, ⟨58, _⟩ => ⟨S7, .i32⟩
  | .hbm, ⟨59, _⟩ => ⟨S7, .i1⟩
  | .hbm, ⟨60, _⟩ => ⟨S_, .i32⟩
  | .hbm, ⟨61, _⟩ => ⟨S7, .i32⟩
  | .hbm, ⟨62, _⟩ => ⟨S7, .i32⟩
  | .hbm, ⟨63, _⟩ => ⟨S7, .i32⟩
  | .hbm, ⟨64, _⟩ => ⟨S7x1, .i32⟩
  | .hbm, ⟨65, _⟩ => ⟨S512x7x1024, .f32⟩
  | .hbm, ⟨66, _⟩ => ⟨S512x7x2513, .f32⟩
  | .hbm, ⟨67, _⟩ => ⟨S1x1x2513, .f32⟩
  | .hbm, ⟨68, _⟩ => ⟨S512x7x2513, .f32⟩
  | .hbm, ⟨69, _⟩ => ⟨S512x7x2513, .f32⟩
  | .hbm, ⟨70, _⟩ => ⟨S512x7x2048, .f32⟩
  | .hbm, ⟨71, _⟩ => ⟨S1x1x2048, .f32⟩
  | .hbm, ⟨72, _⟩ => ⟨S512x7x2048, .f32⟩
  | .hbm, ⟨73, _⟩ => ⟨S512x7x2048, .f32⟩
  | .hbm, ⟨74, _⟩ => ⟨S512x4x2513, .f32⟩
  | .hbm, ⟨75, _⟩ => ⟨S512x4x2048, .f32⟩
  | .hbm, ⟨76, _⟩ => ⟨S512x4x4096, .f32⟩
  | .hbm, ⟨77, _⟩ => ⟨S2048x4096, .f32⟩
  | .hbm, ⟨78, _⟩ => ⟨S2048x1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S2048x512, .f32⟩
  | .hbm, ⟨86, _⟩ => ⟨S1x512, .f32⟩
  | .hbm, ⟨87, _⟩ => ⟨S2048x512, .f32⟩
  | .hbm, ⟨88, _⟩ => ⟨S2048x512, .f32⟩
  | .hbm, ⟨89, _⟩ => ⟨S_, .f32⟩
  | .hbm, ⟨90, _⟩ => ⟨S2048x512, .f32⟩
  | .hbm, ⟨91, _⟩ => ⟨S2048x512, .f32⟩
  | .hbm, ⟨92, _⟩ => ⟨S2048x2, .f32⟩
  | .hbm, ⟨93, _⟩ => ⟨S1x2, .f32⟩
  | .hbm, ⟨94, _⟩ => ⟨S2048x2, .f32⟩
  | .hbm, ⟨95, _⟩ => ⟨S2048x2, .f32⟩
  | .hbm, ⟨96, _⟩ => ⟨S_, .f32⟩
  | .hbm, ⟨97, _⟩ => ⟨S2048, .f32⟩
  | .hbm, ⟨98, _⟩ => ⟨S_, .f32⟩
  | .hbm, ⟨99, _⟩ => ⟨S2048, .f32⟩
  | .hbm, ⟨100, _⟩ => ⟨S2048, .f32⟩
  | .hbm, ⟨101, _⟩ => ⟨S2048x1, .f32⟩
  | .hbm, ⟨102, _⟩ => ⟨S2048x2, .f32⟩
  | .hbm, ⟨103, _⟩ => ⟨S2048x2, .f32⟩
  | .hbm, ⟨104, _⟩ => ⟨S2048x2, .f32⟩
  | .hbm, ⟨105, _⟩ => ⟨S_, .f32⟩
  | .hbm, ⟨106, _⟩ => ⟨S2048, .f32⟩
  | .hbm, ⟨107, _⟩ => ⟨S2048x1, .f32⟩
  | .hbm, ⟨108, _⟩ => ⟨S2048x2, .f32⟩
  | .hbm, ⟨109, _⟩ => ⟨S2048x2, .f32⟩
  | .hbm, ⟨110, _⟩ => ⟨S512x4x2, .f32⟩
  | .hbm, ⟨111, _⟩ => ⟨S512x4x1, .f32⟩
  | .hbm, ⟨112, _⟩ => ⟨S512x4x2513, .f32⟩
  | .hbm, ⟨113, _⟩ => ⟨S512x4x2513, .f32⟩
  | .hbm, ⟨114, _⟩ => ⟨S512x4x1, .f32⟩
  | .hbm, ⟨115, _⟩ => ⟨S512x4x2513, .f32⟩
  | .hbm, ⟨116, _⟩ => ⟨S512x4x2513, .f32⟩
  | .hbm, ⟨117, _⟩ => ⟨S512x4x2513, .f32⟩
  | _, _ => ⟨S512x28x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_cst : Ref sig .tc := ⟨.hbm, 89, rfl⟩
abbrev main_call1_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst : Ref sig .tc := ⟨.hbm, 96, rfl⟩
abbrev main_v66 : Ref sig .tc := ⟨.hbm, 97, rfl⟩
abbrev main_cst_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_10 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S512x28x1024_S512x16x1024_0_12_0 : S512x28x1024.Slices ![0, 12, 0] S512x16x1024
  bcast_S2513_S1x1x2513_2 : S2513.BroadcastsInDim S1x1x2513 (![2] : Fin 1 → Fin S1x1x2513.rank)
  bcast_S1x1x2513_S512x16x2513_0_1_2 : S1x1x2513.BroadcastsInDim S512x16x2513 (![0, 1, 2] : Fin 3 → Fin S512x16x2513.rank)
  bcast_S2048_S1x1x2048_2 : S2048.BroadcastsInDim S1x1x2048 (![2] : Fin 1 → Fin S1x1x2048.rank)
  bcast_S1x1x2048_S512x16x2048_0_1_2 : S1x1x2048.BroadcastsInDim S512x16x2048 (![0, 1, 2] : Fin 3 → Fin S512x16x2048.rank)
  bcast_S_S4 : S_.BroadcastsInDim S4 (![] : Fin 0 → Fin S4.rank)
  bcast_S4_S4x1_0 : S4.BroadcastsInDim S4x1 (![0] : Fin 1 → Fin S4x1.rank)
  bcast_S_S7 : S_.BroadcastsInDim S7 (![] : Fin 0 → Fin S7.rank)
  bcast_S7_S7x1_0 : S7.BroadcastsInDim S7x1 (![0] : Fin 1 → Fin S7x1.rank)
  bcast_S1x1x2513_S512x7x2513_0_1_2 : S1x1x2513.BroadcastsInDim S512x7x2513 (![0, 1, 2] : Fin 3 → Fin S512x7x2513.rank)
  bcast_S1x1x2048_S512x7x2048_0_1_2 : S1x1x2048.BroadcastsInDim S512x7x2048 (![0, 1, 2] : Fin 3 → Fin S512x7x2048.rank)
  slices_S512x7x2513_S512x4x2513_0_3_0 : S512x7x2513.Slices ![0, 3, 0] S512x4x2513
  slices_S512x7x2048_S512x4x2048_0_3_0 : S512x7x2048.Slices ![0, 3, 0] S512x4x2048
  concatenates_S512x4x2048_S512x4x2048_S512x4x4096_d2 : Shape.Concatenates [S512x4x2048, S512x4x2048] S512x4x4096 2
  shapeCasts_S512x4x4096_S2048x4096 : S512x4x4096.ShapeCasts S2048x4096
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  reducesTo_S2048x2_S2048_d1 : S2048x2.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2_0_1 : S2048x1.BroadcastsInDim S2048x2 (![0, 1] : Fin 2 → Fin S2048x2.rank)
  shapeCasts_S2048x2_S512x4x2 : S2048x2.ShapeCasts S512x4x2
  slices_S512x4x2_S512x4x1_0_0_0 : S512x4x2.Slices ![0, 0, 0] S512x4x1
  bcast_S512x4x1_S512x4x2513_0_1_2 : S512x4x1.BroadcastsInDim S512x4x2513 (![0, 1, 2] : Fin 3 → Fin S512x4x2513.rank)
  slices_S512x4x2_S512x4x1_0_0_1 : S512x4x2.Slices ![0, 0, 1] S512x4x1
  dot_S512x16x1024_S1024x2513_S512x16x2513_2_0_01_1_n_n_wf : DotDims.WF S512x16x1024 S1024x2513 S512x16x2513 [2] [0] [0, 1] [1] [] []
  dot_S512x16x1024_S1024x2048_S512x16x2048_2_0_01_1_n_n_wf : DotDims.WF S512x16x1024 S1024x2048 S512x16x2048 [2] [0] [0, 1] [1] [] []
  gather_S512x16x2513_S4x1_S512x4x2513_02_1_n_n_1_1_51212513_wf : GatherDims.WF S512x16x2513 S4x1 S512x4x2513 [0, 2] [1] [] [1] [] 1 ![512, 1, 2513]
  gather_S512x16x2048_S4x1_S512x4x2048_02_1_n_n_1_1_51212048_wf : GatherDims.WF S512x16x2048 S4x1 S512x4x2048 [0, 2] [1] [] [1] [] 1 ![512, 1, 2048]
  gather_S512x28x1024_S7x1_S512x7x1024_02_1_n_n_1_1_51211024_wf : GatherDims.WF S512x28x1024 S7x1 S512x7x1024 [0, 2] [1] [] [1] [] 1 ![512, 1, 1024]
  dot_S512x7x1024_S1024x2513_S512x7x2513_2_0_01_1_n_n_wf : DotDims.WF S512x7x1024 S1024x2513 S512x7x2513 [2] [0] [0, 1] [1] [] []
  dot_S512x7x1024_S1024x2048_S512x7x2048_2_0_01_1_n_n_wf : DotDims.WF S512x7x1024 S1024x2048 S512x7x2048 [2] [0] [0, 1] [1] [] []
  dot_S2048x4096_S4096x1024_S2048x1024_1_0_0_1_n_n_wf : DotDims.WF S2048x4096 S4096x1024 S2048x1024 [1] [0] [0] [1] [] []
  dot_S2048x1024_S1024x512_S2048x512_1_0_0_1_n_n_wf : DotDims.WF S2048x1024 S1024x512 S2048x512 [1] [0] [0] [1] [] []
  dot_S2048x512_S512x2_S2048x2_1_0_0_1_n_n_wf : DotDims.WF S2048x512 S512x2 S2048x2 [1] [0] [0] [1] [] []

variable [Facts₀]

def dot_S512x16x1024_S1024x2513_S512x16x2513_2_0_01_1_n_n : DotDims S512x16x1024 S1024x2513 S512x16x2513 where
  lhsContracting := [2]
  rhsContracting := [0]
  lhsNonContracting := [0, 1]
  rhsNonContracting := [1]
  lhsBatch := []
  rhsBatch := []
  wf := dot_S512x16x1024_S1024x2513_S512x16x2513_2_0_01_1_n_n_wf
def dot_S512x16x1024_S1024x2048_S512x16x2048_2_0_01_1_n_n : DotDims S512x16x1024 S1024x2048 S512x16x2048 where
  lhsContracting := [2]
  rhsContracting := [0]
  lhsNonContracting := [0, 1]
  rhsNonContracting := [1]
  lhsBatch := []
  rhsBatch := []
  wf := dot_S512x16x1024_S1024x2048_S512x16x2048_2_0_01_1_n_n_wf
def gather_S512x16x2513_S4x1_S512x4x2513_02_1_n_n_1_1_51212513 : GatherDims S512x16x2513 S4x1 S512x4x2513 where
  offsetDims := [0, 2]
  collapsedSliceDims := [1]
  operandBatchingDims := []
  startIndicesBatchingDims := []
  startIndexMap := [1]
  indexVectorDim := 1
  sliceSizes := ![512, 1, 2513]
  wf := gather_S512x16x2513_S4x1_S512x4x2513_02_1_n_n_1_1_51212513_wf
def gather_S512x16x2048_S4x1_S512x4x2048_02_1_n_n_1_1_51212048 : GatherDims S512x16x2048 S4x1 S512x4x2048 where
  offsetDims := [0, 2]
  collapsedSliceDims := [1]
  operandBatchingDims := []
  startIndicesBatchingDims := []
  startIndexMap := [1]
  indexVectorDim := 1
  sliceSizes := ![512, 1, 2048]
  wf := gather_S512x16x2048_S4x1_S512x4x2048_02_1_n_n_1_1_51212048_wf
def gather_S512x28x1024_S7x1_S512x7x1024_02_1_n_n_1_1_51211024 : GatherDims S512x28x1024 S7x1 S512x7x1024 where
  offsetDims := [0, 2]
  collapsedSliceDims := [1]
  operandBatchingDims := []
  startIndicesBatchingDims := []
  startIndexMap := [1]
  indexVectorDim := 1
  sliceSizes := ![512, 1, 1024]
  wf := gather_S512x28x1024_S7x1_S512x7x1024_02_1_n_n_1_1_51211024_wf
def dot_S512x7x1024_S1024x2513_S512x7x2513_2_0_01_1_n_n : DotDims S512x7x1024 S1024x2513 S512x7x2513 where
  lhsContracting := [2]
  rhsContracting := [0]
  lhsNonContracting := [0, 1]
  rhsNonContracting := [1]
  lhsBatch := []
  rhsBatch := []
  wf := dot_S512x7x1024_S1024x2513_S512x7x2513_2_0_01_1_n_n_wf
def dot_S512x7x1024_S1024x2048_S512x7x2048_2_0_01_1_n_n : DotDims S512x7x1024 S1024x2048 S512x7x2048 where
  lhsContracting := [2]
  rhsContracting := [0]
  lhsNonContracting := [0, 1]
  rhsNonContracting := [1]
  lhsBatch := []
  rhsBatch := []
  wf := dot_S512x7x1024_S1024x2048_S512x7x2048_2_0_01_1_n_n_wf
def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

class Facts : Prop extends Facts₀ where

variable [Facts]
-- ==== Proof.KernelDefsBits.lean ====
/-
  The kernel program around its one region, as definitions (no proofs here).

  * `V0` / `V`: what the sixteen argument arrays and the host-computed operand arrays hold when the region is entered —
    the host operations before the region (the four selected frames of each input gathered and flattened to
    2048 rows, the score weights and biases zero-padded from 2513 to 2560 columns, the first-layer weights cut in
    two halves, every matrix passed on in the narrower float format) applied to the launch contents.
  * `iblk`: window `w`'s block at grid point `t`, read off its array.
  * `stored`: the one value the body stores, as a function of the seventeen loaded blocks: the mixture
    `s₀ · a₀ + s₁ · a₁` of the two branch scores under the gate's softmax weights, for 128 rows and 2560 columns.
  * `out0_17`: what the output window's buffer holds after the body — that value, stored over the whole buffer.
  * `dats`: the proof data of the pipeline: the arrays as the region finds them, every input buffer at its block and the
    output buffer at `out0_17` of the point's input blocks after the body, nothing owed, full shares.
-/
import proofs.«164370_j19464791785861_2_alg».proof.Proof.Gen.Kernel.Launch
import proofs.«164370_j19464791785861_2_alg».proof.Proof.Gen.Kernel.Skeleton
import proofs.«164370_j19464791785861_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered: after the nine stretches of host operations
    before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole output buffer, as the rectangle the body stores through. -/
abbrev r0_17 : Rect S128x2560 := Rect.unit (s := S128x2560) ![0, 0] S128x2560.size inb_S128x2560_S128x2560_0_0

/-- The value the body stores, from the seventeen loaded blocks (in window order): the two branch scores
    (`k0_pay4`, `k0_pay5`), the two branch contexts (`k0_pay6`, `k0_pay7`), the gate's softmax weights over them
    (`k0_pay8`, and its first column `k0_pay9`), and the mixture (`k0_pay1`). -/
def stored (x0 x1 : Vec F S128x1024 .bf16) (a2 : Vec F S1024x2560 .bf16) (a3 : Vec F S2560 .f32)
    (a4 : Vec F S1024x2048 .bf16) (a5 : Vec F S2048 .f32) (a6 : Vec F S1024x2560 .bf16) (a7 : Vec F S2560 .f32)
    (a8 : Vec F S1024x2048 .bf16) (a9 : Vec F S2048 .f32) (a10 a11 : Vec F S2048x1024 .bf16) (a12 : Vec F S1024 .f32)
    (a13 : Vec F S1024x512 .bf16) (a14 : Vec F S512 .f32) (a15 : Vec F S512x2 .bf16) (a16 : Vec F S2 .f32) :
    FVec F S128x2560 .f32 :=
  k0_pay1 (k0_pay4 x0 a2 a3) (k0_pay5 x1 a6 a7)
    (k0_pay8 (k0_pay6 x0 a4 a5) (k0_pay7 x1 a8 a9) a10 a11 a12 a13 a14 a15 a16)
    (k0_pay9 (k0_pay6 x0 a4 a5) (k0_pay7 x1 a8 a9) a10 a11 a12 a13 a14 a15 a16)

/-- The output window's staging buffer after the body, from the input windows' blocks: its one store, over the whole
    buffer. -/
def out0_17 (x0 x1 : Vec F S128x1024 .bf16) (a2 : Vec F S1024x2560 .bf16) (a3 : Vec F S2560 .f32)
    (a4 : Vec F S1024x2048 .bf16) (a5 : Vec F S2048 .f32) (a6 : Vec F S1024x2560 .bf16) (a7 : Vec F S2560 .f32)
    (a8 : Vec F S1024x2048 .bf16) (a9 : Vec F S2048 .f32) (a10 a11 : Vec F S2048x1024 .bf16) (a12 : Vec F S1024 .f32)
    (a13 : Vec F S1024x512 .bf16) (a14 : Vec F S512 .f32) (a15 : Vec F S512x2 .bf16) (a16 : Vec F S2 .f32) :
    Vec F S128x2560 .f32 :=
  View.canon [⟨r0_17, stored x0 x1 a2 a3 a4 a5 a6 a7 a8 a9 a10 a11 a12 a13 a14 a15 a16⟩]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

end Cert.Kernel.Hand

end
-- ==== Proof.FrameBitsHost.lean ====
/-
  The kernel program's host side, around its one region.

  @main is nine stretches of host operations (gathering four frames of each input and flattening them to 2048 rows,
  zero-padding the score weights and biases from 2513 to 2560 columns, halving the first-layer weights, narrowing the
  matrices' float format), then the region, then a slice back to 2513 columns and a reshape. This module shows that
  the region is entered with every buffer at the fold of the earlier operations over the launch contents, that
  none of the sixteen argument arrays is written by any host operation before or after the region — so each is found
  as launched and ends as launched —, and that the later operations touch only buffers the region leaves alone.
-/
import proofs.«164370_j19464791785861_2_alg».proof.Proof.Gen.Kernel.Launch
import proofs.«164370_j19464791785861_2_alg».proof.Proof.Gen.Kernel.Skeleton
import proofs.«164370_j19464791785861_2_alg».proof.Proof.Gen.Kernel.Points
import proofs.«164370_j19464791785861_2_alg».proof.Proof.KernelDefsBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is nine stretches of host operations, the region, and one more stretch. None of the host operations
allocates; each writes only its own result buffer, which is neither an argument array nor (after the region) an
array of the pipeline. -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host operations before it, the region, the host operations after it. It reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: the slice and the reshape each write their own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays when the region is entered

No host operation before the region writes an argument array: the region finds each as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The proof data's arrays are the region-entry contents. -/
theorem A_eq (c : Dev nD) (w : Fin cfg0.W) : (dats m 0 c).A w = V m c (Pipeline.arrRef spec0 w) := by
  dsimp only [dats]

/-! ## The argument arrays at the end

No host operation after the region writes an argument array. An argument the pipeline stages as an input window's
array ends at the array's final contents, which for an input are its entry contents; every other argument bypasses the
region. -/

theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 5).trans
    (((dats m 0 c).arrAt_in 5 rfl _).trans ((A_eq m c 5).trans (V_main_arg5 m c)))
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (c : Dev nD) :
    Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 9).trans
    (((dats m 0 c).arrAt_in 9 rfl _).trans ((A_eq m c 9).trans (V_main_arg9 m c)))
theorem W_main_arg10 (c : Dev nD) :
    Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (c : Dev nD) :
    Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 12).trans
    (((dats m 0 c).arrAt_in 12 rfl _).trans ((A_eq m c 12).trans (V_main_arg11 m c)))
theorem W_main_arg12 (c : Dev nD) :
    Pipeline.afterTail₀ cfgs (dats m) 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem W_main_arg13 (c : Dev nD) :
    Pipeline.afterTail₀ cfgs (dats m) 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 14).trans
    (((dats m 0 c).arrAt_in 14 rfl _).trans ((A_eq m c 14).trans (V_main_arg13 m c)))
theorem W_main_arg14 (c : Dev nD) :
    Pipeline.afterTail₀ cfgs (dats m) 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem W_main_arg15 (c : Dev nD) :
    Pipeline.afterTail₀ cfgs (dats m) 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 16).trans
    (((dats m 0 c).arrAt_in 16 rfl _).trans ((A_eq m c 16).trans (V_main_arg15 m c)))

end Cert.Kernel.Hand

end
-- ==== Proof.FrameBitsBody.lean ====
/-
  The kernel body's triple.

  The body reads each of its seventeen input staging buffers whole, computes the gated mixture of the two branch
  scores for 128 rows and 2560 columns, reads the output buffer once without using the value, and stores the mixture
  over the whole output buffer. So on buffers holding the blocks `x0 … x16` it ends with the inputs untouched and the
  output buffer at the one store's value: the canonical contents of a single covering piece.
-/
import proofs.«164370_j19464791785861_2_alg».proof.Proof.Gen.Kernel.Launch
import proofs.«164370_j19464791785861_2_alg».proof.Proof.Gen.Kernel.Skeleton
import proofs.«164370_j19464791785861_2_alg».proof.Proof.Gen.Kernel.Points
import proofs.«164370_j19464791785861_2_alg».proof.Proof.KernelDefsBits
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every access of the body — seventeen loads, one for each input window, and the one store — is through the
rectangle that is the whole staging buffer; a load through it reads the buffer's contents. -/

abbrev r_S128x1024 : Rect S128x1024 := Rect.unit (s := S128x1024) ![0, 0] S128x1024.size inb_S128x1024_S128x1024_0_0
abbrev r_S1024x2560 : Rect S1024x2560 := Rect.unit (s := S1024x2560) ![0, 0] S1024x2560.size inb_S1024x2560_S1024x2560_0_0
abbrev r_S2560 : Rect S2560 := Rect.unit (s := S2560) ![0] S2560.size inb_S2560_S2560_0
abbrev r_S1024x2048 : Rect S1024x2048 := Rect.unit (s := S1024x2048) ![0, 0] S1024x2048.size inb_S1024x2048_S1024x2048_0_0
abbrev r_S2048 : Rect S2048 := Rect.unit (s := S2048) ![0] S2048.size inb_S2048_S2048_0
abbrev r_S2048x1024 : Rect S2048x1024 := Rect.unit (s := S2048x1024) ![0, 0] S2048x1024.size inb_S2048x1024_S2048x1024_0_0
abbrev r_S1024 : Rect S1024 := Rect.unit (s := S1024) ![0] S1024.size inb_S1024_S1024_0
abbrev r_S1024x512 : Rect S1024x512 := Rect.unit (s := S1024x512) ![0, 0] S1024x512.size inb_S1024x512_S1024x512_0_0
abbrev r_S512 : Rect S512 := Rect.unit (s := S512) ![0] S512.size inb_S512_S512_0
abbrev r_S512x2 : Rect S512x2 := Rect.unit (s := S512x2) ![0, 0] S512x2.size inb_S512x2_S512x2_0_0
abbrev r_S2 : Rect S2 := Rect.unit (s := S2) ![0] S2.size inb_S2_S2_0

theorem hz1 : (![0] : Fin 1 → Nat) = fun _ => 0 := funext fun a => by fin_cases a <;> rfl
theorem hz2 : (![0, 0] : Fin 2 → Nat) = fun _ => 0 := funext fun a => by fin_cases a <;> rfl

theorem ld_S128x1024 {e : EltTy} (X : S128x1024.Idx → Elt F e) : View.ld X r_S128x1024 = X :=
  View.ld_unit_zero (S := S128x1024) hz2 inb_S128x1024_S128x1024_0_0 X
theorem ld_S1024x2560 {e : EltTy} (X : S1024x2560.Idx → Elt F e) : View.ld X r_S1024x2560 = X :=
  View.ld_unit_zero (S := S1024x2560) hz2 inb_S1024x2560_S1024x2560_0_0 X
theorem ld_S2560 {e : EltTy} (X : S2560.Idx → Elt F e) : View.ld X r_S2560 = X :=
  View.ld_unit_zero (S := S2560) hz1 inb_S2560_S2560_0 X
theorem ld_S1024x2048 {e : EltTy} (X : S1024x2048.Idx → Elt F e) : View.ld X r_S1024x2048 = X :=
  View.ld_unit_zero (S := S1024x2048) hz2 inb_S1024x2048_S1024x2048_0_0 X
theorem ld_S2048 {e : EltTy} (X : S2048.Idx → Elt F e) : View.ld X r_S2048 = X :=
  View.ld_unit_zero (S := S2048) hz1 inb_S2048_S2048_0 X
theorem ld_S2048x1024 {e : EltTy} (X : S2048x1024.Idx → Elt F e) : View.ld X r_S2048x1024 = X :=
  View.ld_unit_zero (S := S2048x1024) hz2 inb_S2048x1024_S2048x1024_0_0 X
theorem ld_S1024 {e : EltTy} (X : S1024.Idx → Elt F e) : View.ld X r_S1024 = X :=
  View.ld_unit_zero (S := S1024) hz1 inb_S1024_S1024_0 X
theorem ld_S1024x512 {e : EltTy} (X : S1024x512.Idx → Elt F e) : View.ld X r_S1024x512 = X :=
  View.ld_unit_zero (S := S1024x512) hz2 inb_S1024x512_S1024x512_0_0 X
theorem ld_S512 {e : EltTy} (X : S512.Idx → Elt F e) : View.ld X r_S512 = X :=
  View.ld_unit_zero (S := S512) hz1 inb_S512_S512_0 X
theorem ld_S512x2 {e : EltTy} (X : S512x2.Idx → Elt F e) : View.ld X r_S512x2 = X :=
  View.ld_unit_zero (S := S512x2) hz2 inb_S512x2_S512x2_0_0 X
theorem ld_S2 {e : EltTy} (X : S2.Idx → Elt F e) : View.ld X r_S2 = X :=
  View.ld_unit_zero (S := S2) hz1 inb_S2_S2_0 X

/-- The stored value over what the seventeen whole-buffer loads read is the stored value over the buffers' contents. -/
theorem stored_ld (x0 : Vec F S128x1024 .bf16) (x1 : Vec F S128x1024 .bf16) (x2 : Vec F S1024x2560 .bf16) (x3 : Vec F S2560 .f32) (x4 : Vec F S1024x2048 .bf16) (x5 : Vec F S2048 .f32) (x6 : Vec F S1024x2560 .bf16) (x7 : Vec F S2560 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) :
    stored (View.ld x0 r_S128x1024) (View.ld x1 r_S128x1024) (View.ld x2 r_S1024x2560) (View.ld x3 r_S2560) (View.ld x4 r_S1024x2048) (View.ld x5 r_S2048) (View.ld x6 r_S1024x2560) (View.ld x7 r_S2560) (View.ld x8 r_S1024x2048) (View.ld x9 r_S2048) (View.ld x10 r_S2048x1024) (View.ld x11 r_S2048x1024) (View.ld x12 r_S1024) (View.ld x13 r_S1024x512) (View.ld x14 r_S512) (View.ld x15 r_S512x2) (View.ld x16 r_S2) = stored x0 x1 x2 x3 x4 x5 x6 x7 x8 x9 x10 x11 x12 x13 x14 x15 x16 := by
  simp only [ld_S128x1024, ld_S1024x2560, ld_S2560, ld_S1024x2048, ld_S2048, ld_S2048x1024, ld_S1024, ld_S1024x512, ld_S512, ld_S512x2, ld_S2]

/-- The one store is the whole buffer, so it covers it. -/
theorem cover0_17 (p0 : Vec F S128x2560 .f32) (y : S128x2560.Idx) :
    ∃ pc ∈ ([⟨r0_17, p0⟩] : List (View.Piece (Elt F) S128x2560 .f32)), y ∈ pc.1.set :=
  View.cover_of_tiled [⟨r0_17, p0⟩] S128x2560.size (by rfl) y

/-! ## The body's triple -/

set_option maxHeartbeats 4000000 in
/-- The kernel body on whole staging memrefs — the seventeen inputs' at read contents `xW`, the output's at
    anything — runs to the continuation holding the inputs' as they were and the output's at `out0_17` of them:
    seventeen whole-buffer loads, pure arithmetic, one load of the output buffer whose value is not used, and one
    whole-buffer store. -/
theorem sound_kernel (c : Dev nD) (E : Set ℕ) (i : grid0.Coords) (arg1 : Memref sig .tc .vmem S128x1024 .bf16) (harg1 : arg1.IsWhole) (arg2 : Memref sig .tc .vmem S128x1024 .bf16) (harg2 : arg2.IsWhole) (arg3 : Memref sig .tc .vmem S1024x2560 .bf16) (harg3 : arg3.IsWhole) (arg4 : Memref sig .tc .vmem S2560 .f32) (harg4 : arg4.IsWhole) (arg5 : Memref sig .tc .vmem S1024x2048 .bf16) (harg5 : arg5.IsWhole) (arg6 : Memref sig .tc .vmem S2048 .f32) (harg6 : arg6.IsWhole) (arg7 : Memref sig .tc .vmem S1024x2560 .bf16) (harg7 : arg7.IsWhole) (arg8 : Memref sig .tc .vmem S2560 .f32) (harg8 : arg8.IsWhole) (arg9 : Memref sig .tc .vmem S1024x2048 .bf16) (harg9 : arg9.IsWhole) (arg10 : Memref sig .tc .vmem S2048 .f32) (harg10 : arg10.IsWhole) (arg11 : Memref sig .tc .vmem S2048x1024 .bf16) (harg11 : arg11.IsWhole) (arg12 : Memref sig .tc .vmem S2048x1024 .bf16) (harg12 : arg12.IsWhole) (arg13 : Memref sig .tc .vmem S1024 .f32) (harg13 : arg13.IsWhole) (arg14 : Memref sig .tc .vmem S1024x512 .bf16) (harg14 : arg14.IsWhole) (arg15 : Memref sig .tc .vmem S512 .f32) (harg15 : arg15.IsWhole) (arg16 : Memref sig .tc .vmem S512x2 .bf16) (harg16 : arg16.IsWhole) (arg17 : Memref sig .tc .vmem S2 .f32) (harg17 : arg17.IsWhole) (arg18 : Memref sig .tc .vmem S128x2560 .f32) (harg18 : arg18.IsWhole)
    (x0 : Vec F S128x1024 .bf16) (x1 : Vec F S128x1024 .bf16) (x2 : Vec F S1024x2560 .bf16) (x3 : Vec F S2560 .f32) (x4 : Vec F S1024x2048 .bf16) (x5 : Vec F S2048 .f32) (x6 : Vec F S1024x2560 .bf16) (x7 : Vec F S2560 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__fusion_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fusion_kernel_eq_skeleton]; unfold cc0__fusion_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  try dsimp only
  unfold out0_17
  rw [← stored_ld]
  exact View.read_writes_eq_canon _ _ _ (cover0_17 _)

end Cert.Kernel.Hand

end
-- ==== Proof.FrameBits.lean ====
/-
  The frame of the kernel program: every weakly fair execution terminates without a fault and the sixteen argument
  arrays end as launched.

  At each of the sixteen grid points every input window's current buffer holds that window's block — fetched there, or
  still there from the first point for the fifteen windows whose block never moves —, so the body's triple applies
  and leaves the output window's buffer at the stored mixture of the point's blocks; that is the body obligation of
  the pipeline. The launch theorem then runs @main around the region, and each argument array is read off the final
  memory: an argument staged as an input window's array keeps its entry contents, every other argument bypasses the
  region and is written by no host operation.
-/
import proofs.«164370_j19464791785861_2_alg».proof.Proof.Gen.Kernel.Launch
import proofs.«164370_j19464791785861_2_alg».proof.Proof.Gen.Kernel.Skeleton
import proofs.«164370_j19464791785861_2_alg».proof.Proof.Gen.Kernel.Points
import proofs.«164370_j19464791785861_2_alg».proof.Proof.FrameBitsHost
import proofs.«164370_j19464791785861_2_alg».proof.Proof.FrameBitsBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input window's buffer

An input window's current staging buffer holds its block at every point, whether the pipeline fetched it there
(windows 0 and 1, indexed by the grid coordinate) or only at the first point (windows 2 to 16, whose block index
never moves): the body leaves every input block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The proof data, window by window -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`: the invariant, nothing owed, and the eighteen windows' current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has every array of the pipeline at what the proof data says and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame run's post read at the sixteen argument arrays: an argument the pipeline stages as an input window's
    array holds the array's final contents, which for an input are its entry contents; every other argument bypasses
    the region and is written by no host operation after it. Either way it holds what it was launched with. -/
theorem post_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (W_main_arg0 m c),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c),
    ((h c).1 5).trans (((dats m 0 c).arrAt_in 5 rfl _).trans ((A_eq m c 5).trans (V_main_arg5 m c))),
    ((h c).2 main_arg6 (Pipeline.mem_restRefs_of main_arg6 (by decide) (by decide))).trans (W_main_arg6 m c),
    ((h c).2 main_arg7 (Pipeline.mem_restRefs_of main_arg7 (by decide) (by decide))).trans (W_main_arg7 m c),
    ((h c).2 main_arg8 (Pipeline.mem_restRefs_of main_arg8 (by decide) (by decide))).trans (W_main_arg8 m c),
    ((h c).1 9).trans (((dats m 0 c).arrAt_in 9 rfl _).trans ((A_eq m c 9).trans (V_main_arg9 m c))),
    ((h c).2 main_arg10 (Pipeline.mem_restRefs_of main_arg10 (by decide) (by decide))).trans (W_main_arg10 m c),
    ((h c).1 12).trans (((dats m 0 c).arrAt_in 12 rfl _).trans ((A_eq m c 12).trans (V_main_arg11 m c))),
    ((h c).2 main_arg12 (Pipeline.mem_restRefs_of main_arg12 (by decide) (by decide))).trans (W_main_arg12 m c),
    ((h c).1 14).trans (((dats m 0 c).arrAt_in 14 rfl _).trans ((A_eq m c 14).trans (V_main_arg13 m c))),
    ((h c).2 main_arg14 (Pipeline.mem_restRefs_of main_arg14 (by decide) (by decide))).trans (W_main_arg14 m c),
    ((h c).1 16).trans (((dats m 0 c).arrAt_in 16 rfl _).trans ((A_eq m c 16).trans (V_main_arg15 m c)))⟩

/-- The frame: every weakly fair execution terminates without a fault and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => post_args m r h c) (run_main m ρ)

end Cert.Kernel.Hand

end
-- ==== Proof.KernelDefs.lean ====
/-
  The kernel program around its one region, as definitions (no proofs here).

  * `V0` / `V`: what the sixteen argument arrays and the host-computed operand arrays hold when the region is entered —
    the host operations before the region (the four selected frames of each input gathered and flattened to
    2048 rows, the score weights and biases zero-padded from 2513 to 2560 columns, the first-layer weights cut in
    two halves, every matrix passed on in the narrower float format) applied to the launch contents.
  * `iblk`: window `w`'s block at grid point `t`, read off its array.
  * `stored`: the one value the body stores, as a function of the seventeen loaded blocks: the mixture
    `s₀ · a₀ + s₁ · a₁` of the two branch scores under the gate's softmax weights, for 128 rows and 2560 columns.
  * `out0_17`: what the output window's buffer holds after the body — that value, stored over the whole buffer.
  * `dats`: the proof data of the pipeline: the arrays as the region finds them, every input buffer at its block and the
    output buffer at `out0_17` of the point's input blocks after the body, nothing owed, full shares.
-/
import proofs.«164370_j19464791785861_2_alg».proof.Proof.Gen.KernelIdeal.Launch
import proofs.«164370_j19464791785861_2_alg».proof.Proof.Gen.KernelIdeal.Skeleton
import proofs.«164370_j19464791785861_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered: after the nine stretches of host operations
    before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole output buffer, as the rectangle the body stores through. -/
abbrev r0_17 : Rect S128x2560 := Rect.unit (s := S128x2560) ![0, 0] S128x2560.size inb_S128x2560_S128x2560_0_0

/-- The value the body stores, from the seventeen loaded blocks (in window order): the two branch scores
    (`k0_pay4`, `k0_pay5`), the two branch contexts (`k0_pay6`, `k0_pay7`), the gate's softmax weights over them
    (`k0_pay8`, and its first column `k0_pay9`), and the mixture (`k0_pay1`). -/
def stored (x0 x1 : Vec F S128x1024 .bf16) (a2 : Vec F S1024x2560 .bf16) (a3 : Vec F S2560 .f32)
    (a4 : Vec F S1024x2048 .bf16) (a5 : Vec F S2048 .f32) (a6 : Vec F S1024x2560 .bf16) (a7 : Vec F S2560 .f32)
    (a8 : Vec F S1024x2048 .bf16) (a9 : Vec F S2048 .f32) (a10 a11 : Vec F S2048x1024 .bf16) (a12 : Vec F S1024 .f32)
    (a13 : Vec F S1024x512 .bf16) (a14 : Vec F S512 .f32) (a15 : Vec F S512x2 .bf16) (a16 : Vec F S2 .f32) :
    FVec F S128x2560 .f32 :=
  k0_pay1 (k0_pay4 x0 a2 a3) (k0_pay5 x1 a6 a7)
    (k0_pay8 (k0_pay6 x0 a4 a5) (k0_pay7 x1 a8 a9) a10 a11 a12 a13 a14 a15 a16)
    (k0_pay9 (k0_pay6 x0 a4 a5) (k0_pay7 x1 a8 a9) a10 a11 a12 a13 a14 a15 a16)

/-- The output window's staging buffer after the body, from the input windows' blocks: its one store, over the whole
    buffer. -/
def out0_17 (x0 x1 : Vec F S128x1024 .bf16) (a2 : Vec F S1024x2560 .bf16) (a3 : Vec F S2560 .f32)
    (a4 : Vec F S1024x2048 .bf16) (a5 : Vec F S2048 .f32) (a6 : Vec F S1024x2560 .bf16) (a7 : Vec F S2560 .f32)
    (a8 : Vec F S1024x2048 .bf16) (a9 : Vec F S2048 .f32) (a10 a11 : Vec F S2048x1024 .bf16) (a12 : Vec F S1024 .f32)
    (a13 : Vec F S1024x512 .bf16) (a14 : Vec F S512 .f32) (a15 : Vec F S512x2 .bf16) (a16 : Vec F S2 .f32) :
    Vec F S128x2560 .f32 :=
  View.canon [⟨r0_17, stored x0 x1 a2 a3 a4 a5 a6 a7 a8 a9 a10 a11 a12 a13 a14 a15 a16⟩]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

end Cert.KernelIdeal.Hand

end
-- ==== Proof.FrameIdealHost.lean ====
/-
  The kernel program's host side, around its one region.

  @main is nine stretches of host operations (gathering four frames of each input and flattening them to 2048 rows,
  zero-padding the score weights and biases from 2513 to 2560 columns, halving the first-layer weights, narrowing the
  matrices' float format), then the region, then a slice back to 2513 columns and a reshape. This module shows that
  the region is entered with every buffer at the fold of the earlier operations over the launch contents, that
  none of the sixteen argument arrays is written by any host operation before or after the region — so each is found
  as launched and ends as launched —, and that the later operations touch only buffers the region leaves alone.
-/
import proofs.«164370_j19464791785861_2_alg».proof.Proof.Gen.KernelIdeal.Launch
import proofs.«164370_j19464791785861_2_alg».proof.Proof.Gen.KernelIdeal.Skeleton
import proofs.«164370_j19464791785861_2_alg».proof.Proof.Gen.KernelIdeal.Points
import proofs.«164370_j19464791785861_2_alg».proof.Proof.KernelDefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is nine stretches of host operations, the region, and one more stretch. None of the host operations
allocates; each writes only its own result buffer, which is neither an argument array nor (after the region) an
array of the pipeline. -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host operations before it, the region, the host operations after it. It reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: the slice and the reshape each write their own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays when the region is entered

No host operation before the region writes an argument array: the region finds each as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The proof data's arrays are the region-entry contents. -/
theorem A_eq (c : Dev nD) (w : Fin cfg0.W) : (dats m 0 c).A w = V m c (Pipeline.arrRef spec0 w) := by
  dsimp only [dats]

/-! ## The argument arrays at the end

No host operation after the region writes an argument array. An argument the pipeline stages as an input window's
array ends at the array's final contents, which for an input are its entry contents; every other argument bypasses the
region. -/

theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 5).trans
    (((dats m 0 c).arrAt_in 5 rfl _).trans ((A_eq m c 5).trans (V_main_arg5 m c)))
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (c : Dev nD) :
    Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 9).trans
    (((dats m 0 c).arrAt_in 9 rfl _).trans ((A_eq m c 9).trans (V_main_arg9 m c)))
theorem W_main_arg10 (c : Dev nD) :
    Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (c : Dev nD) :
    Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 12).trans
    (((dats m 0 c).arrAt_in 12 rfl _).trans ((A_eq m c 12).trans (V_main_arg11 m c)))
theorem W_main_arg12 (c : Dev nD) :
    Pipeline.afterTail₀ cfgs (dats m) 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem W_main_arg13 (c : Dev nD) :
    Pipeline.afterTail₀ cfgs (dats m) 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 14).trans
    (((dats m 0 c).arrAt_in 14 rfl _).trans ((A_eq m c 14).trans (V_main_arg13 m c)))
theorem W_main_arg14 (c : Dev nD) :
    Pipeline.afterTail₀ cfgs (dats m) 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem W_main_arg15 (c : Dev nD) :
    Pipeline.afterTail₀ cfgs (dats m) 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr (cfgs 0).spec launch0.win.arr_inj c (V0 m c) _ 16).trans
    (((dats m 0 c).arrAt_in 16 rfl _).trans ((A_eq m c 16).trans (V_main_arg15 m c)))

end Cert.KernelIdeal.Hand

end
-- ==== Proof.FrameIdealBody.lean ====
/-
  The kernel body's triple.

  The body reads each of its seventeen input staging buffers whole, computes the gated mixture of the two branch
  scores for 128 rows and 2560 columns, reads the output buffer once without using the value, and stores the mixture
  over the whole output buffer. So on buffers holding the blocks `x0 … x16` it ends with the inputs untouched and the
  output buffer at the one store's value: the canonical contents of a single covering piece.
-/
import proofs.«164370_j19464791785861_2_alg».proof.Proof.Gen.KernelIdeal.Launch
import proofs.«164370_j19464791785861_2_alg».proof.Proof.Gen.KernelIdeal.Skeleton
import proofs.«164370_j19464791785861_2_alg».proof.Proof.Gen.KernelIdeal.Points
import proofs.«164370_j19464791785861_2_alg».proof.Proof.KernelDefs
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every access of the body — seventeen loads, one for each input window, and the one store — is through the
rectangle that is the whole staging buffer; a load through it reads the buffer's contents. -/

abbrev r_S128x1024 : Rect S128x1024 := Rect.unit (s := S128x1024) ![0, 0] S128x1024.size inb_S128x1024_S128x1024_0_0
abbrev r_S1024x2560 : Rect S1024x2560 := Rect.unit (s := S1024x2560) ![0, 0] S1024x2560.size inb_S1024x2560_S1024x2560_0_0
abbrev r_S2560 : Rect S2560 := Rect.unit (s := S2560) ![0] S2560.size inb_S2560_S2560_0
abbrev r_S1024x2048 : Rect S1024x2048 := Rect.unit (s := S1024x2048) ![0, 0] S1024x2048.size inb_S1024x2048_S1024x2048_0_0
abbrev r_S2048 : Rect S2048 := Rect.unit (s := S2048) ![0] S2048.size inb_S2048_S2048_0
abbrev r_S2048x1024 : Rect S2048x1024 := Rect.unit (s := S2048x1024) ![0, 0] S2048x1024.size inb_S2048x1024_S2048x1024_0_0
abbrev r_S1024 : Rect S1024 := Rect.unit (s := S1024) ![0] S1024.size inb_S1024_S1024_0
abbrev r_S1024x512 : Rect S1024x512 := Rect.unit (s := S1024x512) ![0, 0] S1024x512.size inb_S1024x512_S1024x512_0_0
abbrev r_S512 : Rect S512 := Rect.unit (s := S512) ![0] S512.size inb_S512_S512_0
abbrev r_S512x2 : Rect S512x2 := Rect.unit (s := S512x2) ![0, 0] S512x2.size inb_S512x2_S512x2_0_0
abbrev r_S2 : Rect S2 := Rect.unit (s := S2) ![0] S2.size inb_S2_S2_0

theorem hz1 : (![0] : Fin 1 → Nat) = fun _ => 0 := funext fun a => by fin_cases a <;> rfl
theorem hz2 : (![0, 0] : Fin 2 → Nat) = fun _ => 0 := funext fun a => by fin_cases a <;> rfl

theorem ld_S128x1024 {e : EltTy} (X : S128x1024.Idx → Elt F e) : View.ld X r_S128x1024 = X :=
  View.ld_unit_zero (S := S128x1024) hz2 inb_S128x1024_S128x1024_0_0 X
theorem ld_S1024x2560 {e : EltTy} (X : S1024x2560.Idx → Elt F e) : View.ld X r_S1024x2560 = X :=
  View.ld_unit_zero (S := S1024x2560) hz2 inb_S1024x2560_S1024x2560_0_0 X
theorem ld_S2560 {e : EltTy} (X : S2560.Idx → Elt F e) : View.ld X r_S2560 = X :=
  View.ld_unit_zero (S := S2560) hz1 inb_S2560_S2560_0 X
theorem ld_S1024x2048 {e : EltTy} (X : S1024x2048.Idx → Elt F e) : View.ld X r_S1024x2048 = X :=
  View.ld_unit_zero (S := S1024x2048) hz2 inb_S1024x2048_S1024x2048_0_0 X
theorem ld_S2048 {e : EltTy} (X : S2048.Idx → Elt F e) : View.ld X r_S2048 = X :=
  View.ld_unit_zero (S := S2048) hz1 inb_S2048_S2048_0 X
theorem ld_S2048x1024 {e : EltTy} (X : S2048x1024.Idx → Elt F e) : View.ld X r_S2048x1024 = X :=
  View.ld_unit_zero (S := S2048x1024) hz2 inb_S2048x1024_S2048x1024_0_0 X
theorem ld_S1024 {e : EltTy} (X : S1024.Idx → Elt F e) : View.ld X r_S1024 = X :=
  View.ld_unit_zero (S := S1024) hz1 inb_S1024_S1024_0 X
theorem ld_S1024x512 {e : EltTy} (X : S1024x512.Idx → Elt F e) : View.ld X r_S1024x512 = X :=
  View.ld_unit_zero (S := S1024x512) hz2 inb_S1024x512_S1024x512_0_0 X
theorem ld_S512 {e : EltTy} (X : S512.Idx → Elt F e) : View.ld X r_S512 = X :=
  View.ld_unit_zero (S := S512) hz1 inb_S512_S512_0 X
theorem ld_S512x2 {e : EltTy} (X : S512x2.Idx → Elt F e) : View.ld X r_S512x2 = X :=
  View.ld_unit_zero (S := S512x2) hz2 inb_S512x2_S512x2_0_0 X
theorem ld_S2 {e : EltTy} (X : S2.Idx → Elt F e) : View.ld X r_S2 = X :=
  View.ld_unit_zero (S := S2) hz1 inb_S2_S2_0 X

/-- The stored value over what the seventeen whole-buffer loads read is the stored value over the buffers' contents. -/
theorem stored_ld (x0 : Vec F S128x1024 .bf16) (x1 : Vec F S128x1024 .bf16) (x2 : Vec F S1024x2560 .bf16) (x3 : Vec F S2560 .f32) (x4 : Vec F S1024x2048 .bf16) (x5 : Vec F S2048 .f32) (x6 : Vec F S1024x2560 .bf16) (x7 : Vec F S2560 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) :
    stored (View.ld x0 r_S128x1024) (View.ld x1 r_S128x1024) (View.ld x2 r_S1024x2560) (View.ld x3 r_S2560) (View.ld x4 r_S1024x2048) (View.ld x5 r_S2048) (View.ld x6 r_S1024x2560) (View.ld x7 r_S2560) (View.ld x8 r_S1024x2048) (View.ld x9 r_S2048) (View.ld x10 r_S2048x1024) (View.ld x11 r_S2048x1024) (View.ld x12 r_S1024) (View.ld x13 r_S1024x512) (View.ld x14 r_S512) (View.ld x15 r_S512x2) (View.ld x16 r_S2) = stored x0 x1 x2 x3 x4 x5 x6 x7 x8 x9 x10 x11 x12 x13 x14 x15 x16 := by
  simp only [ld_S128x1024, ld_S1024x2560, ld_S2560, ld_S1024x2048, ld_S2048, ld_S2048x1024, ld_S1024, ld_S1024x512, ld_S512, ld_S512x2, ld_S2]

/-- The one store is the whole buffer, so it covers it. -/
theorem cover0_17 (p0 : Vec F S128x2560 .f32) (y : S128x2560.Idx) :
    ∃ pc ∈ ([⟨r0_17, p0⟩] : List (View.Piece (Elt F) S128x2560 .f32)), y ∈ pc.1.set :=
  View.cover_of_tiled [⟨r0_17, p0⟩] S128x2560.size (by rfl) y

/-! ## The body's triple -/

set_option maxHeartbeats 4000000 in
/-- The kernel body on whole staging memrefs — the seventeen inputs' at read contents `xW`, the output's at
    anything — runs to the continuation holding the inputs' as they were and the output's at `out0_17` of them:
    seventeen whole-buffer loads, pure arithmetic, one load of the output buffer whose value is not used, and one
    whole-buffer store. -/
theorem sound_kernel (c : Dev nD) (E : Set ℕ) (i : grid0.Coords) (arg1 : Memref sig .tc .vmem S128x1024 .bf16) (harg1 : arg1.IsWhole) (arg2 : Memref sig .tc .vmem S128x1024 .bf16) (harg2 : arg2.IsWhole) (arg3 : Memref sig .tc .vmem S1024x2560 .bf16) (harg3 : arg3.IsWhole) (arg4 : Memref sig .tc .vmem S2560 .f32) (harg4 : arg4.IsWhole) (arg5 : Memref sig .tc .vmem S1024x2048 .bf16) (harg5 : arg5.IsWhole) (arg6 : Memref sig .tc .vmem S2048 .f32) (harg6 : arg6.IsWhole) (arg7 : Memref sig .tc .vmem S1024x2560 .bf16) (harg7 : arg7.IsWhole) (arg8 : Memref sig .tc .vmem S2560 .f32) (harg8 : arg8.IsWhole) (arg9 : Memref sig .tc .vmem S1024x2048 .bf16) (harg9 : arg9.IsWhole) (arg10 : Memref sig .tc .vmem S2048 .f32) (harg10 : arg10.IsWhole) (arg11 : Memref sig .tc .vmem S2048x1024 .bf16) (harg11 : arg11.IsWhole) (arg12 : Memref sig .tc .vmem S2048x1024 .bf16) (harg12 : arg12.IsWhole) (arg13 : Memref sig .tc .vmem S1024 .f32) (harg13 : arg13.IsWhole) (arg14 : Memref sig .tc .vmem S1024x512 .bf16) (harg14 : arg14.IsWhole) (arg15 : Memref sig .tc .vmem S512 .f32) (harg15 : arg15.IsWhole) (arg16 : Memref sig .tc .vmem S512x2 .bf16) (harg16 : arg16.IsWhole) (arg17 : Memref sig .tc .vmem S2 .f32) (harg17 : arg17.IsWhole) (arg18 : Memref sig .tc .vmem S128x2560 .f32) (harg18 : arg18.IsWhole)
    (x0 : Vec F S128x1024 .bf16) (x1 : Vec F S128x1024 .bf16) (x2 : Vec F S1024x2560 .bf16) (x3 : Vec F S2560 .f32) (x4 : Vec F S1024x2048 .bf16) (x5 : Vec F S2048 .f32) (x6 : Vec F S1024x2560 .bf16) (x7 : Vec F S2560 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__fusion_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__fusion_kernel_eq_skeleton]; unfold cc0__fusion_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  try dsimp only
  unfold out0_17
  rw [← stored_ld]
  exact View.read_writes_eq_canon _ _ _ (cover0_17 _)

end Cert.KernelIdeal.Hand

end
-- ==== Proof.FrameIdeal.lean ====
/-
  The frame of the kernel program: every weakly fair execution terminates without a fault and the sixteen argument
  arrays end as launched.

  At each of the sixteen grid points every input window's current buffer holds that window's block — fetched there, or
  still there from the first point for the fifteen windows whose block never moves —, so the body's triple applies
  and leaves the output window's buffer at the stored mixture of the point's blocks; that is the body obligation of
  the pipeline. The launch theorem then runs @main around the region, and each argument array is read off the final
  memory: an argument staged as an input window's array keeps its entry contents, every other argument bypasses the
  region and is written by no host operation.
-/
import proofs.«164370_j19464791785861_2_alg».proof.Proof.Gen.KernelIdeal.Launch
import proofs.«164370_j19464791785861_2_alg».proof.Proof.Gen.KernelIdeal.Skeleton
import proofs.«164370_j19464791785861_2_alg».proof.Proof.Gen.KernelIdeal.Points
import proofs.«164370_j19464791785861_2_alg».proof.Proof.FrameIdealHost
import proofs.«164370_j19464791785861_2_alg».proof.Proof.FrameIdealBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input window's buffer

An input window's current staging buffer holds its block at every point, whether the pipeline fetched it there
(windows 0 and 1, indexed by the grid coordinate) or only at the first point (windows 2 to 16, whose block index
never moves): the body leaves every input block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The proof data, window by window -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`: the invariant, nothing owed, and the eighteen windows' current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has every array of the pipeline at what the proof data says and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame run's post read at the sixteen argument arrays: an argument the pipeline stages as an input window's
    array holds the array's final contents, which for an input are its entry contents; every other argument bypasses
    the region and is written by no host operation after it. Either way it holds what it was launched with. -/
theorem post_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (W_main_arg0 m c),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c),
    ((h c).1 5).trans (((dats m 0 c).arrAt_in 5 rfl _).trans ((A_eq m c 5).trans (V_main_arg5 m c))),
    ((h c).2 main_arg6 (Pipeline.mem_restRefs_of main_arg6 (by decide) (by decide))).trans (W_main_arg6 m c),
    ((h c).2 main_arg7 (Pipeline.mem_restRefs_of main_arg7 (by decide) (by decide))).trans (W_main_arg7 m c),
    ((h c).2 main_arg8 (Pipeline.mem_restRefs_of main_arg8 (by decide) (by decide))).trans (W_main_arg8 m c),
    ((h c).1 9).trans (((dats m 0 c).arrAt_in 9 rfl _).trans ((A_eq m c 9).trans (V_main_arg9 m c))),
    ((h c).2 main_arg10 (Pipeline.mem_restRefs_of main_arg10 (by decide) (by decide))).trans (W_main_arg10 m c),
    ((h c).1 12).trans (((dats m 0 c).arrAt_in 12 rfl _).trans ((A_eq m c 12).trans (V_main_arg11 m c))),
    ((h c).2 main_arg12 (Pipeline.mem_restRefs_of main_arg12 (by decide) (by decide))).trans (W_main_arg12 m c),
    ((h c).1 14).trans (((dats m 0 c).arrAt_in 14 rfl _).trans ((A_eq m c 14).trans (V_main_arg13 m c))),
    ((h c).2 main_arg14 (Pipeline.mem_restRefs_of main_arg14 (by decide) (by decide))).trans (W_main_arg14 m c),
    ((h c).1 16).trans (((dats m 0 c).arrAt_in 16 rfl _).trans ((A_eq m c 16).trans (V_main_arg15 m c)))⟩

/-- The frame: every weakly fair execution terminates without a fault and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => post_args m r h c) (run_main m ρ)

end Cert.KernelIdeal.Hand

end
-- ==== Proof.Spec.lean ====
/-
  The mathematics of the fused two-branch gate, stated once, on the extended reals.

  For one selected frame (a row of 1024 features per branch) the program computes, for a score column:
    * two branch scores   s₀ = ⟨x₀, ws₀⟩ + β₀ and s₁ = ⟨x₁, ws₁⟩ + β₁   (the score column's weights and bias),
    * two branch contexts c₀ = x₀·Wc₀ + bc₀ and c₁ = x₁·Wc₁ + bc₁        (2048 wide each),
    * a gating network on the joined context (c₀, c₁), 4096 wide, whose first layer is written as the sum of
      its action on the two halves:  h₁ = max((c₀·W1a + c₁·W1b) + b₁, 0),  h₂ = max(h₁·W₂ + b₂, 0),
      two logits ℓ = h₂·W₃ + b₃, and their softmax a = exp(ℓ − M) / Σ exp(ℓ − M) with M the row maximum folded
      from −∞ (and joined with −∞ once more, as both programs do),
    * and the mixture  s₀ · a₀ + s₁ · a₁.
  Every sum is a finite sum of extended reals and every operation the exact one; the two literals that occur, the
  zero word and the −∞ word, are kept as the words both programs print.
  The array-level result `G` reads this row function at batch `b`, selected frame `12 + 4 j` and class `c`.
-/
import Idealize.ShloMosaic.PureOps.Ideal
import Idealize.ShloMosaic.Lib.ValueIdx

noncomputable section

namespace Cert.Fusion

open Idealize.ShloMosaic Idealize.ShloMosaic.ValueIdx

/-- The zero word both programs print, as an extended real. -/
abbrev zeroW : EReal := Ideal.ofBits .f32 0x00000000#32
/-- The −∞ word both programs print, as an extended real. -/
abbrev negInfW : EReal := Ideal.ofBits .f32 0xFF800000#32

/-- An inner product with a weight column plus a bias: `(∑ d, x d * w d) + β`. -/
def dotBias {K : ℕ} (x w : Fin K → EReal) (β : EReal) : EReal := (∑ d : Fin K, x d * w d) + β

/-- One branch's context row (2048 wide). -/
def ctxRow (x : Fin 1024 → EReal) (Wc : Fin 1024 → Fin 2048 → EReal) (bc : Fin 2048 → EReal) (h : Fin 2048) : EReal :=
  (∑ d : Fin 1024, x d * Wc d h) + bc h

/-- The gate's first layer, on the two halves of the joined context. -/
def hid1 (c0 c1 : Fin 2048 → EReal) (W1a W1b : Fin 2048 → Fin 1024 → EReal) (b1 : Fin 1024 → EReal) (n : Fin 1024) : EReal :=
  max (((∑ k : Fin 2048, c0 k * W1a k n) + (∑ k : Fin 2048, c1 k * W1b k n)) + b1 n) zeroW

/-- The gate's second layer. -/
def hid2 (h1 : Fin 1024 → EReal) (W2 : Fin 1024 → Fin 512 → EReal) (b2 : Fin 512 → EReal) (n : Fin 512) : EReal :=
  max ((∑ k : Fin 1024, h1 k * W2 k n) + b2 n) zeroW

/-- The two logits. -/
def logit (h2 : Fin 512 → EReal) (W3 : Fin 512 → Fin 2 → EReal) (b3 : Fin 2 → EReal) (e : Fin 2) : EReal :=
  (∑ k : Fin 512, h2 k * W3 k e) + b3 e

/-- The row maximum both programs subtract: the fold of `max` from −∞ over the two logits, joined with −∞ again. -/
def rowMax (l : Fin 2 → EReal) : EReal := max negInfW ((Finset.univ : Finset (Fin 2)).fold max negInfW l)

/-- The softmax weight of logit `e`. -/
def gate (l : Fin 2 → EReal) (e : Fin 2) : EReal :=
  Ideal.div (Ideal.exp (l e - rowMax l)) (∑ e' : Fin 2, Ideal.exp (l e' - rowMax l))

/-- The logits of a row, from the two branch inputs and the gate's parameters. -/
def rowLogits (x0 x1 : Fin 1024 → EReal)
    (Wc0 : Fin 1024 → Fin 2048 → EReal) (bc0 : Fin 2048 → EReal) (Wc1 : Fin 1024 → Fin 2048 → EReal) (bc1 : Fin 2048 → EReal)
    (W1a W1b : Fin 2048 → Fin 1024 → EReal) (b1 : Fin 1024 → EReal) (W2 : Fin 1024 → Fin 512 → EReal) (b2 : Fin 512 → EReal)
    (W3 : Fin 512 → Fin 2 → EReal) (b3 : Fin 2 → EReal) : Fin 2 → EReal :=
  logit (hid2 (hid1 (ctxRow x0 Wc0 bc0) (ctxRow x1 Wc1 bc1) W1a W1b b1) W2 b2) W3 b3

/-- THE ROW FUNCTION: one output entry from the two selected input rows, the score column's weights and biases of
    the two branches, and the gate's parameters. -/
def rowOut (x0 x1 : Fin 1024 → EReal) (ws0 : Fin 1024 → EReal) (β0 : EReal) (ws1 : Fin 1024 → EReal) (β1 : EReal)
    (Wc0 : Fin 1024 → Fin 2048 → EReal) (bc0 : Fin 2048 → EReal) (Wc1 : Fin 1024 → Fin 2048 → EReal) (bc1 : Fin 2048 → EReal)
    (W1a W1b : Fin 2048 → Fin 1024 → EReal) (b1 : Fin 1024 → EReal) (W2 : Fin 1024 → Fin 512 → EReal) (b2 : Fin 512 → EReal)
    (W3 : Fin 512 → Fin 2 → EReal) (b3 : Fin 2 → EReal) : EReal :=
  dotBias x0 ws0 β0 * gate (rowLogits x0 x1 Wc0 bc0 Wc1 bc1 W1a W1b b1 W2 b2 W3 b3) 0
    + dotBias x1 ws1 β1 * gate (rowLogits x0 x1 Wc0 bc0 Wc1 bc1 W1a W1b b1 W2 b2 W3 b3) 1

/-- The frame of the 28 that the `j`-th selected position reads: `12 + 4 j`. -/
def frameOf (j : Fin 4) : Fin 28 := ⟨12 + 4 * j.val, by omega⟩

/-- The first 2048 rows of the gate's first-layer weights. -/
def lowHalf (k : Fin 2048) : Fin 4096 := ⟨k.val, by omega⟩
/-- The last 2048 rows of the gate's first-layer weights. -/
def highHalf (k : Fin 2048) : Fin 4096 := ⟨2048 + k.val, by omega⟩

/-- THE RESULT ARRAY `[512, 4, 2513]` as one function of the sixteen argument arrays, index by index. -/
def G (x0 x1 : (⟨3, ![512, 28, 1024]⟩ : Shape).Idx → EReal)
    (Ws0 : (⟨2, ![1024, 2513]⟩ : Shape).Idx → EReal) (bs0 : (⟨1, ![2513]⟩ : Shape).Idx → EReal)
    (Wc0 : (⟨2, ![1024, 2048]⟩ : Shape).Idx → EReal) (bc0 : (⟨1, ![2048]⟩ : Shape).Idx → EReal)
    (Ws1 : (⟨2, ![1024, 2513]⟩ : Shape).Idx → EReal) (bs1 : (⟨1, ![2513]⟩ : Shape).Idx → EReal)
    (Wc1 : (⟨2, ![1024, 2048]⟩ : Shape).Idx → EReal) (bc1 : (⟨1, ![2048]⟩ : Shape).Idx → EReal)
    (W1 : (⟨2, ![4096, 1024]⟩ : Shape).Idx → EReal) (b1 : (⟨1, ![1024]⟩ : Shape).Idx → EReal)
    (W2 : (⟨2, ![1024, 512]⟩ : Shape).Idx → EReal) (b2 : (⟨1, ![512]⟩ : Shape).Idx → EReal)
    (W3 : (⟨2, ![512, 2]⟩ : Shape).Idx → EReal) (b3 : (⟨1, ![2]⟩ : Shape).Idx → EReal)
    (b : Fin 512) (j : Fin 4) (c : Fin 2513) : EReal :=
  rowOut (fun d => x0 (ix3 b (frameOf j) d)) (fun d => x1 (ix3 b (frameOf j) d))
    (fun d => Ws0 (ix2 d c)) (bs0 (ix1 c)) (fun d => Ws1 (ix2 d c)) (bs1 (ix1 c))
    (fun d h => Wc0 (ix2 d h)) (fun h => bc0 (ix1 h)) (fun d h => Wc1 (ix2 d h)) (fun h => bc1 (ix1 h))
    (fun k n => W1 (ix2 (lowHalf k) n)) (fun k n => W1 (ix2 (highHalf k) n)) (fun n => b1 (ix1 n))
    (fun k n => W2 (ix2 k n)) (fun n => b2 (ix1 n)) (fun k e => W3 (ix2 k e)) (fun e => b3 (ix1 e))

/-- `G` as an array: read at an index through its three coordinates. -/
def Garr (x0 x1 : (⟨3, ![512, 28, 1024]⟩ : Shape).Idx → EReal)
    (Ws0 : (⟨2, ![1024, 2513]⟩ : Shape).Idx → EReal) (bs0 : (⟨1, ![2513]⟩ : Shape).Idx → EReal)
    (Wc0 : (⟨2, ![1024, 2048]⟩ : Shape).Idx → EReal) (bc0 : (⟨1, ![2048]⟩ : Shape).Idx → EReal)
    (Ws1 : (⟨2, ![1024, 2513]⟩ : Shape).Idx → EReal) (bs1 : (⟨1, ![2513]⟩ : Shape).Idx → EReal)
    (Wc1 : (⟨2, ![1024, 2048]⟩ : Shape).Idx → EReal) (bc1 : (⟨1, ![2048]⟩ : Shape).Idx → EReal)
    (W1 : (⟨2, ![4096, 1024]⟩ : Shape).Idx → EReal) (b1 : (⟨1, ![1024]⟩ : Shape).Idx → EReal)
    (W2 : (⟨2, ![1024, 512]⟩ : Shape).Idx → EReal) (b2 : (⟨1, ![512]⟩ : Shape).Idx → EReal)
    (W3 : (⟨2, ![512, 2]⟩ : Shape).Idx → EReal) (b3 : (⟨1, ![2]⟩ : Shape).Idx → EReal) :
    (⟨3, ![512, 4, 2513]⟩ : Shape).Idx → EReal :=
  fun i => G x0 x1 Ws0 bs0 Wc0 bc0 Ws1 bs1 Wc1 bc1 W1 b1 W2 b2 W3 b3 (i 0) (i 1) (i 2)

end Cert.Fusion

end
-- ==== Proof.RowLayout.lean ====
/-
  Small layout shapes read at an index given by coordinates.

  The body moves a vector of biases along the rows of a matrix ([b] → [1, b] → [a, b]), a column of row statistics
  across the columns ([a] → [a, 1] → [a, b]), cuts one column out of a matrix ([a, n] → [a, 1]) and reduces a matrix
  along its rows' entries ([a, n] → [a]) by a sum and by a maximum. Each lemma reads one of these at `ix2 p q`
  (or `ix1 p`) as the operand at the coordinates it comes from.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Idealize.ShloMosaic Idealize.ShloMosaic.ValueIdx

variable {α : Type}

/-- A vector `[b]` viewed as one row `[1, b]` and repeated down `a` rows reads, at `(p, q)`, the vector at `q`. -/
theorem rowBias_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- A vector `[a]` viewed as one column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` repeated across `b` columns reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of row statistics `[a]` viewed as a column and repeated across `b` columns reads, at `(p, c)`, the
    statistic of row `p`. -/
theorem colStat_apply {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

/-- Column `o` cut out of a matrix `[a, n]` as `[a, 1]` reads, at `(p, u)`, the matrix at `(p, o)`. -/
theorem sliceCol_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have := u.isLt; omega)

/-- Column `o` of a matrix `[a, n]`, cut out and repeated across `b` columns, reads, at `(p, c)`, the matrix at `(p, o)`. -/
theorem sliceColBroadcast_apply {a n b : ℕ} (o : ℕ) (X : (⟨2, ![a, n]⟩ : Shape).Idx → α)
    (h : (⟨2, ![a, n]⟩ : Shape).Slices ![0, o] ⟨2, ![a, 1]⟩) (h2 : (⟨2, ![a, 1]⟩ : Shape).Broadcasts ⟨2, ![a, b]⟩)
    (p : Fin a) (c : Fin b) (k : Fin n) (hk : k.val = o) :
    broadcastTo ⟨2, ![a, b]⟩ (extractStridedSlice ⟨2, ![a, 1]⟩ ![0, o] X h) h2 (ix2 p c) = X (ix2 p k) :=
  (broadcastTo_a1_ab_apply _ h2 p c).trans (sliceCol_apply o X h p 0 k hk)

/-- The index a reduction along axis 1 of `[a, n]` inserts at row `p` and position `k` is `(p, k)`. -/
theorem lift_row {a n : ℕ} (h : (⟨2, ![a, n]⟩ : Shape).Reduces [1] ⟨1, ![a]⟩) (p : Fin a) (k : Fin n) :
    h.lift (ix1 p) k = ix2 p k := by
  funext ax
  apply Fin.ext
  match ax with
  | ⟨0, _⟩ => rfl
  | ⟨1, _⟩ => rfl

/-- The sum of a matrix `[a, n]` along each row, read at row `p`: `∑ k, src (p, k)`. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin n, src (ix2 p k) := by
  refine (Ideal.multiReduction_add_single src acc h hφ hacc (ix1 p)).trans ?_
  exact Finset.sum_congr rfl fun k _ => congrArg src (lift_row h p k)

/-- The maximum of a matrix `[a, n]` along each row, read at row `p`: the fold of `max` from the accumulator's value
    over `src (p, k)`. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  exact congrArg (fun f => (Finset.univ : Finset (Fin n)).fold max (Ideal.ofBits φ acc) f)
    (funext fun k => congrArg src (lift_row h p k))

end Cert.KernelIdeal.RowValue

end
-- ==== Proof.RowMatmul.lean ====
/-
  The body's five matrix products, each into a zero accumulator, read at an output index `(p, q)`:
  the plain sum `∑ d, lhs (p, d) * rhs (d, q)` over the one contracted axis.

  Each product's dimension numbers contract the left operand's columns against the right operand's rows; the
  contraction index is re-indexed by its one coordinate, and the operand indices at an output index and a contraction
  position are read off the dimension numbers.
-/
import proofs.«164370_j19464791785861_2_alg».proof.Proof.Gen.KernelIdeal.Skeleton
import Idealize.ShloMosaic.Lib.ValueIdx
import Idealize.ShloMosaic.PureOps.Ideal.Laws

noncomputable section

open scoped BigOperators

namespace Cert.KernelIdeal.RowValue

open Cert.KernelIdeal Cert.KernelIdeal.Gen
open Idealize.ShloMosaic Idealize.ShloMosaic.ValueIdx

/-! ## 128x1024 by 1024x2560 -/

theorem matmul_1024_2560_lhs0 (i : S128x2560.Idx) (k : dot_S128x1024_S1024x2560_S128x2560_1_0_0_1_n_n.contr.Idx) :
    (dot_S128x1024_S1024x2560_S128x2560_1_0_0_1_n_n.lhsIdx i k 0).val = (i 0).val := by
  unfold DotDims.lhsIdx
  rw [dif_neg (show ¬(0 : Fin S128x1024.rank) ∈ dot_S128x1024_S1024x2560_S128x2560_1_0_0_1_n_n.lhsBatch by decide),
    dif_pos (show (0 : Fin S128x1024.rank) ∈ dot_S128x1024_S1024x2560_S128x2560_1_0_0_1_n_n.lhsNonContracting by decide)]
  rfl

theorem matmul_1024_2560_rhs1 (i : S128x2560.Idx) (k : dot_S128x1024_S1024x2560_S128x2560_1_0_0_1_n_n.contr.Idx) :
    (dot_S128x1024_S1024x2560_S128x2560_1_0_0_1_n_n.rhsIdx i k 1).val = (i 1).val := by
  unfold DotDims.rhsIdx
  rw [dif_neg (show ¬(1 : Fin S1024x2560.rank) ∈ dot_S128x1024_S1024x2560_S128x2560_1_0_0_1_n_n.rhsBatch by decide),
    dif_pos (show (1 : Fin S1024x2560.rank) ∈ dot_S128x1024_S1024x2560_S128x2560_1_0_0_1_n_n.rhsNonContracting by decide)]
  rfl

/-- A score product: rows of 1024 features against the 2560 score columns. -/
theorem matmul_1024_2560_apply {φ₁ φ₂ : FTy} (lhs : FVec Ideal S128x1024 φ₁) (rhs : FVec Ideal S1024x2560 φ₂) (p : Fin 128) (q : Fin 2560) :
    matmul dot_S128x1024_S1024x2560_S128x2560_1_0_0_1_n_n none lhs rhs (constant S128x2560 .f32 0x00000000#32) (ix2 p q)
      = ∑ d : Fin 1024, lhs (ix2 p d) * rhs (ix2 d q) := by
  refine (Ideal.matmul_constant_zero_apply dot_S128x1024_S1024x2560_S128x2560_1_0_0_1_n_n none lhs rhs (ix2 p q)).trans ?_
  rw [← Equiv.sum_comp (contrEquiv1 dot_S128x1024_S1024x2560_S128x2560_1_0_0_1_n_n 1024 rfl rfl).symm]
  refine Finset.sum_congr rfl fun k _ => ?_
  have hk := contrEquiv1_symm_val dot_S128x1024_S1024x2560_S128x2560_1_0_0_1_n_n 1024 rfl rfl k
  have el : dot_S128x1024_S1024x2560_S128x2560_1_0_0_1_n_n.lhsIdx (ix2 p q) ((contrEquiv1 dot_S128x1024_S1024x2560_S128x2560_1_0_0_1_n_n 1024 rfl rfl).symm k) = ix2 p k :=
    funext fun a => Fin.ext (by
      match a with
      | ⟨0, _⟩ => exact matmul_1024_2560_lhs0 _ _
      | ⟨1, _⟩ => exact (dot_S128x1024_S1024x2560_S128x2560_1_0_0_1_n_n.lhsIdx_val_of_single rfl _ _).trans hk)
  have er : dot_S128x1024_S1024x2560_S128x2560_1_0_0_1_n_n.rhsIdx (ix2 p q) ((contrEquiv1 dot_S128x1024_S1024x2560_S128x2560_1_0_0_1_n_n 1024 rfl rfl).symm k) = ix2 k q :=
    funext fun a => Fin.ext (by
      match a with
      | ⟨0, _⟩ => exact (dot_S128x1024_S1024x2560_S128x2560_1_0_0_1_n_n.rhsIdx_val_of_single rfl _ _).trans hk
      | ⟨1, _⟩ => exact matmul_1024_2560_rhs1 _ _)
  rw [el, er]

/-! ## 128x1024 by 1024x2048 -/

theorem matmul_1024_2048_lhs0 (i : S128x2048.Idx) (k : dot_S128x1024_S1024x2048_S128x2048_1_0_0_1_n_n.contr.Idx) :
    (dot_S128x1024_S1024x2048_S128x2048_1_0_0_1_n_n.lhsIdx i k 0).val = (i 0).val := by
  unfold DotDims.lhsIdx
  rw [dif_neg (show ¬(0 : Fin S128x1024.rank) ∈ dot_S128x1024_S1024x2048_S128x2048_1_0_0_1_n_n.lhsBatch by decide),
    dif_pos (show (0 : Fin S128x1024.rank) ∈ dot_S128x1024_S1024x2048_S128x2048_1_0_0_1_n_n.lhsNonContracting by decide)]
  rfl

theorem matmul_1024_2048_rhs1 (i : S128x2048.Idx) (k : dot_S128x1024_S1024x2048_S128x2048_1_0_0_1_n_n.contr.Idx) :
    (dot_S128x1024_S1024x2048_S128x2048_1_0_0_1_n_n.rhsIdx i k 1).val = (i 1).val := by
  unfold DotDims.rhsIdx
  rw [dif_neg (show ¬(1 : Fin S1024x2048.rank) ∈ dot_S128x1024_S1024x2048_S128x2048_1_0_0_1_n_n.rhsBatch by decide),
    dif_pos (show (1 : Fin S1024x2048.rank) ∈ dot_S128x1024_S1024x2048_S128x2048_1_0_0_1_n_n.rhsNonContracting by decide)]
  rfl

/-- A context product: rows of 1024 features against the 2048 context columns. -/
theorem matmul_1024_2048_apply {φ₁ φ₂ : FTy} (lhs : FVec Ideal S128x1024 φ₁) (rhs : FVec Ideal S1024x2048 φ₂) (p : Fin 128) (q : Fin 2048) :
    matmul dot_S128x1024_S1024x2048_S128x2048_1_0_0_1_n_n none lhs rhs (constant S128x2048 .f32 0x00000000#32) (ix2 p q)
      = ∑ d : Fin 1024, lhs (ix2 p d) * rhs (ix2 d q) := by
  refine (Ideal.matmul_constant_zero_apply dot_S128x1024_S1024x2048_S128x2048_1_0_0_1_n_n none lhs rhs (ix2 p q)).trans ?_
  rw [← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p q) ((contrEquiv1 dot_S128x1024_S1024x2048_S128x2048_1_0_0_1_n_n 1024 rfl rfl).symm k) = ix2 p k :=
    funext fun a => Fin.ext (by
      match a with
      | ⟨0, _⟩ => exact matmul_1024_2048_lhs0 _ _
      | ⟨1, _⟩ => exact (dot_S128x1024_S1024x2048_S128x2048_1_0_0_1_n_n.lhsIdx_val_of_single rfl _ _).trans hk)
  have er : dot_S128x1024_S1024x2048_S128x2048_1_0_0_1_n_n.rhsIdx (ix2 p q) ((contrEquiv1 dot_S128x1024_S1024x2048_S128x2048_1_0_0_1_n_n 1024 rfl rfl).symm k) = ix2 k q :=
    funext fun a => Fin.ext (by
      match a with
      | ⟨0, _⟩ => exact (dot_S128x1024_S1024x2048_S128x2048_1_0_0_1_n_n.rhsIdx_val_of_single rfl _ _).trans hk
      | ⟨1, _⟩ => exact matmul_1024_2048_rhs1 _ _)
  rw [el, er]

/-! ## 128x2048 by 2048x1024 -/

theorem matmul_2048_1024_lhs0 (i : S128x1024.Idx) (k : dot_S128x2048_S2048x1024_S128x1024_1_0_0_1_n_n.contr.Idx) :
    (dot_S128x2048_S2048x1024_S128x1024_1_0_0_1_n_n.lhsIdx i k 0).val = (i 0).val := by
  unfold DotDims.lhsIdx
  rw [dif_neg (show ¬(0 : Fin S128x2048.rank) ∈ dot_S128x2048_S2048x1024_S128x1024_1_0_0_1_n_n.lhsBatch by decide),
    dif_pos (show (0 : Fin S128x2048.rank) ∈ dot_S128x2048_S2048x1024_S128x1024_1_0_0_1_n_n.lhsNonContracting by decide)]
  rfl

theorem matmul_2048_1024_rhs1 (i : S128x1024.Idx) (k : dot_S128x2048_S2048x1024_S128x1024_1_0_0_1_n_n.contr.Idx) :
    (dot_S128x2048_S2048x1024_S128x1024_1_0_0_1_n_n.rhsIdx i k 1).val = (i 1).val := by
  unfold DotDims.rhsIdx
  rw [dif_neg (show ¬(1 : Fin S2048x1024.rank) ∈ dot_S128x2048_S2048x1024_S128x1024_1_0_0_1_n_n.rhsBatch by decide),
    dif_pos (show (1 : Fin S2048x1024.rank) ∈ dot_S128x2048_S2048x1024_S128x1024_1_0_0_1_n_n.rhsNonContracting by decide)]
  rfl

/-- One half of the gate's first layer: a context row of 2048 against 1024 hidden columns. -/
theorem matmul_2048_1024_apply {φ₁ φ₂ : FTy} (lhs : FVec Ideal S128x2048 φ₁) (rhs : FVec Ideal S2048x1024 φ₂) (p : Fin 128) (q : Fin 1024) :
    matmul dot_S128x2048_S2048x1024_S128x1024_1_0_0_1_n_n none lhs rhs (constant S128x1024 .f32 0x00000000#32) (ix2 p q)
      = ∑ d : Fin 2048, lhs (ix2 p d) * rhs (ix2 d q) := by
  refine (Ideal.matmul_constant_zero_apply dot_S128x2048_S2048x1024_S128x1024_1_0_0_1_n_n none lhs rhs (ix2 p q)).trans ?_
  rw [← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 p q) ((contrEquiv1 dot_S128x2048_S2048x1024_S128x1024_1_0_0_1_n_n 2048 rfl rfl).symm k) = ix2 p k :=
    funext fun a => Fin.ext (by
      match a with
      | ⟨0, _⟩ => exact matmul_2048_1024_lhs0 _ _
      | ⟨1, _⟩ => exact (dot_S128x2048_S2048x1024_S128x1024_1_0_0_1_n_n.lhsIdx_val_of_single rfl _ _).trans hk)
  have er : dot_S128x2048_S2048x1024_S128x1024_1_0_0_1_n_n.rhsIdx (ix2 p q) ((contrEquiv1 dot_S128x2048_S2048x1024_S128x1024_1_0_0_1_n_n 2048 rfl rfl).symm k) = ix2 k q :=
    funext fun a => Fin.ext (by
      match a with
      | ⟨0, _⟩ => exact (dot_S128x2048_S2048x1024_S128x1024_1_0_0_1_n_n.rhsIdx_val_of_single rfl _ _).trans hk
      | ⟨1, _⟩ => exact matmul_2048_1024_rhs1 _ _)
  rw [el, er]

/-! ## 128x1024 by 1024x512 -/

theorem matmul_1024_512_lhs0 (i : S128x512.Idx) (k : dot_S128x1024_S1024x512_S128x512_1_0_0_1_n_n.contr.Idx) :
    (dot_S128x1024_S1024x512_S128x512_1_0_0_1_n_n.lhsIdx i k 0).val = (i 0).val := by
  unfold DotDims.lhsIdx
  rw [dif_neg (show ¬(0 : Fin S128x1024.rank) ∈ dot_S128x1024_S1024x512_S128x512_1_0_0_1_n_n.lhsBatch by decide),
    dif_pos (show (0 : Fin S128x1024.rank) ∈ dot_S128x1024_S1024x512_S128x512_1_0_0_1_n_n.lhsNonContracting by decide)]
  rfl

theorem matmul_1024_512_rhs1 (i : S128x512.Idx) (k : dot_S128x1024_S1024x512_S128x512_1_0_0_1_n_n.contr.Idx) :
    (dot_S128x1024_S1024x512_S128x512_1_0_0_1_n_n.rhsIdx i k 1).val = (i 1).val := by
  unfold DotDims.rhsIdx
  rw [dif_neg (show ¬(1 : Fin S1024x512.rank) ∈ dot_S128x1024_S1024x512_S128x512_1_0_0_1_n_n.rhsBatch by decide),
    dif_pos (show (1 : Fin S1024x512.rank) ∈ dot_S128x1024_S1024x512_S128x512_1_0_0_1_n_n.rhsNonContracting by decide)]
  rfl

/-- The gate's second layer: 1024 hidden units against 512 columns. -/
theorem matmul_1024_512_apply {φ₁ φ₂ : FTy} (lhs : FVec Ideal S128x1024 φ₁) (rhs : FVec Ideal S1024x512 φ₂) (p : Fin 128) (q : Fin 512) :
    matmul dot_S128x1024_S1024x512_S128x512_1_0_0_1_n_n none lhs rhs (constant S128x512 .f32 0x00000000#32) (ix2 p q)
      = ∑ d : Fin 1024, lhs (ix2 p d) * rhs (ix2 d q) := by
  refine (Ideal.matmul_constant_zero_apply dot_S128x1024_S1024x512_S128x512_1_0_0_1_n_n none lhs rhs (ix2 p q)).trans ?_
  rw [← Equiv.sum_comp (contrEquiv1 dot_S128x1024_S1024x512_S128x512_1_0_0_1_n_n 1024 rfl rfl).symm]
  refine Finset.sum_congr rfl fun k _ => ?_
  have hk := contrEquiv1_symm_val dot_S128x1024_S1024x512_S128x512_1_0_0_1_n_n 1024 rfl rfl k
  have el : dot_S128x1024_S1024x512_S128x512_1_0_0_1_n_n.lhsIdx (ix2 p q) ((contrEquiv1 dot_S128x1024_S1024x512_S128x512_1_0_0_1_n_n 1024 rfl rfl).symm k) = ix2 p k :=
    funext fun a => Fin.ext (by
      match a with
      | ⟨0, _⟩ => exact matmul_1024_512_lhs0 _ _
      | ⟨1, _⟩ => exact (dot_S128x1024_S1024x512_S128x512_1_0_0_1_n_n.lhsIdx_val_of_single rfl _ _).trans hk)
  have er : dot_S128x1024_S1024x512_S128x512_1_0_0_1_n_n.rhsIdx (ix2 p q) ((contrEquiv1 dot_S128x1024_S1024x512_S128x512_1_0_0_1_n_n 1024 rfl rfl).symm k) = ix2 k q :=
    funext fun a => Fin.ext (by
      match a with
      | ⟨0, _⟩ => exact (dot_S128x1024_S1024x512_S128x512_1_0_0_1_n_n.rhsIdx_val_of_single rfl _ _).trans hk
      | ⟨1, _⟩ => exact matmul_1024_512_rhs1 _ _)
  rw [el, er]

/-! ## 128x512 by 512x2 -/

theorem matmul_512_2_lhs0 (i : S128x2.Idx) (k : dot_S128x512_S512x2_S128x2_1_0_0_1_n_n.contr.Idx) :
    (dot_S128x512_S512x2_S128x2_1_0_0_1_n_n.lhsIdx i k 0).val = (i 0).val := by
  unfold DotDims.lhsIdx
  rw [dif_neg (show ¬(0 : Fin S128x512.rank) ∈ dot_S128x512_S512x2_S128x2_1_0_0_1_n_n.lhsBatch by decide),
    dif_pos (show (0 : Fin S128x512.rank) ∈ dot_S128x512_S512x2_S128x2_1_0_0_1_n_n.lhsNonContracting by decide)]
  rfl

theorem matmul_512_2_rhs1 (i : S128x2.Idx) (k : dot_S128x512_S512x2_S128x2_1_0_0_1_n_n.contr.Idx) :
    (dot_S128x512_S512x2_S128x2_1_0_0_1_n_n.rhsIdx i k 1).val = (i 1).val := by
  unfold DotDims.rhsIdx
  rw [dif_neg (show ¬(1 : Fin S512x2.rank) ∈ dot_S128x512_S512x2_S128x2_1_0_0_1_n_n.rhsBatch by decide),
    dif_pos (show (1 : Fin S512x2.rank) ∈ dot_S128x512_S512x2_S128x2_1_0_0_1_n_n.rhsNonContracting by decide)]
  rfl

/-- The gate's logits: 512 hidden units against the two logit columns. -/
theorem matmul_512_2_apply {φ₁ φ₂ : FTy} (lhs : FVec Ideal S128x512 φ₁) (rhs : FVec Ideal S512x2 φ₂) (p : Fin 128) (q : Fin 2) :
    matmul dot_S128x512_S512x2_S128x2_1_0_0_1_n_n none lhs rhs (constant S128x2 .f32 0x00000000#32) (ix2 p q)
      = ∑ d : Fin 512, lhs (ix2 p d) * rhs (ix2 d q) := by
  refine (Ideal.matmul_constant_zero_apply dot_S128x512_S512x2_S128x2_1_0_0_1_n_n none lhs rhs (ix2 p q)).trans ?_
  rw [← Equiv.sum_comp (contrEquiv1 dot_S128x512_S512x2_S128x2_1_0_0_1_n_n 512 rfl rfl).symm]
  refine Finset.sum_congr rfl fun k _ => ?_
  have hk := contrEquiv1_symm_val dot_S128x512_S512x2_S128x2_1_0_0_1_n_n 512 rfl rfl k
  have el : dot_S128x512_S512x2_S128x2_1_0_0_1_n_n.lhsIdx (ix2 p q) ((contrEquiv1 dot_S128x512_S512x2_S128x2_1_0_0_1_n_n 512 rfl rfl).symm k) = ix2 p k :=
    funext fun a => Fin.ext (by
      match a with
      | ⟨0, _⟩ => exact matmul_512_2_lhs0 _ _
      | ⟨1, _⟩ => exact (dot_S128x512_S512x2_S128x2_1_0_0_1_n_n.lhsIdx_val_of_single rfl _ _).trans hk)
  have er : dot_S128x512_S512x2_S128x2_1_0_0_1_n_n.rhsIdx (ix2 p q) ((contrEquiv1 dot_S128x512_S512x2_S128x2_1_0_0_1_n_n 512 rfl rfl).symm k) = ix2 k q :=
    funext fun a => Fin.ext (by
      match a with
      | ⟨0, _⟩ => exact (dot_S128x512_S512x2_S128x2_1_0_0_1_n_n.rhsIdx_val_of_single rfl _ _).trans hk
      | ⟨1, _⟩ => exact matmul_512_2_rhs1 _ _)
  rw [el, er]

end Cert.KernelIdeal.RowValue

end
-- ==== Proof.RowScores.lean ====
/-
  The four matrix-product-plus-bias blocks of the body, read at an index: the two branch scores
  (a row's inner product with one score column, plus that column's bias) and the two branch contexts
  (the same with the 2048 context columns; the change of float format after them is the identity on extended reals).
-/
import proofs.«164370_j19464791785861_2_alg».proof.Proof.Gen.KernelIdeal.Skeleton
import proofs.«164370_j19464791785861_2_alg».proof.Proof.Spec
import proofs.«164370_j19464791785861_2_alg».proof.Proof.RowLayout
import proofs.«164370_j19464791785861_2_alg».proof.Proof.RowMatmul
import Idealize.ShloMosaic.Lib.ValueIdx
import Idealize.ShloMosaic.Lib.Pipeline.Value

noncomputable section

open scoped BigOperators

namespace Cert.KernelIdeal.RowValue

open Cert.KernelIdeal Cert.KernelIdeal.Gen
open Idealize.ShloMosaic Idealize.ShloMosaic.ValueIdx

/-- Branch 0's score block at `(p, q)`: the row's inner product with score column `q`, plus that column's bias. -/
theorem k0_pay4_apply (x : Vec Ideal S128x1024 .bf16) (W : Vec Ideal S1024x2560 .bf16) (b : Vec Ideal S2560 .f32)
    (p : Fin 128) (q : Fin 2560) :
    k0_pay4 (F := Ideal) x W b (ix2 p q)
      = Cert.Fusion.dotBias (fun d => x (ix2 p d)) (fun d => W (ix2 d q)) (b (ix1 q)) := by
  unfold k0_pay4 k0_pay2 Cert.Fusion.dotBias
  simp only [shapeCast_self]
  refine (addf_apply _ _ _).trans ?_
  exact congrArg₂ (· + ·) (matmul_1024_2560_apply _ _ p q) (rowBias_apply _ _ _ p q)

/-- Branch 1's score block at `(p, q)`. -/
theorem k0_pay5_apply (x : Vec Ideal S128x1024 .bf16) (W : Vec Ideal S1024x2560 .bf16) (b : Vec Ideal S2560 .f32)
    (p : Fin 128) (q : Fin 2560) :
    k0_pay5 (F := Ideal) x W b (ix2 p q)
      = Cert.Fusion.dotBias (fun d => x (ix2 p d)) (fun d => W (ix2 d q)) (b (ix1 q)) := by
  unfold k0_pay5 k0_pay3 Cert.Fusion.dotBias
  simp only [shapeCast_self]
  refine (addf_apply _ _ _).trans ?_
  exact congrArg₂ (· + ·) (matmul_1024_2560_apply _ _ p q) (rowBias_apply _ _ _ p q)

/-- Branch 0's context block at `(p, h)`: the change of float format is the identity on extended reals. -/
theorem k0_pay6_apply (x : Vec Ideal S128x1024 .bf16) (W : Vec Ideal S1024x2048 .bf16) (b : Vec Ideal S2048 .f32)
    (p : Fin 128) (h : Fin 2048) :
    k0_pay6 (F := Ideal) x W b (ix2 p h)
      = Cert.Fusion.ctxRow (fun d => x (ix2 p d)) (fun d h => W (ix2 d h)) (fun h => b (ix1 h)) h := by
  unfold k0_pay6 k0_pay2 Cert.Fusion.ctxRow
  simp only [shapeCast_self]
  refine (truncf_apply (ψ := .bf16) _ bitsLt_bf16_f32 _).trans ?_
  refine (addf_apply _ _ _).trans ?_
  exact congrArg₂ (· + ·) (matmul_1024_2048_apply _ _ p h) (rowBias_apply _ _ _ p h)

/-- Branch 1's context block at `(p, h)`. -/
theorem k0_pay7_apply (x : Vec Ideal S128x1024 .bf16) (W : Vec Ideal S1024x2048 .bf16) (b : Vec Ideal S2048 .f32)
    (p : Fin 128) (h : Fin 2048) :
    k0_pay7 (F := Ideal) x W b (ix2 p h)
      = Cert.Fusion.ctxRow (fun d => x (ix2 p d)) (fun d h => W (ix2 d h)) (fun h => b (ix1 h)) h := by
  unfold k0_pay7 k0_pay3 Cert.Fusion.ctxRow
  simp only [shapeCast_self]
  refine (truncf_apply (ψ := .bf16) _ bitsLt_bf16_f32 _).trans ?_
  refine (addf_apply _ _ _).trans ?_
  exact congrArg₂ (· + ·) (matmul_1024_2048_apply _ _ p h) (rowBias_apply _ _ _ p h)

end Cert.KernelIdeal.RowValue

end
-- ==== Proof.RowGate.lean ====
/-
  The gate's block, read at an index: two hidden layers with a maximum against zero, two logits, and their softmax
  (row maximum folded from −∞ and joined with −∞ again, exponentials of the differences, each over the row's sum).
  The payload is cut into its stages as arrays; each stage is read at an index by the layout, product and reduction
  lemmas, and the stages compose to the specification's gate of the row's logits.
-/
import proofs.«164370_j19464791785861_2_alg».proof.Proof.Gen.KernelIdeal.Skeleton
import proofs.«164370_j19464791785861_2_alg».proof.Proof.Spec
import proofs.«164370_j19464791785861_2_alg».proof.Proof.RowLayout
import proofs.«164370_j19464791785861_2_alg».proof.Proof.RowMatmul
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen
open Idealize.ShloMosaic Idealize.ShloMosaic.ValueIdx

/-! ## The gate's stages as arrays

The gate's payload is cut at its three format changes and at the logits: the first hidden layer from the two context
blocks, the second hidden layer, the logits, and the softmax of a `[128, 2]` block of logits. -/

/-- The first hidden layer `[128, 1024]`: the two half products added, the bias along the rows, the maximum with zero. -/
def hid1V (c0 c1 : FVec Ideal S128x2048 .bf16) (a10 a11 : Vec Ideal S2048x1024 .bf16) (a12 : Vec Ideal S1024 .f32) :
    FVec Ideal S128x1024 .bf16 :=
  truncf .bf16
    (maximumf
      (addf
        (addf
          (matmul dot_S128x2048_S2048x1024_S128x1024_1_0_0_1_n_n none c0 (shapeCast S2048x1024 a10 shapeCasts_S2048x1024_S2048x1024 : FVec Ideal S2048x1024 .bf16) (constant S128x1024 .f32 0x00000000#32))
          (matmul dot_S128x2048_S2048x1024_S128x1024_1_0_0_1_n_n none c1 (shapeCast S2048x1024 a11 shapeCasts_S2048x1024_S2048x1024 : FVec Ideal S2048x1024 .bf16) (constant S128x1024 .f32 0x00000000#32)))
        (broadcastTo S128x1024 (shapeCast S1x1024 a12 shapeCasts_S1024_S1x1024) broadcasts_S1x1024_S128x1024))
      (broadcast S128x1024 (Scalar.ofBits .f32 0x00000000#32)))
    bitsLt_bf16_f32

/-- The second hidden layer `[128, 512]`. -/
def hid2V (h1 : FVec Ideal S128x1024 .bf16) (a13 : Vec Ideal S1024x512 .bf16) (a14 : Vec Ideal S512 .f32) :
    FVec Ideal S128x512 .bf16 :=
  truncf .bf16
    (maximumf
      (addf
        (matmul dot_S128x1024_S1024x512_S128x512_1_0_0_1_n_n none h1 (shapeCast S1024x512 a13 shapeCasts_S1024x512_S1024x512 : FVec Ideal S1024x512 .bf16) (constant S128x512 .f32 0x00000000#32))
        (broadcastTo S128x512 (shapeCast S1x512 a14 shapeCasts_S512_S1x512) broadcasts_S1x512_S128x512))
      (broadcast S128x512 (Scalar.ofBits .f32 0x00000000#32)))
    bitsLt_bf16_f32

/-- The logits `[128, 2]`. -/
def logitV (h2 : FVec Ideal S128x512 .bf16) (a15 : Vec Ideal S512x2 .bf16) (a16 : Vec Ideal S2 .f32) :
    FVec Ideal S128x2 .f32 :=
  addf
    (matmul dot_S128x512_S512x2_S128x2_1_0_0_1_n_n none h2 (shapeCast S512x2 a15 shapeCasts_S512x2_S512x2 : FVec Ideal S512x2 .bf16) (constant S128x2 .f32 0x00000000#32))
    (broadcastTo S128x2 (shapeCast S1x2 a16 shapeCasts_S2_S1x2) broadcasts_S1x2_S128x2)

/-- The row maxima `[128]` of a block of logits: the reduction from −∞, joined with −∞ once more. -/
def maxV (l : FVec Ideal S128x2 .f32) : FVec Ideal S128 .f32 :=
  maximumf (broadcast S128 (Scalar.ofBits .f32 0xFF800000#32))
    (multiReduction .maximumf [1] S128 l 0xFF800000#32 reduces_S128x2_S128 (.inl rfl) rfl)

/-- The exponentials `[128, 2]` of the logits less their row's maximum. -/
def expV (l : FVec Ideal S128x2 .f32) : FVec Ideal S128x2 .f32 :=
  exp (subf l (broadcastTo S128x2 (shapeCast S128x1 (maxV l) shapeCasts_S128_S128x1) broadcasts_S128x1_S128x2))

/-- The softmax `[128, 2]`: each exponential over its row's sum. -/
def softmaxV (l : FVec Ideal S128x2 .f32) : FVec Ideal S128x2 .f32 :=
  divf (expV l)
    (broadcastTo S128x2
      (shapeCast S128x1 (multiReduction .add [1] S128 (expV l) 0x00000000#32 reduces_S128x2_S128 (.inl rfl) rfl)
        shapeCasts_S128_S128x1)
      broadcasts_S128x1_S128x2)

/-- The gate's payload is the composition of its stages. -/
theorem k0_pay8_eq (c0 c1 : FVec Ideal S128x2048 .bf16) (a10 a11 : Vec Ideal S2048x1024 .bf16) (a12 : Vec Ideal S1024 .f32)
    (a13 : Vec Ideal S1024x512 .bf16) (a14 : Vec Ideal S512 .f32) (a15 : Vec Ideal S512x2 .bf16) (a16 : Vec Ideal S2 .f32) :
    k0_pay8 (F := Ideal) c0 c1 a10 a11 a12 a13 a14 a15 a16
      = softmaxV (logitV (hid2V (hid1V c0 c1 a10 a11 a12) a13 a14) a15 a16) := by
  unfold k0_pay8 softmaxV expV maxV logitV hid2V hid1V
  rfl

/-! ## Each stage at an index -/

/-- The relu's zero is the zero word. -/
theorem scalar_zeroW : (Scalar.ofBits (F := Ideal) .f32 0x00000000#32 : EReal) = Cert.Fusion.zeroW := rfl

/-- The −∞ literal is the −∞ word. -/
theorem scalar_negInfW : (Scalar.ofBits (F := Ideal) .f32 0xFF800000#32 : EReal) = Cert.Fusion.negInfW := rfl

/-- The first hidden layer at `(p, n)`. -/
theorem hid1V_apply (c0 c1 : FVec Ideal S128x2048 .bf16) (a10 a11 : Vec Ideal S2048x1024 .bf16) (a12 : Vec Ideal S1024 .f32)
    (p : Fin 128) (n : Fin 1024) :
    hid1V c0 c1 a10 a11 a12 (ix2 p n)
      = Cert.Fusion.hid1 (fun k => c0 (ix2 p k)) (fun k => c1 (ix2 p k)) (fun k n => a10 (ix2 k n)) (fun k n => a11 (ix2 k n))
          (fun n => a12 (ix1 n)) n := by
  unfold hid1V Cert.Fusion.hid1
  simp only [shapeCast_self]
  refine (truncf_apply (ψ := .bf16) _ bitsLt_bf16_f32 _).trans ?_
  refine (maximumf_apply _ _ _).trans ?_
  refine congrArg₂ max ?_ scalar_zeroW
  refine (addf_apply _ _ _).trans ?_
  refine congrArg₂ (· + ·) ?_ (rowBias_apply _ _ _ p n)
  refine (addf_apply _ _ _).trans ?_
  exact congrArg₂ (· + ·) (matmul_2048_1024_apply _ _ p n) (matmul_2048_1024_apply _ _ p n)

/-- The second hidden layer at `(p, n)`. -/
theorem hid2V_apply (h1 : FVec Ideal S128x1024 .bf16) (a13 : Vec Ideal S1024x512 .bf16) (a14 : Vec Ideal S512 .f32)
    (p : Fin 128) (n : Fin 512) :
    hid2V h1 a13 a14 (ix2 p n)
      = Cert.Fusion.hid2 (fun k => h1 (ix2 p k)) (fun k n => a13 (ix2 k n)) (fun n => a14 (ix1 n)) n := by
  unfold hid2V Cert.Fusion.hid2
  simp only [shapeCast_self]
  refine (truncf_apply (ψ := .bf16) _ bitsLt_bf16_f32 _).trans ?_
  refine (maximumf_apply _ _ _).trans ?_
  refine congrArg₂ max ?_ scalar_zeroW
  refine (addf_apply _ _ _).trans ?_
  exact congrArg₂ (· + ·) (matmul_1024_512_apply _ _ p n) (rowBias_apply _ _ _ p n)

/-- The logits at `(p, e)`. -/
theorem logitV_apply (h2 : FVec Ideal S128x512 .bf16) (a15 : Vec Ideal S512x2 .bf16) (a16 : Vec Ideal S2 .f32)
    (p : Fin 128) (e : Fin 2) :
    logitV h2 a15 a16 (ix2 p e)
      = Cert.Fusion.logit (fun k => h2 (ix2 p k)) (fun k e => a15 (ix2 k e)) (fun e => a16 (ix1 e)) e := by
  unfold logitV Cert.Fusion.logit
  simp only [shapeCast_self]
  refine (addf_apply _ _ _).trans ?_
  exact congrArg₂ (· + ·) (matmul_512_2_apply _ _ p e) (rowBias_apply _ _ _ p e)

/-- The row maximum at row `p`. -/
theorem maxV_apply (l : FVec Ideal S128x2 .f32) (p : Fin 128) :
    maxV l (ix1 p) = Cert.Fusion.rowMax (fun k => l (ix2 p k)) := by
  unfold maxV Cert.Fusion.rowMax
  refine (maximumf_apply _ _ _).trans ?_
  exact congrArg₂ max scalar_negInfW (rowMax_apply l _ _ _ _ p)

/-- The exponentials at `(p, e)`. -/
theorem expV_apply (l : FVec Ideal S128x2 .f32) (p : Fin 128) (e : Fin 2) :
    expV l (ix2 p e) = Ideal.exp (l (ix2 p e) - Cert.Fusion.rowMax (fun k => l (ix2 p k))) := by
  unfold expV
  show Ideal.exp (subf l _ (ix2 p e)) = _
  refine congrArg Ideal.exp ?_
  refine (subf_apply _ _ _).trans ?_
  exact congrArg (l (ix2 p e) - ·) ((colStat_apply _ _ _ p e).trans (maxV_apply l p))

/-- The softmax at `(p, e)`. -/
theorem softmaxV_apply (l : FVec Ideal S128x2 .f32) (p : Fin 128) (e : Fin 2) :
    softmaxV l (ix2 p e) = Cert.Fusion.gate (fun k => l (ix2 p k)) e := by
  unfold softmaxV Cert.Fusion.gate
  refine (divf_apply _ _ _).trans ?_
  refine congrArg₂ Ideal.div (expV_apply l p e) ?_
  refine (colStat_apply _ _ _ p e).trans ?_
  refine (rowSum_apply (expV l) _ _ _ _ p).trans ?_
  exact Finset.sum_congr rfl fun k _ => expV_apply l p k

/-- THE GATE at `(p, e)`: the softmax weight of logit `e` of row `p`, from the row's two contexts. -/
theorem k0_pay8_apply (c0 c1 : FVec Ideal S128x2048 .bf16) (a10 a11 : Vec Ideal S2048x1024 .bf16) (a12 : Vec Ideal S1024 .f32)
    (a13 : Vec Ideal S1024x512 .bf16) (a14 : Vec Ideal S512 .f32) (a15 : Vec Ideal S512x2 .bf16) (a16 : Vec Ideal S2 .f32)
    (p : Fin 128) (e : Fin 2) :
    k0_pay8 (F := Ideal) c0 c1 a10 a11 a12 a13 a14 a15 a16 (ix2 p e)
      = Cert.Fusion.gate
          (Cert.Fusion.logit
            (Cert.Fusion.hid2
              (Cert.Fusion.hid1 (fun k => c0 (ix2 p k)) (fun k => c1 (ix2 p k)) (fun k n => a10 (ix2 k n))
                (fun k n => a11 (ix2 k n)) (fun n => a12 (ix1 n)))
              (fun k n => a13 (ix2 k n)) (fun n => a14 (ix1 n)))
            (fun k e => a15 (ix2 k e)) (fun e => a16 (ix1 e))) e := by
  rw [k0_pay8_eq]
  refine (softmaxV_apply _ p e).trans ?_
  refine congrArg (fun l => Cert.Fusion.gate l e) (funext fun k => ?_)
  refine (logitV_apply _ a15 a16 p k).trans ?_
  refine congrArg (fun h => Cert.Fusion.logit h (fun k e => a15 (ix2 k e)) (fun e => a16 (ix1 e)) k) (funext fun n => ?_)
  refine (hid2V_apply _ a13 a14 p n).trans ?_
  refine congrArg (fun h => Cert.Fusion.hid2 h (fun k n => a13 (ix2 k n)) (fun n => a14 (ix1 n)) n) (funext fun n' => ?_)
  exact hid1V_apply c0 c1 a10 a11 a12 p n'

/-- The gate's first column, as the body cuts it out, at `(p, u)`. -/
theorem k0_pay9_apply (c0 c1 : FVec Ideal S128x2048 .bf16) (a10 a11 : Vec Ideal S2048x1024 .bf16) (a12 : Vec Ideal S1024 .f32)
    (a13 : Vec Ideal S1024x512 .bf16) (a14 : Vec Ideal S512 .f32) (a15 : Vec Ideal S512x2 .bf16) (a16 : Vec Ideal S2 .f32)
    (p : Fin 128) (u : Fin 1) :
    k0_pay9 (F := Ideal) c0 c1 a10 a11 a12 a13 a14 a15 a16 (ix2 p u)
      = k0_pay8 (F := Ideal) c0 c1 a10 a11 a12 a13 a14 a15 a16 (ix2 p (0 : Fin 2)) := by
  unfold k0_pay9
  exact sliceCol_apply 0 _ _ p u 0 rfl

end Cert.KernelIdeal.RowValue

end
-- ==== Proof.RowStored.lean ====
/-
  The value the body stores, read at an index: the mixture of the two branch scores under the gate's two softmax
  weights is the specification's row function of row `p` of the two input blocks, score column `q`'s weights and
  biases, and the gate's parameters.
-/
import proofs.«164370_j19464791785861_2_alg».proof.Proof.KernelDefs
import proofs.«164370_j19464791785861_2_alg».proof.Proof.Spec
import proofs.«164370_j19464791785861_2_alg».proof.Proof.RowLayout
import proofs.«164370_j19464791785861_2_alg».proof.Proof.RowScores
import proofs.«164370_j19464791785861_2_alg».proof.Proof.RowGate
import Idealize.ShloMosaic.Lib.ValueIdx

noncomputable section

open scoped BigOperators

namespace Cert.KernelIdeal.RowValue

open Cert.KernelIdeal Cert.KernelIdeal.Gen
open Idealize.ShloMosaic Idealize.ShloMosaic.ValueIdx

/-- The mixture at `(p, q)`: the two scores weighted by the gate's first column (as the body cuts it out) and by its
    second column. -/
theorem k0_pay1_apply (s0 s1 : FVec Ideal S128x2560 .f32) (g : FVec Ideal S128x2 .f32) (g0 : FVec Ideal S128x1 .f32)
    (p : Fin 128) (q : Fin 2560) :
    k0_pay1 (F := Ideal) s0 s1 g g0 (ix2 p q)
      = s0 (ix2 p q) * g0 (ix2 p (0 : Fin 1)) + s1 (ix2 p q) * g (ix2 p (1 : Fin 2)) := by
  unfold k0_pay1
  refine (addf_apply _ _ _).trans ?_
  exact congrArg₂ (· + ·)
    ((mulf_apply _ _ _).trans (congrArg (s0 (ix2 p q) * ·) (broadcastTo_a1_ab_apply _ _ p q)))
    ((mulf_apply _ _ _).trans (congrArg (s1 (ix2 p q) * ·) (sliceColBroadcast_apply 1 _ _ _ p q 1 rfl)))

/-- THE STORED VALUE AT AN INDEX: entry `(p, q)` of the block the body stores is the row function of row `p` of the two
    input blocks, score column `q`'s weights and biases, and the gate's parameters. -/
theorem stored_apply
    (x0 x1 : Vec Ideal S128x1024 .bf16) (a2 : Vec Ideal S1024x2560 .bf16) (a3 : Vec Ideal S2560 .f32)
    (a4 : Vec Ideal S1024x2048 .bf16) (a5 : Vec Ideal S2048 .f32) (a6 : Vec Ideal S1024x2560 .bf16) (a7 : Vec Ideal S2560 .f32)
    (a8 : Vec Ideal S1024x2048 .bf16) (a9 : Vec Ideal S2048 .f32) (a10 a11 : Vec Ideal S2048x1024 .bf16) (a12 : Vec Ideal S1024 .f32)
    (a13 : Vec Ideal S1024x512 .bf16) (a14 : Vec Ideal S512 .f32) (a15 : Vec Ideal S512x2 .bf16) (a16 : Vec Ideal S2 .f32)
    (p : Fin 128) (q : Fin 2560) :
    Cert.KernelIdeal.Hand.stored (F := Ideal) x0 x1 a2 a3 a4 a5 a6 a7 a8 a9 a10 a11 a12 a13 a14 a15 a16 (ValueIdx.ix2 p q)
      = Cert.Fusion.rowOut (fun d => x0 (ValueIdx.ix2 p d)) (fun d => x1 (ValueIdx.ix2 p d))
          (fun d => a2 (ValueIdx.ix2 d q)) (a3 (ValueIdx.ix1 q)) (fun d => a6 (ValueIdx.ix2 d q)) (a7 (ValueIdx.ix1 q))
          (fun d h => a4 (ValueIdx.ix2 d h)) (fun h => a5 (ValueIdx.ix1 h)) (fun d h => a8 (ValueIdx.ix2 d h)) (fun h => a9 (ValueIdx.ix1 h))
          (fun k n => a10 (ValueIdx.ix2 k n)) (fun k n => a11 (ValueIdx.ix2 k n)) (fun n => a12 (ValueIdx.ix1 n))
          (fun k n => a13 (ValueIdx.ix2 k n)) (fun n => a14 (ValueIdx.ix1 n)) (fun k e => a15 (ValueIdx.ix2 k e)) (fun e => a16 (ValueIdx.ix1 e)) := by
  unfold Cert.KernelIdeal.Hand.stored Cert.Fusion.rowOut Cert.Fusion.rowLogits
  refine (k0_pay1_apply _ _ _ _ p q).trans ?_
  have hc0 : (fun k => k0_pay6 (F := Ideal) x0 a4 a5 (ix2 p k))
      = Cert.Fusion.ctxRow (fun d => x0 (ix2 p d)) (fun d h => a4 (ix2 d h)) (fun h => a5 (ix1 h)) :=
    funext fun k => k0_pay6_apply x0 a4 a5 p k
  have hc1 : (fun k => k0_pay7 (F := Ideal) x1 a8 a9 (ix2 p k))
      = Cert.Fusion.ctxRow (fun d => x1 (ix2 p d)) (fun d h => a8 (ix2 d h)) (fun h => a9 (ix1 h)) :=
    funext fun k => k0_pay7_apply x1 a8 a9 p k
  have hg : ∀ e : Fin 2,
      k0_pay8 (F := Ideal) (k0_pay6 x0 a4 a5) (k0_pay7 x1 a8 a9) a10 a11 a12 a13 a14 a15 a16 (ix2 p e)
        = Cert.Fusion.gate
            (Cert.Fusion.logit
              (Cert.Fusion.hid2
                (Cert.Fusion.hid1
                  (Cert.Fusion.ctxRow (fun d => x0 (ix2 p d)) (fun d h => a4 (ix2 d h)) (fun h => a5 (ix1 h)))
                  (Cert.Fusion.ctxRow (fun d => x1 (ix2 p d)) (fun d h => a8 (ix2 d h)) (fun h => a9 (ix1 h)))
                  (fun k n => a10 (ix2 k n)) (fun k n => a11 (ix2 k n)) (fun n => a12 (ix1 n)))
                (fun k n => a13 (ix2 k n)) (fun n => a14 (ix1 n)))
              (fun k e => a15 (ix2 k e)) (fun e => a16 (ix1 e))) e := fun e => by
    rw [k0_pay8_apply, hc0, hc1]
  exact congrArg₂ (· + ·)
    (congrArg₂ (· * ·) (k0_pay4_apply x0 a2 a3 p q)
      ((k0_pay9_apply (k0_pay6 x0 a4 a5) (k0_pay7 x1 a8 a9) a10 a11 a12 a13 a14 a15 a16 p 0).trans (hg 0)))
    (congrArg₂ (· * ·) (k0_pay5_apply x1 a6 a7 p q) (hg 1))

end Cert.KernelIdeal.RowValue

end
-- ==== Proof.KernelBlocks.lean ====
/-
  From blocks to the whole output array.

  The region runs the body at sixteen grid points; point `t` reads rows `128 t … 128 t + 127` of the two row arrays and
  the fifteen parameter arrays whole, and writes back rows `128 t … 128 t + 127` of the `[2048, 2560]` output. Since the
  stored entry at row `p`, column `q` of a block is the row function of row `p` of the two row blocks and column `q` of
  the score parameters, every block is the restriction of ONE function of the operand arrays (`Kfull`), and the sixteen
  blocks tile the output: after the run the output array is `Kfull` of the operand arrays as the region found them.
-/
import proofs.«164370_j19464791785861_2_alg».proof.Proof.KernelDefs
import proofs.«164370_j19464791785861_2_alg».proof.Proof.RowStored
import proofs.«164370_j19464791785861_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.KernelIdeal.RowValue (stored_apply)

variable (m : (ℓ : Loc nD τ sig) → Buf (Elt Ideal) ℓ)

/-- The output array `[2048, 2560]` as one function of the seventeen operand arrays: entry `(r, q)` is the row function
    of row `r` of the two row arrays, column `q` of the two score matrices and biases, and the gate's parameters. -/
def Kfull (A0 A1 : S2048x1024.Idx → EReal) (A2 : S1024x2560.Idx → EReal) (A3 : S2560.Idx → EReal)
    (A4 : S1024x2048.Idx → EReal) (A5 : S2048.Idx → EReal) (A6 : S1024x2560.Idx → EReal) (A7 : S2560.Idx → EReal)
    (A8 : S1024x2048.Idx → EReal) (A9 : S2048.Idx → EReal) (A10 A11 : S2048x1024.Idx → EReal) (A12 : S1024.Idx → EReal)
    (A13 : S1024x512.Idx → EReal) (A14 : S512.Idx → EReal) (A15 : S512x2.Idx → EReal) (A16 : S2.Idx → EReal) :
    S2048x2560.Idx → EReal := fun i =>
  Cert.Fusion.rowOut (fun d => A0 (ix2 (i 0) d)) (fun d => A1 (ix2 (i 0) d))
    (fun d => A2 (ix2 d (i 1))) (A3 (ix1 (i 1))) (fun d => A6 (ix2 d (i 1))) (A7 (ix1 (i 1)))
    (fun d h => A4 (ix2 d h)) (fun h => A5 (ix1 h)) (fun d h => A8 (ix2 d h)) (fun h => A9 (ix1 h))
    (fun k n => A10 (ix2 k n)) (fun k n => A11 (ix2 k n)) (fun n => A12 (ix1 n))
    (fun k n => A13 (ix2 k n)) (fun n => A14 (ix1 n)) (fun k e => A15 (ix2 k e)) (fun e => A16 (ix1 e))

theorem hz2 : (![0, 0] : Fin 2 → Nat) = fun _ => 0 := funext fun a => by fin_cases a <;> rfl

/-- The printed index maps of the three row-blocked windows, decided over the grid: block `t` along the rows, block 0
    along the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_17.index t (0 : Fin 2) = t.val ∧ win0_17.index t (1 : Fin 2) = 0 :=
  (by decide +kernel : ∀ t : Fin grid0.N, _)

/-- The printed index maps of the fifteen parameter windows, decided over the grid: always block 0. -/
theorem idx_params : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = 0 ∧ win0_15.index t (1 : Fin 2) = 0
    ∧ win0_16.index t (0 : Fin 1) = 0 :=
  (by decide +kernel : ∀ t : Fin grid0.N, _)

/-- Row `p` of the first row window's block at point `t` is row `128 t + p` of its array. -/
theorem iblk0_apply (c : Dev nD) (t : Fin cfg0.N) (p : Fin 128) (d : Fin 1024) (r : Fin 2048) (hr : r.val = t.val * 128 + p.val) :
    iblk m c 0 t (ix2 p d) = (V m c main_v27 : S2048x1024.Idx → EReal) (ix2 r d) := by
  obtain ⟨e0, e1, -, -, -, -⟩ := idx_rows t
  unfold iblk
  rw [View.read_apply]
  show (V m c main_v27 : S2048x1024.Idx → EReal) (((cfg0.win 0).blk t).view.emb (ix2 p d)) = _
  refine congrArg _ (funext fun ax => Fin.ext ?_)
  match ax with
  | ⟨0, _⟩ => show win0_0.index t (0 : Fin 2) * 128 + 1 * p.val = r.val; omega
  | ⟨1, _⟩ => show win0_0.index t (1 : Fin 2) * 1024 + 1 * d.val = d.val; omega

/-- Row `p` of the second row window's block at point `t` is row `128 t + p` of its array. -/
theorem iblk1_apply (c : Dev nD) (t : Fin cfg0.N) (p : Fin 128) (d : Fin 1024) (r : Fin 2048) (hr : r.val = t.val * 128 + p.val) :
    iblk m c 1 t (ix2 p d) = (V m c main_v29 : S2048x1024.Idx → EReal) (ix2 r d) := by
  obtain ⟨-, -, e0, e1, -, -⟩ := idx_rows t
  unfold iblk
  rw [View.read_apply]
  show (V m c main_v29 : S2048x1024.Idx → EReal) (((cfg0.win 1).blk t).view.emb (ix2 p d)) = _
  refine congrArg _ (funext fun ax => Fin.ext ?_)
  match ax with
  | ⟨0, _⟩ => show win0_1.index t (0 : Fin 2) * 128 + 1 * p.val = r.val; omega
  | ⟨1, _⟩ => show win0_1.index t (1 : Fin 2) * 1024 + 1 * d.val = d.val; omega

/-- Window 2 stages its whole array at every point. -/
theorem iblk2_apply (c : Dev nD) (t : Fin cfg0.N) (i : Fin 1024) (k : Fin 2560) :
    iblk m c 2 t (ix2 i k) = (V m c main_v34 : S1024x2560.Idx → EReal) (ix2 i k) := by
  have hf := idx_params t
  unfold iblk
  rw [View.read_apply]
  show (V m c main_v34 : S1024x2560.Idx → EReal) (((cfg0.win 2).blk t).view.emb (ix2 i k)) = _
  refine congrArg _ (funext fun ax => Fin.ext ?_)
  match ax with
  | ⟨0, _⟩ => show win0_2.index t (0 : Fin 2) * 1024 + 1 * i.val = i.val; omega
  | ⟨1, _⟩ => show win0_2.index t (1 : Fin 2) * 2560 + 1 * k.val = k.val; omega

/-- Window 3 stages its whole array at every point. -/
theorem iblk3_apply (c : Dev nD) (t : Fin cfg0.N) (i : Fin 2560) :
    iblk m c 3 t (ix1 i) = (V m c main_v31 : S2560.Idx → EReal) (ix1 i) := by
  have hf := idx_params t
  unfold iblk
  rw [View.read_apply]
  show (V m c main_v31 : S2560.Idx → EReal) (((cfg0.win 3).blk t).view.emb (ix1 i)) = _
  refine congrArg _ (funext fun ax => Fin.ext ?_)
  match ax with
  | ⟨0, _⟩ => show win0_3.index t (0 : Fin 1) * 2560 + 1 * i.val = i.val; omega

/-- Window 4 stages its whole array at every point. -/
theorem iblk4_apply (c : Dev nD) (t : Fin cfg0.N) (i : Fin 1024) (k : Fin 2048) :
    iblk m c 4 t (ix2 i k) = (V m c main_v35 : S1024x2048.Idx → EReal) (ix2 i k) := by
  have hf := idx_params t
  unfold iblk
  rw [View.read_apply]
  show (V m c main_v35 : S1024x2048.Idx → EReal) (((cfg0.win 4).blk t).view.emb (ix2 i k)) = _
  refine congrArg _ (funext fun ax => Fin.ext ?_)
  match ax with
  | ⟨0, _⟩ => show win0_4.index t (0 : Fin 2) * 1024 + 1 * i.val = i.val; omega
  | ⟨1, _⟩ => show win0_4.index t (1 : Fin 2) * 2048 + 1 * k.val = k.val; omega

/-- Window 5 stages its whole array at every point. -/
theorem iblk5_apply (c : Dev nD) (t : Fin cfg0.N) (i : Fin 2048) :
    iblk m c 5 t (ix1 i) = (V m c main_arg5 : S2048.Idx → EReal) (ix1 i) := by
  have hf := idx_params t
  unfold iblk
  rw [View.read_apply]
  show (V m c main_arg5 : S2048.Idx → EReal) (((cfg0.win 5).blk t).view.emb (ix1 i)) = _
  refine congrArg _ (funext fun ax => Fin.ext ?_)
  match ax with
  | ⟨0, _⟩ => show win0_5.index t (0 : Fin 1) * 2048 + 1 * i.val = i.val; omega

/-- Window 6 stages its whole array at every point. -/
theorem iblk6_apply (c : Dev nD) (t : Fin cfg0.N) (i : Fin 1024) (k : Fin 2560) :
    iblk m c 6 t (ix2 i k) = (V m c main_v36 : S1024x2560.Idx → EReal) (ix2 i k) := by
  have hf := idx_params t
  unfold iblk
  rw [View.read_apply]
  show (V m c main_v36 : S1024x2560.Idx → EReal) (((cfg0.win 6).blk t).view.emb (ix2 i k)) = _
  refine congrArg _ (funext fun ax => Fin.ext ?_)
  match ax with
  | ⟨0, _⟩ => show win0_6.index t (0 : Fin 2) * 1024 + 1 * i.val = i.val; omega
  | ⟨1, _⟩ => show win0_6.index t (1 : Fin 2) * 2560 + 1 * k.val = k.val; omega

/-- Window 7 stages its whole array at every point. -/
theorem iblk7_apply (c : Dev nD) (t : Fin cfg0.N) (i : Fin 2560) :
    iblk m c 7 t (ix1 i) = (V m c main_v33 : S2560.Idx → EReal) (ix1 i) := by
  have hf := idx_params t
  unfold iblk
  rw [View.read_apply]
  show (V m c main_v33 : S2560.Idx → EReal) (((cfg0.win 7).blk t).view.emb (ix1 i)) = _
  refine congrArg _ (funext fun ax => Fin.ext ?_)
  match ax with
  | ⟨0, _⟩ => show win0_7.index t (0 : Fin 1) * 2560 + 1 * i.val = i.val; omega

/-- Window 8 stages its whole array at every point. -/
theorem iblk8_apply (c : Dev nD) (t : Fin cfg0.N) (i : Fin 1024) (k : Fin 2048) :
    iblk m c 8 t (ix2 i k) = (V m c main_v37 : S1024x2048.Idx → EReal) (ix2 i k) := by
  have hf := idx_params t
  unfold iblk
  rw [View.read_apply]
  show (V m c main_v37 : S1024x2048.Idx → EReal) (((cfg0.win 8).blk t).view.emb (ix2 i k)) = _
  refine congrArg _ (funext fun ax => Fin.ext ?_)
  match ax with
  | ⟨0, _⟩ => show win0_8.index t (0 : Fin 2) * 1024 + 1 * i.val = i.val; omega
  | ⟨1, _⟩ => show win0_8.index t (1 : Fin 2) * 2048 + 1 * k.val = k.val; omega

/-- Window 9 stages its whole array at every point. -/
theorem iblk9_apply (c : Dev nD) (t : Fin cfg0.N) (i : Fin 2048) :
    iblk m c 9 t (ix1 i) = (V m c main_arg9 : S2048.Idx → EReal) (ix1 i) := by
  have hf := idx_params t
  unfold iblk
  rw [View.read_apply]
  show (V m c main_arg9 : S2048.Idx → EReal) (((cfg0.win 9).blk t).view.emb (ix1 i)) = _
  refine congrArg _ (funext fun ax => Fin.ext ?_)
  match ax with
  | ⟨0, _⟩ => show win0_9.index t (0 : Fin 1) * 2048 + 1 * i.val = i.val; omega

/-- Window 10 stages its whole array at every point. -/
theorem iblk10_apply (c : Dev nD) (t : Fin cfg0.N) (i : Fin 2048) (k : Fin 1024) :
    iblk m c 10 t (ix2 i k) = (V m c main_v39 : S2048x1024.Idx → EReal) (ix2 i k) := by
  have hf := idx_params t
  unfold iblk
  rw [View.read_apply]
  show (V m c main_v39 : S2048x1024.Idx → EReal) (((cfg0.win 10).blk t).view.emb (ix2 i k)) = _
  refine congrArg _ (funext fun ax => Fin.ext ?_)
  match ax with
  | ⟨0, _⟩ => show win0_10.index t (0 : Fin 2) * 2048 + 1 * i.val = i.val; omega
  | ⟨1, _⟩ => show win0_10.index t (1 : Fin 2) * 1024 + 1 * k.val = k.val; omega

/-- Window 11 stages its whole array at every point. -/
theorem iblk11_apply (c : Dev nD) (t : Fin cfg0.N) (i : Fin 2048) (k : Fin 1024) :
    iblk m c 11 t (ix2 i k) = (V m c main_v41 : S2048x1024.Idx → EReal) (ix2 i k) := by
  have hf := idx_params t
  unfold iblk
  rw [View.read_apply]
  show (V m c main_v41 : S2048x1024.Idx → EReal) (((cfg0.win 11).blk t).view.emb (ix2 i k)) = _
  refine congrArg _ (funext fun ax => Fin.ext ?_)
  match ax with
  | ⟨0, _⟩ => show win0_11.index t (0 : Fin 2) * 2048 + 1 * i.val = i.val; omega
  | ⟨1, _⟩ => show win0_11.index t (1 : Fin 2) * 1024 + 1 * k.val = k.val; omega

/-- Window 12 stages its whole array at every point. -/
theorem iblk12_apply (c : Dev nD) (t : Fin cfg0.N) (i : Fin 1024) :
    iblk m c 12 t (ix1 i) = (V m c main_arg11 : S1024.Idx → EReal) (ix1 i) := by
  have hf := idx_params t
  unfold iblk
  rw [View.read_apply]
  show (V m c main_arg11 : S1024.Idx → EReal) (((cfg0.win 12).blk t).view.emb (ix1 i)) = _
  refine congrArg _ (funext fun ax => Fin.ext ?_)
  match ax with
  | ⟨0, _⟩ => show win0_12.index t (0 : Fin 1) * 1024 + 1 * i.val = i.val; omega

/-- Window 13 stages its whole array at every point. -/
theorem iblk13_apply (c : Dev nD) (t : Fin cfg0.N) (i : Fin 1024) (k : Fin 512) :
    iblk m c 13 t (ix2 i k) = (V m c main_v42 : S1024x512.Idx → EReal) (ix2 i k) := by
  have hf := idx_params t
  unfold iblk
  rw [View.read_apply]
  show (V m c main_v42 : S1024x512.Idx → EReal) (((cfg0.win 13).blk t).view.emb (ix2 i k)) = _
  refine congrArg _ (funext fun ax => Fin.ext ?_)
  match ax with
  | ⟨0, _⟩ => show win0_13.index t (0 : Fin 2) * 1024 + 1 * i.val = i.val; omega
  | ⟨1, _⟩ => show win0_13.index t (1 : Fin 2) * 512 + 1 * k.val = k.val; omega

/-- Window 14 stages its whole array at every point. -/
theorem iblk14_apply (c : Dev nD) (t : Fin cfg0.N) (i : Fin 512) :
    iblk m c 14 t (ix1 i) = (V m c main_arg13 : S512.Idx → EReal) (ix1 i) := by
  have hf := idx_params t
  unfold iblk
  rw [View.read_apply]
  show (V m c main_arg13 : S512.Idx → EReal) (((cfg0.win 14).blk t).view.emb (ix1 i)) = _
  refine congrArg _ (funext fun ax => Fin.ext ?_)
  match ax with
  | ⟨0, _⟩ => show win0_14.index t (0 : Fin 1) * 512 + 1 * i.val = i.val; omega

/-- Window 15 stages its whole array at every point. -/
theorem iblk15_apply (c : Dev nD) (t : Fin cfg0.N) (i : Fin 512) (k : Fin 2) :
    iblk m c 15 t (ix2 i k) = (V m c main_v43 : S512x2.Idx → EReal) (ix2 i k) := by
  have hf := idx_params t
  unfold iblk
  rw [View.read_apply]
  show (V m c main_v43 : S512x2.Idx → EReal) (((cfg0.win 15).blk t).view.emb (ix2 i k)) = _
  refine congrArg _ (funext fun ax => Fin.ext ?_)
  match ax with
  | ⟨0, _⟩ => show win0_15.index t (0 : Fin 2) * 512 + 1 * i.val = i.val; omega
  | ⟨1, _⟩ => show win0_15.index t (1 : Fin 2) * 2 + 1 * k.val = k.val; omega

/-- Window 16 stages its whole array at every point. -/
theorem iblk16_apply (c : Dev nD) (t : Fin cfg0.N) (i : Fin 2) :
    iblk m c 16 t (ix1 i) = (V m c main_arg15 : S2.Idx → EReal) (ix1 i) := by
  have hf := idx_params t
  unfold iblk
  rw [View.read_apply]
  show (V m c main_arg15 : S2.Idx → EReal) (((cfg0.win 16).blk t).view.emb (ix1 i)) = _
  refine congrArg _ (funext fun ax => Fin.ext ?_)
  match ax with
  | ⟨0, _⟩ => show win0_16.index t (0 : Fin 1) * 2 + 1 * i.val = i.val; omega

/-- Entry `(p, q)` of the output window's block at point `t` sits at `(128 t + p, q)` of the output array. -/
theorem emb17_apply (t : Fin cfg0.N) (p : Fin 128) (q : Fin 2560) (r : Fin 2048) (hr : r.val = t.val * 128 + p.val) :
    (((cfg0.win 17).blk t).view.emb (ix2 p q) : S2048x2560.Idx) = ix2 r q := by
  obtain ⟨-, -, -, -, e0, e1⟩ := idx_rows t
  refine funext fun ax => Fin.ext ?_
  match ax with
  | ⟨0, _⟩ => show win0_17.index t (0 : Fin 2) * 128 + 1 * p.val = r.val; omega
  | ⟨1, _⟩ => show win0_17.index t (1 : Fin 2) * 2560 + 1 * q.val = q.val; omega

/-- WHAT POINT `t` WRITES BACK is block `t` of `Kfull` of the operand arrays as the region finds them. -/
theorem flushed17_eq (c : Dev nD) (t : Fin cfg0.N) :
    (dats m 0 c).flushed 17 t = ((cfg0.win 17).blk t).view.read (Elt Ideal) (Kfull (V m c main_v27) (V m c main_v29) (V m c main_v34) (V m c main_v31) (V m c main_v35) (V m c main_arg5) (V m c main_v36) (V m c main_v33) (V m c main_v37) (V m c main_arg9) (V m c main_v39) (V m c main_v41) (V m c main_arg11) (V m c main_v42) (V m c main_arg13) (V m c main_v43) (V m c main_arg15)) := by
  show (cfg0.win 17).cut (grid0.coords t) ((dats m 0 c).after 17 t) = _
  dsimp only [dats]
  unfold out0_17
  rw [View.canon_unit_zero hz2]
  funext j
  obtain ⟨p, q, rfl⟩ : ∃ (p : Fin 128) (q : Fin 2560), j = ix2 p q := ⟨j 0, j 1, eq_ix2 j⟩
  have hlt : t.val < 16 := lt_of_lt_of_eq t.isLt (N_0 : cfg0.N = 16)
  have hr : t.val * 128 + p.val < 2048 := by have := p.isLt; omega
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [View.read_apply, emb17_apply t p q ⟨t.val * 128 + p.val, hr⟩ rfl]
  unfold Kfull
  simp only [iblk0_apply m c t p _ ⟨t.val * 128 + p.val, hr⟩ rfl, iblk1_apply m c t p _ ⟨t.val * 128 + p.val, hr⟩ rfl,
    iblk2_apply m c t, iblk3_apply m c t, iblk4_apply m c t, iblk5_apply m c t, iblk6_apply m c t, iblk7_apply m c t, iblk8_apply m c t, iblk9_apply m c t, iblk10_apply m c t, iblk11_apply m c t, iblk12_apply m c t, iblk13_apply m c t, iblk14_apply m c t, iblk15_apply m c t, iblk16_apply m c t]
  rfl

/-- An index of the output array is in point `t`'s block iff each coordinate is in the block's range on its axis. -/
theorem mem_blk17 (t : Fin cfg0.N) (i : S2048x2560.Idx) :
    i ∈ ((cfg0.win 17).blk t).view.set ↔ ∀ a : Fin 2, win0_17.index t a * S128x2560.size a ≤ (i a).val ∧ (i a).val < win0_17.index t a * S128x2560.size a + S128x2560.size a := by
  show i ∈ ((View.whole main_v44).slice (win0_17.rect t)).set ↔ _
  rw [View.set_slice_whole, Rect.mem_set_unit]
  exact Iff.rfl

/-- The sixteen row blocks tile the output array: row `r` is in the block of point `r / 128`. -/
theorem cover17 (i : S2048x2560.Idx) :
    ∃ t : Fin cfg0.N, (cfg0.win 17).flush t = true ∧ i ∈ ((cfg0.win 17).blk t).view.set := by
  have hi0 : (i 0).val < 2048 := (i 0).isLt
  have hi1 : (i 1).val < 2560 := (i 1).isLt
  have hN : cfg0.N = 16 := N_0
  refine ⟨⟨(i 0).val / 128, by rw [hN]; omega⟩, flush0_17 _, ?_⟩
  rw [mem_blk17]
  obtain ⟨-, -, -, -, e0, e1⟩ := idx_rows ⟨(i 0).val / 128, by rw [hN]; omega⟩
  intro a
  match a with
  | ⟨0, _⟩ =>
    show win0_17.index _ (0 : Fin 2) * 128 ≤ (i 0).val ∧ (i 0).val < win0_17.index _ (0 : Fin 2) * 128 + 128
    rw [e0]; show (i 0).val / 128 * 128 ≤ (i 0).val ∧ (i 0).val < (i 0).val / 128 * 128 + 128; omega
  | ⟨1, _⟩ =>
    show win0_17.index _ (1 : Fin 2) * 2560 ≤ (i 1).val ∧ (i 1).val < win0_17.index _ (1 : Fin 2) * 2560 + 2560
    rw [e1]; omega

/-- THE OUTPUT ARRAY after the run: `Kfull` of the operand arrays as the region found them. -/
theorem final17 (c : Dev nD) :
    (dats m 0 c).arrAt 17 cfg0.N = Kfull (V m c main_v27) (V m c main_v29) (V m c main_v34) (V m c main_v31) (V m c main_v35) (V m c main_arg5) (V m c main_v36) (V m c main_v33) (V m c main_v37) (V m c main_arg9) (V m c main_v39) (V m c main_v41) (V m c main_arg11) (V m c main_v42) (V m c main_arg13) (V m c main_v43) (V m c main_arg15) :=
  (dats m 0 c).arrAt_eq_of_cover 17 _ (fun t _ => flushed17_eq m c t) cover17

end Cert.KernelIdeal.Hand

end
-- ==== Proof.LibFrameStack.lean ====
/-
  Layout operations around a stack of frames, read at an index given by coordinates; extents general.

  * one frame `f` of a stack `[a, T, c]` cut out as `[a, 1, c]`: entry `(p, w, r)` is the stack at `(p, f, r)`;
  * an `[a, 1, c]` array cast to the matrix `[a, c]`: entry `(p, r)` is the operand at `(p, 0, r)`;
  * a matrix `[a, c]` given a unit middle axis (a broadcast with the operand's axes sent to 0 and 2): entry `(p, w, r)`
    is the matrix at `(p, r)`;
  * four `[a, 1, c]` slabs joined along the middle axis to `[a, 4, c]`: entry `(p, j, r)` is slab `j` at `(p, 0, r)`;
  * a band of `a'` rows of a matrix `[a, c]` starting at row `o`: entry `(p, r)` is the matrix at `(o + p, r)`;
  * a vector `[b]` padded at its high end to `[b']`: entry `i` is the operand's entry `i` when `i < b`, the padding
    value otherwise.
-/
import Idealize.ShloMosaic.Lib.KernelVsHost
import Idealize.ShloMosaic.Lib.ValueLayout

noncomputable section

namespace Cert.LibFrameStack

open Idealize.ShloMosaic Idealize.ShloMosaic.ValueIdx

variable {α : Type}

/-- One frame `f` of an `[a, T, c]` stack cut out as `[a, 1, c]` reads, at `(p, w, r)`, the stack at `(p, f, r)`. -/
theorem slice_frame_apply {a T c f : ℕ} (x : (⟨3, ![a, T, c]⟩ : Shape).Idx → α)
    (h : (⟨3, ![a, T, c]⟩ : Shape).Slices (![0, f, 0] : Fin 3 → Nat) ⟨3, ![a, 1, c]⟩) (hf : f < T)
    (p : Fin a) (w : Fin 1) (r : Fin c) :
    extractStridedSlice ⟨3, ![a, 1, c]⟩ (![0, f, 0] : Fin 3 → Nat) x h (ix3 p w r) = x (ix3 p ⟨f, hf⟩ r) :=
  extractStridedSlice_apply _ x h _ _ fun ax => by
    match ax with
    | ⟨0, _⟩ => show p.val = 0 + p.val; omega
    | ⟨1, _⟩ => show f = f + w.val; omega
    | ⟨2, _⟩ => show r.val = 0 + r.val; omega

/-- An `[a, 1, c]` array cast to the matrix `[a, c]` reads, at `(p, r)`, the operand at `(p, 0, r)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (r : Fin c) :
    shapeCast ⟨2, ![a, c]⟩ x h (ix2 p r) = x (ix3 p (0 : Fin 1) r) :=
  shapeCast_apply x h _ _ (by
    rw [Shape.rowMajor_val_three, Shape.rowMajor_val_two]
    show (p.val * 1 + 0) * c + r.val = p.val * c + r.val
    rw [Nat.mul_one, Nat.add_zero])

/-- A matrix `[a, c]` given a unit middle axis reads, at `(p, w, r)`, the matrix at `(p, r)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (p : Fin a) (w : Fin 1) (r : Fin c) :
    broadcastInDim ⟨3, ![a, 1, c]⟩ ![0, 2] h x (ix3 p w r) = x (ix2 p r) :=
  broadcastInDim_apply _ h x _ _ fun ax => by
    match ax with
    | ⟨0, _⟩ =>
      show p.val = if a = 1 then 0 else p.val
      split
      · have := p.isLt; omega
      · rfl
    | ⟨1, _⟩ =>
      show r.val = if c = 1 then 0 else r.val
      split
      · have := r.isLt; omega
      · rfl

/-- Four `[a, 1, c]` slabs joined along the middle axis read, at `(p, j, r)`, slab `j` at `(p, 0, r)`. -/
theorem concat4_unit_apply {a c : ℕ} (y0 y1 y2 y3 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩] :
      List ((s : Shape) × (s.Idx → α))).map (·.1)) ⟨3, ![a, 4, c]⟩ 1)
    (p : Fin a) (j : Fin 4) (r : Fin c) :
    concatenate ⟨3, ![a, 4, c]⟩ 1 [⟨⟨3, ![a, 1, c]⟩, y0⟩, ⟨⟨3, ![a, 1, c]⟩, y1⟩, ⟨⟨3, ![a, 1, c]⟩, y2⟩, ⟨⟨3, ![a, 1, c]⟩, y3⟩] h (ix3 p j r)
      = (match j with | ⟨0, _⟩ => y0 | ⟨1, _⟩ => y1 | ⟨2, _⟩ => y2 | ⟨3, _⟩ => y3) (ix3 p (0 : Fin 1) r) := by
  have hoff : ∀ (b : Fin 3), b.cast (rfl : (3 : ℕ) = 3) ≠ (1 : Fin 3) →
      ((ix3 p (0 : Fin 1) r : (⟨3, ![a, 1, c]⟩ : Shape).Idx) b).val = ((ix3 p j r : (⟨3, ![a, 4, c]⟩ : Shape).Idx) (b.cast rfl)).val := by
    intro b hb
    match b with
    | ⟨0, _⟩ => rfl
    | ⟨1, _⟩ => exact absurd rfl hb
    | ⟨2, _⟩ => rfl
  match j with
  | ⟨0, _⟩ => exact concatenate_apply_piece 1 _ h _ 0 (by show (0 : ℕ) < 4; omega) _ y0 rfl rfl 0 rfl _ hoff rfl
  | ⟨1, _⟩ => exact concatenate_apply_piece 1 _ h _ 1 (by show (1 : ℕ) < 4; omega) _ y1 rfl rfl 1 rfl _ hoff rfl
  | ⟨2, _⟩ => exact concatenate_apply_piece 1 _ h _ 2 (by show (2 : ℕ) < 4; omega) _ y2 rfl rfl 2 rfl _ hoff rfl
  | ⟨3, _⟩ => exact concatenate_apply_piece 1 _ h _ 3 (by show (3 : ℕ) < 4; omega) _ y3 rfl rfl 3 rfl _ hoff rfl

/-- A band of `a'` rows of an `[a, c]` matrix starting at row `o` reads, at `(p, r)`, the matrix at `(o + p, r)`. -/
theorem slice_rows_apply {a a' c o : ℕ} (x : (⟨2, ![a, c]⟩ : Shape).Idx → α)
    (h : (⟨2, ![a, c]⟩ : Shape).Slices (![o, 0] : Fin 2 → Nat) ⟨2, ![a', c]⟩) (p : Fin a') (r : Fin c)
    (hp : o + p.val < a) :
    extractStridedSlice ⟨2, ![a', c]⟩ (![o, 0] : Fin 2 → Nat) x h (ix2 p r) = x (ix2 ⟨o + p.val, hp⟩ r) :=
  extractStridedSlice_apply _ x h _ _ fun ax => by
    match ax with
    | ⟨0, _⟩ => rfl
    | ⟨1, _⟩ => show r.val = 0 + r.val; omega

/-- The first `b'` columns of an `[a, b]` matrix read, at `(p, q)`, the matrix at `(p, q)`. -/
theorem slice_cols_low_apply {a b b' : ℕ} (x : (⟨2, ![a, b]⟩ : Shape).Idx → α)
    (h : (⟨2, ![a, b]⟩ : Shape).Slices (![0, 0] : Fin 2 → Nat) ⟨2, ![a, b']⟩) (p : Fin a) (q : Fin b')
    (hq : q.val < b) :
    extractStridedSlice ⟨2, ![a, b']⟩ (![0, 0] : Fin 2 → Nat) x h (ix2 p q) = x (ix2 p ⟨q.val, hq⟩) :=
  extractStridedSlice_apply _ x h _ _ fun ax => by
    match ax with
    | ⟨0, _⟩ => show p.val = 0 + p.val; omega
    | ⟨1, _⟩ => show q.val = 0 + q.val; omega

/-- A vector `[b]` padded at its high end to `[b']` reads, at `i`, the operand's entry `i` when `i < b`, else the
    padding value. -/
theorem pad_vec_high_apply {b b' e : ℕ} (x : (⟨1, ![b]⟩ : Shape).Idx → α) {u : Shape} (v : u.Idx → α)
    (hp : (⟨1, ![b]⟩ : Shape).Pads (![0] : Fin 1 → Nat) ![e] ![0] ⟨1, ![b']⟩) (hu : 0 < u.numel) (i : Fin b') :
    pad ⟨1, ![b']⟩ (![0] : Fin 1 → Nat) ![e] ![0] x v hp hu (ix1 i)
      = if h : i.val < b then x (ix1 ⟨i.val, h⟩) else v (Shape.Idx.first hu) := by
  by_cases h : i.val < b
  · rw [dif_pos h]
    refine pad_apply_of_inside _ _ _ x v hp hu (ix1 i) (ix1 ⟨i.val, h⟩) fun ax => ?_
    match ax with
    | ⟨0, _⟩ => show i.val = 0 + i.val * (0 + 1); omega
  · rw [dif_neg h]
    refine pad_apply_of_not_inside _ _ _ x v hp hu (ix1 i) (0 : Fin 1) fun hh => h ?_
    have h3 : (i.val - 0) / (0 + 1) < b := hh.2.2
    omega

end Cert.LibFrameStack

end
-- ==== Proof.LibFlattenRows.lean ====
/-
  Layout operations of a stack of matrices read at an index given by coordinates, extents general.

  * a matrix `[a, c]` cast to `[a, 1, c]` (a new unit middle axis) and that broadcast along the middle axis to `[a, b, c]`:
    entry `(p, q, r)` is the matrix at `(p, r)`;
  * a stack `[1, b, c]` broadcast along its leading axis to `[a, b, c]`: entry `(p, q, r)` is the operand at `(0, q, r)`;
  * a stack `[a, b, c]` flattened to `[m, c]` with `m = a·b` rows, and a matrix `[m, c]` cut back into `[a, b, c]`:
    row `p·b + q` of the matrix is row `(p, q)` of the stack (row-major order).
-/
import Idealize.ShloMosaic.Lib.ValueLayout

namespace Cert.LibFlattenRows

open Idealize.ShloMosaic Idealize.ShloMosaic.ValueIdx

variable {α : Type}

/-- An `[a, c]` matrix cast to `[a, 1, c]` reads, at `(p, w, r)`, the matrix at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (w : Fin 1) (r : Fin c) :
    shapeCast ⟨3, ![a, 1, c]⟩ x h (ix3 p w r) = x (ix2 p r) :=
  shapeCast_apply x h _ _ (by
    have hw : w.val = 0 := by omega
    rw [Shape.rowMajor_val_three, Shape.rowMajor_val_two]
    show p.val * c + r.val = (p.val * 1 + w.val) * c + r.val
    rw [hw, Nat.mul_one, Nat.add_zero])

/-- An `[a, 1, c]` array broadcast along its middle axis to `[a, b, c]` reads, at `(p, q, r)`, the operand at
    `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast along its leading axis to `[a, b, c]` reads, at `(p, q, r)`, the operand at
    `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A stack `[a, b, c]` flattened to a matrix `[m, c]` reads, at `(k, r)` with `k = p·b + q`, the stack at `(p, q, r)`. -/
theorem shapeCast_abc_mc_apply {a b c m : ℕ} (x : (⟨3, ![a, b, c]⟩ : Shape).Idx → α)
    (h : (⟨3, ![a, b, c]⟩ : Shape).ShapeCasts ⟨2, ![m, c]⟩) (k : Fin m) (r : Fin c) (p : Fin a) (q : Fin b)
    (hk : k.val = p.val * b + q.val) :
    shapeCast ⟨2, ![m, c]⟩ x h (ix2 k r) = x (ix3 p q r) :=
  shapeCast_apply x h _ _ (by
    rw [Shape.rowMajor_val_three, Shape.rowMajor_val_two]
    show (p.val * b + q.val) * c + r.val = k.val * c + r.val
    rw [hk])

/-- A matrix `[m, c]` cut into a stack `[a, b, c]` reads, at `(p, q, r)`, the matrix at `(k, r)` with `k = p·b + q`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (k : Fin m)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.KernelRows.lean ====
/-
  The two row arrays the region reads, at an index.

  Before the region the host cuts frames 12, 16, 20 and 24 out of each `[512, 28, 1024]` input, stacks the four as
  `[512, 4, 1024]` and flattens the stack to `[2048, 1024]` (and passes it on in the narrower float format, which is the
  identity on the extended reals). So row `4 b + j` of a row array is frame `12 + 4 j` of batch entry `b` of its input.
-/
import proofs.«164370_j19464791785861_2_alg».proof.Proof.KernelDefs
import proofs.«164370_j19464791785861_2_alg».proof.Proof.Spec
import proofs.«164370_j19464791785861_2_alg».proof.Proof.LibFrameStack
import proofs.«164370_j19464791785861_2_alg».proof.Proof.LibFlattenRows
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-- The results of host operations read at literal references, outermost first (the continuation of the library's
    `after_results` once a join's operand references have become literals). -/
macro "results_again" : tactic =>
  `(tactic| repeat (first
      | rw [StableHlo.nullary_result] | rw [StableHlo.unary_result] | rw [StableHlo.binary_result] | rw [StableHlo.reshape_result]
      | rw [StableHlo.nary_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))

/-- Frames 12, 16, 20, 24 of a `[512, 28, 1024]` array, each cut out, cast to a matrix, given back its unit middle axis,
    the four joined along it and the stack flattened to 2048 rows: the host's operations, as one function. -/
def frameRows (x : S512x28x1024.Idx → EReal) : S2048x1024.Idx → EReal :=
  shapeCast S2048x1024
    (concatenate S512x4x1024 1
      [⟨S512x1x1024, broadcastInDim S512x1x1024 ![0, 2] bcast_S512x1024_S512x1x1024_0_2
          (shapeCast S512x1024 (extractStridedSlice S512x1x1024 ![0, 12, 0] x slices_S512x28x1024_S512x1x1024_0_12_0) shapeCasts_S512x1x1024_S512x1024)⟩,
       ⟨S512x1x1024, broadcastInDim S512x1x1024 ![0, 2] bcast_S512x1024_S512x1x1024_0_2
          (shapeCast S512x1024 (extractStridedSlice S512x1x1024 ![0, 16, 0] x slices_S512x28x1024_S512x1x1024_0_16_0) shapeCasts_S512x1x1024_S512x1024)⟩,
       ⟨S512x1x1024, broadcastInDim S512x1x1024 ![0, 2] bcast_S512x1024_S512x1x1024_0_2
          (shapeCast S512x1024 (extractStridedSlice S512x1x1024 ![0, 20, 0] x slices_S512x28x1024_S512x1x1024_0_20_0) shapeCasts_S512x1x1024_S512x1024)⟩,
       ⟨S512x1x1024, broadcastInDim S512x1x1024 ![0, 2] bcast_S512x1024_S512x1x1024_0_2
          (shapeCast S512x1024 (extractStridedSlice S512x1x1024 ![0, 24, 0] x slices_S512x28x1024_S512x1x1024_0_24_0) shapeCasts_S512x1x1024_S512x1024)⟩]
      concatenates_S512x1x1024_S512x1x1024_S512x1x1024_S512x1x1024_S512x4x1024_d1)
    shapeCasts_S512x4x1024_S2048x1024

/-- Row `4 b + j` of the stacked frames is frame `12 + 4 j` of batch entry `b`. -/
theorem frameRows_apply (x : S512x28x1024.Idx → EReal) (b : Fin 512) (j : Fin 4) (d : Fin 1024) (r : Fin 2048)
    (hr : r.val = b.val * 4 + j.val) :
    frameRows x (ix2 r d) = x (ix3 b (Cert.Fusion.frameOf j) d) := by
  unfold frameRows
  rw [Cert.LibFlattenRows.shapeCast_abc_mc_apply _ _ r d b j hr, Cert.LibFrameStack.concat4_unit_apply]
  match j with
  | ⟨0, _⟩ =>
    refine (Cert.LibFrameStack.broadcastInDim_ac_a1c_apply _ _ b (0 : Fin 1) d).trans ?_
    refine (Cert.LibFrameStack.shapeCast_a1c_ac_apply _ _ b d).trans ?_
    refine (Cert.LibFrameStack.slice_frame_apply _ _ (by omega : 12 < 28) b (0 : Fin 1) d).trans ?_
    rfl
  | ⟨1, _⟩ =>
    refine (Cert.LibFrameStack.broadcastInDim_ac_a1c_apply _ _ b (0 : Fin 1) d).trans ?_
    refine (Cert.LibFrameStack.shapeCast_a1c_ac_apply _ _ b d).trans ?_
    refine (Cert.LibFrameStack.slice_frame_apply _ _ (by omega : 16 < 28) b (0 : Fin 1) d).trans ?_
    rfl
  | ⟨2, _⟩ =>
    refine (Cert.LibFrameStack.broadcastInDim_ac_a1c_apply _ _ b (0 : Fin 1) d).trans ?_
    refine (Cert.LibFrameStack.shapeCast_a1c_ac_apply _ _ b d).trans ?_
    refine (Cert.LibFrameStack.slice_frame_apply _ _ (by omega : 20 < 28) b (0 : Fin 1) d).trans ?_
    rfl
  | ⟨3, _⟩ =>
    refine (Cert.LibFrameStack.broadcastInDim_ac_a1c_apply _ _ b (0 : Fin 1) d).trans ?_
    refine (Cert.LibFrameStack.shapeCast_a1c_ac_apply _ _ b d).trans ?_
    refine (Cert.LibFrameStack.slice_frame_apply _ _ (by omega : 24 < 28) b (0 : Fin 1) d).trans ?_
    rfl

variable (m : (ℓ : Loc nD τ sig) → Buf (Elt Ideal) ℓ)

set_option maxHeartbeats 4000000 in
/-- The first row array as the region finds it is the stacked frames of the first input. -/
theorem V_main_v27 (c : Dev nD) :
    (V m c main_v27 : S2048x1024.Idx → EReal) = frameRows (m ((c : Thread nD τ).loc main_arg0)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [Matrix.cons_val_zero, Matrix.cons_val_one, Matrix.cons_val]
  results_again
  rfl

set_option maxHeartbeats 4000000 in
/-- The second row array as the region finds it is the stacked frames of the second input. -/
theorem V_main_v29 (c : Dev nD) :
    (V m c main_v29 : S2048x1024.Idx → EReal) = frameRows (m ((c : Thread nD τ).loc main_arg1)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [Matrix.cons_val_zero, Matrix.cons_val_one, Matrix.cons_val]
  results_again
  rfl

end Cert.KernelIdeal.Hand

end
-- ==== Proof.LibPadHigh.lean ====
/-
  A two-dimensional array padded at the high end of one axis, read at an index given by its coordinates.

  Padding an [a, b] array with extra rows after the last row (no padding in front, none between entries) gives an
  [a', b] array whose entry at row i and column q is the operand's entry (i, q) when i < a, and the padding value
  otherwise. Padding with extra columns after the last column is the same statement with the roles of the two
  coordinates exchanged. The integer zero converted to a float is the zero of the extended reals, so a pad whose
  padding value is that conversion pads with zeros.
-/
import Idealize.ShloMosaic.Lib.KernelVsHost
import Idealize.ShloMosaic.Lib.ValueLayout

noncomputable section

namespace Cert.LibPadHigh

open Idealize.ShloMosaic Idealize.ShloMosaic.ValueIdx

variable {α : Type}

/-- Extra rows after the last: row i of the padded array is row i of the operand when i < a, else the padding value. -/
theorem pad_rows_high_apply {a a' b e : ℕ} (x : (⟨2, ![a, b]⟩ : Shape).Idx → α) {u : Shape} (v : u.Idx → α)
    (hp : (⟨2, ![a, b]⟩ : Shape).Pads (![0, 0] : Fin 2 → Nat) ![e, 0] ![0, 0] ⟨2, ![a', b]⟩) (hu : 0 < u.numel)
    (i : Fin a') (q : Fin b) :
    pad ⟨2, ![a', b]⟩ (![0, 0] : Fin 2 → Nat) ![e, 0] ![0, 0] x v hp hu (ix2 i q)
      = if h : i.val < a then x (ix2 ⟨i.val, h⟩ q) else v (Shape.Idx.first hu) := by
  by_cases h : i.val < a
  · rw [dif_pos h]
    refine pad_apply_of_inside _ _ _ x v hp hu (ix2 i q) (ix2 ⟨i.val, h⟩ q) fun ax => ?_
    match ax with
    | ⟨0, _⟩ => show i.val = 0 + i.val * (0 + 1); omega
    | ⟨1, _⟩ => show q.val = 0 + q.val * (0 + 1); omega
  · rw [dif_neg h]
    refine pad_apply_of_not_inside _ _ _ x v hp hu (ix2 i q) (0 : Fin 2) fun hh => h ?_
    have h3 : (i.val - 0) / (0 + 1) < a := hh.2.2
    omega

/-- Extra columns after the last: column i of the padded array is column i of the operand when i < b, else the
    padding value. -/
theorem pad_cols_high_apply {a b b' e : ℕ} (x : (⟨2, ![a, b]⟩ : Shape).Idx → α) {u : Shape} (v : u.Idx → α)
    (hp : (⟨2, ![a, b]⟩ : Shape).Pads (![0, 0] : Fin 2 → Nat) ![0, e] ![0, 0] ⟨2, ![a, b']⟩) (hu : 0 < u.numel)
    (p : Fin a) (i : Fin b') :
    pad ⟨2, ![a, b']⟩ (![0, 0] : Fin 2 → Nat) ![0, e] ![0, 0] x v hp hu (ix2 p i)
      = if h : i.val < b then x (ix2 p ⟨i.val, h⟩) else v (Shape.Idx.first hu) := by
  by_cases h : i.val < b
  · rw [dif_pos h]
    refine pad_apply_of_inside _ _ _ x v hp hu (ix2 p i) (ix2 p ⟨i.val, h⟩) fun ax => ?_
    match ax with
    | ⟨0, _⟩ => show p.val = 0 + p.val * (0 + 1); omega
    | ⟨1, _⟩ => show i.val = 0 + i.val * (0 + 1); omega
  · rw [dif_neg h]
    refine pad_apply_of_not_inside _ _ _ x v hp hu (ix2 p i) (1 : Fin 2) fun hh => h ?_
    have h3 : (i.val - 0) / (0 + 1) < b := hh.2.2
    omega

/-- The integer zero word, converted to a float at the exact values, is zero at every index. -/
theorem sitofp_constantI_zero_apply {s : Shape} {φ : FTy} (j : s.Idx) :
    (sitofp φ (constantI s 32 0#32) : FVec Ideal s φ) j = 0 := by
  show ((((0#32 : BitVec 32).toInt : ℤ) : ℝ) : EReal) = 0
  simp

end Cert.LibPadHigh

end
-- ==== Proof.KernelScoreParams.lean ====
/-
  The score parameters the region reads, at an index.

  Before the region the host pads each `[1024, 2513]` score matrix and each `[2513]` score bias with 47 zero columns /
  entries at the high end (so that the kernel's output blocks are 2560 wide) and passes the matrices on in the narrower
  float format (the identity on the extended reals). A column `q < 2513` of a padded array is the argument's column `q`.
-/
import proofs.«164370_j19464791785861_2_alg».proof.Proof.KernelDefs
import proofs.«164370_j19464791785861_2_alg».proof.Proof.Spec
import proofs.«164370_j19464791785861_2_alg».proof.Proof.LibFrameStack
import proofs.«164370_j19464791785861_2_alg».proof.Proof.LibPadHigh
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

set_option maxHeartbeats 4000000 in
/-- Column `q < 2513` of the padded score matrix `main_v34` is column `q` of `main_arg2`. -/
theorem V_main_v34_apply (c : Dev nD) (d : Fin 1024) (q : Fin 2560) (hq : q.val < 2513) :
    (V m c main_v34 : S1024x2560.Idx → EReal) (ix2 d q)
      = (m ((c : Thread nD τ).loc main_arg2) : S1024x2513.Idx → EReal) (ix2 d ⟨q.val, hq⟩) := by
  have e : (V m c main_v34 : S1024x2560.Idx → EReal)
      = truncf (F := Ideal) .bf16 (pad S1024x2560 ![0, 0] ![0, 47] ![0, 0] (m ((c : Thread nD τ).loc main_arg2))
          (sitofp (F := Ideal) .f32 (constantI S_ 32 0#32)) pads_S1024x2513_S1024x2560_000_0470 h_S_) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e, truncf_apply, Cert.LibPadHigh.pad_cols_high_apply, dif_pos hq]

set_option maxHeartbeats 4000000 in
/-- Entry `q < 2513` of the padded score bias `main_v31` is entry `q` of `main_arg3`. -/
theorem V_main_v31_apply (c : Dev nD) (q : Fin 2560) (hq : q.val < 2513) :
    (V m c main_v31 : S2560.Idx → EReal) (ix1 q)
      = (m ((c : Thread nD τ).loc main_arg3) : S2513.Idx → EReal) (ix1 ⟨q.val, hq⟩) := by
  have e : (V m c main_v31 : S2560.Idx → EReal)
      = pad S2560 ![0] ![47] ![0] (m ((c : Thread nD τ).loc main_arg3))
          (sitofp (F := Ideal) .f32 (constantI S_ 32 0#32)) pads_S2513_S2560_0470 h_S_ := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e, Cert.LibFrameStack.pad_vec_high_apply, dif_pos hq]

set_option maxHeartbeats 4000000 in
/-- Column `q < 2513` of the padded score matrix `main_v36` is column `q` of `main_arg6`. -/
theorem V_main_v36_apply (c : Dev nD) (d : Fin 1024) (q : Fin 2560) (hq : q.val < 2513) :
    (V m c main_v36 : S1024x2560.Idx → EReal) (ix2 d q)
      = (m ((c : Thread nD τ).loc main_arg6) : S1024x2513.Idx → EReal) (ix2 d ⟨q.val, hq⟩) := by
  have e : (V m c main_v36 : S1024x2560.Idx → EReal)
      = truncf (F := Ideal) .bf16 (pad S1024x2560 ![0, 0] ![0, 47] ![0, 0] (m ((c : Thread nD τ).loc main_arg6))
          (sitofp (F := Ideal) .f32 (constantI S_ 32 0#32)) pads_S1024x2513_S1024x2560_000_0470 h_S_) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e, truncf_apply, Cert.LibPadHigh.pad_cols_high_apply, dif_pos hq]

set_option maxHeartbeats 4000000 in
/-- Entry `q < 2513` of the padded score bias `main_v33` is entry `q` of `main_arg7`. -/
theorem V_main_v33_apply (c : Dev nD) (q : Fin 2560) (hq : q.val < 2513) :
    (V m c main_v33 : S2560.Idx → EReal) (ix1 q)
      = (m ((c : Thread nD τ).loc main_arg7) : S2513.Idx → EReal) (ix1 ⟨q.val, hq⟩) := by
  have e : (V m c main_v33 : S2560.Idx → EReal)
      = pad S2560 ![0] ![47] ![0] (m ((c : Thread nD τ).loc main_arg7))
          (sitofp (F := Ideal) .f32 (constantI S_ 32 0#32)) pads_S2513_S2560_0470 h_S_ := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e, Cert.LibFrameStack.pad_vec_high_apply, dif_pos hq]

end Cert.KernelIdeal.Hand

end
-- ==== Proof.KernelGateParams.lean ====
/-
  The context and gate parameters the region reads.

  The context matrices and the gate's second and third layer matrices are passed on in the narrower float format (the
  identity on the extended reals); the gate's first-layer matrix `[4096, 1024]` is cut into its first and its last 2048
  rows, one half per branch context.
-/
import proofs.«164370_j19464791785861_2_alg».proof.Proof.KernelDefs
import proofs.«164370_j19464791785861_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

set_option maxHeartbeats 4000000 in
/-- `main_v35` is `main_arg4` in the narrower float format: the same extended reals. -/
theorem V_main_v35 (c : Dev nD) :
    (V m c main_v35 : S1024x2048.Idx → EReal) = (m ((c : Thread nD τ).loc main_arg4) : S1024x2048.Idx → EReal) := by
  have e : (V m c main_v35 : S1024x2048.Idx → EReal)
      = truncf (F := Ideal) .bf16 (m ((c : Thread nD τ).loc main_arg4)) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]; rfl

set_option maxHeartbeats 4000000 in
/-- `main_v37` is `main_arg8` in the narrower float format: the same extended reals. -/
theorem V_main_v37 (c : Dev nD) :
    (V m c main_v37 : S1024x2048.Idx → EReal) = (m ((c : Thread nD τ).loc main_arg8) : S1024x2048.Idx → EReal) := by
  have e : (V m c main_v37 : S1024x2048.Idx → EReal)
      = truncf (F := Ideal) .bf16 (m ((c : Thread nD τ).loc main_arg8)) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]; rfl

set_option maxHeartbeats 4000000 in
/-- `main_v42` is `main_arg12` in the narrower float format: the same extended reals. -/
theorem V_main_v42 (c : Dev nD) :
    (V m c main_v42 : S1024x512.Idx → EReal) = (m ((c : Thread nD τ).loc main_arg12) : S1024x512.Idx → EReal) := by
  have e : (V m c main_v42 : S1024x512.Idx → EReal)
      = truncf (F := Ideal) .bf16 (m ((c : Thread nD τ).loc main_arg12)) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]; rfl

set_option maxHeartbeats 4000000 in
/-- `main_v43` is `main_arg14` in the narrower float format: the same extended reals. -/
theorem V_main_v43 (c : Dev nD) :
    (V m c main_v43 : S512x2.Idx → EReal) = (m ((c : Thread nD τ).loc main_arg14) : S512x2.Idx → EReal) := by
  have e : (V m c main_v43 : S512x2.Idx → EReal)
      = truncf (F := Ideal) .bf16 (m ((c : Thread nD τ).loc main_arg14)) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]; rfl

set_option maxHeartbeats 4000000 in
/-- Row `k` of `main_v39` is row `k` of the first-layer weights. -/
theorem V_main_v39_apply (c : Dev nD) (k : Fin 2048) (n : Fin 1024) :
    (V m c main_v39 : S2048x1024.Idx → EReal) (ix2 k n)
      = (m ((c : Thread nD τ).loc main_arg10) : S4096x1024.Idx → EReal) (ix2 (Cert.Fusion.lowHalf k) n) := by
  have e : (V m c main_v39 : S2048x1024.Idx → EReal)
      = truncf (F := Ideal) .bf16 (extractStridedSlice S2048x1024 ![0, 0] (m ((c : Thread nD τ).loc main_arg10)) slices_S4096x1024_S2048x1024_0_0) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e, truncf_apply]
  refine extractStridedSlice_apply _ _ _ _ _ fun ax => ?_
  match ax with
  | ⟨0, _⟩ => show k.val = 0 + k.val; omega
  | ⟨1, _⟩ => show n.val = 0 + n.val; omega

set_option maxHeartbeats 4000000 in
/-- Row `k` of `main_v41` is row `2048 + k` of the first-layer weights. -/
theorem V_main_v41_apply (c : Dev nD) (k : Fin 2048) (n : Fin 1024) :
    (V m c main_v41 : S2048x1024.Idx → EReal) (ix2 k n)
      = (m ((c : Thread nD τ).loc main_arg10) : S4096x1024.Idx → EReal) (ix2 (Cert.Fusion.highHalf k) n) := by
  have e : (V m c main_v41 : S2048x1024.Idx → EReal)
      = truncf (F := Ideal) .bf16 (extractStridedSlice S2048x1024 ![2048, 0] (m ((c : Thread nD τ).loc main_arg10)) slices_S4096x1024_S2048x1024_2048_0) bitsLt_bf16_f32 := by
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e, truncf_apply]
  refine extractStridedSlice_apply _ _ _ _ _ fun ax => ?_
  match ax with
  | ⟨0, _⟩ => show 2048 + k.val = 2048 + k.val; rfl
  | ⟨1, _⟩ => show n.val = 0 + n.val; omega

end Cert.KernelIdeal.Hand

end
-- ==== Proof.KernelResult.lean ====
/-
  The program's result as one function of its sixteen arguments.

  After the region the host keeps the first 2513 of the output's 2560 columns and cuts the 2048 rows back into
  `[512, 4]`: entry `(b, j, q)` of the result is entry `(4 b + j, q)` of the region's output array, which is the row function
  of row `4 b + j` of the two row arrays — frame `12 + 4 j` of batch entry `b` of each input — column `q < 2513` of the padded
  score parameters — column `q` of the arguments — and the context and gate parameters as given: the specification's `G`.
-/
import proofs.«164370_j19464791785861_2_alg».proof.Proof.KernelBlocks
import proofs.«164370_j19464791785861_2_alg».proof.Proof.KernelRows
import proofs.«164370_j19464791785861_2_alg».proof.Proof.KernelScoreParams
import proofs.«164370_j19464791785861_2_alg».proof.Proof.KernelGateParams
import proofs.«164370_j19464791785861_2_alg».proof.Proof.FrameIdealHost
import proofs.«164370_j19464791785861_2_alg».proof.Proof.LibFlattenRows
import proofs.«164370_j19464791785861_2_alg».proof.Proof.LibFrameStack
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

/-- Entry `(r, q)` of the region's output array with `r = 4 b + j` and `q < 2513` is the specification at `(b, j, q)`. -/
theorem Kfull_at (c : Dev nD) (b : Fin 512) (j : Fin 4) (q : Fin 2513) (r : Fin 2048) (hr : r.val = b.val * 4 + j.val)
    (q' : Fin 2560) (hq : q'.val = q.val) :
    Kfull (V m c main_v27) (V m c main_v29) (V m c main_v34) (V m c main_v31) (V m c main_v35) (V m c main_arg5)
        (V m c main_v36) (V m c main_v33) (V m c main_v37) (V m c main_arg9) (V m c main_v39) (V m c main_v41)
        (V m c main_arg11) (V m c main_v42) (V m c main_arg13) (V m c main_v43) (V m c main_arg15) (ix2 r q')
      = Cert.Fusion.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b j q := by
  have hq' : q'.val < 2513 := by have := q.isLt; omega
  have eq' : (⟨q'.val, hq'⟩ : Fin 2513) = q := Fin.ext hq
  unfold Kfull Cert.Fusion.G
  show Cert.Fusion.rowOut (fun d => (V m c main_v27 : S2048x1024.Idx → EReal) (ix2 r d)) (fun d => (V m c main_v29 : S2048x1024.Idx → EReal) (ix2 r d))
      (fun d => (V m c main_v34 : S1024x2560.Idx → EReal) (ix2 d q')) ((V m c main_v31 : S2560.Idx → EReal) (ix1 q'))
      (fun d => (V m c main_v36 : S1024x2560.Idx → EReal) (ix2 d q')) ((V m c main_v33 : S2560.Idx → EReal) (ix1 q'))
      (fun d h => (V m c main_v35 : S1024x2048.Idx → EReal) (ix2 d h)) (fun h => (V m c main_arg5 : S2048.Idx → EReal) (ix1 h))
      (fun d h => (V m c main_v37 : S1024x2048.Idx → EReal) (ix2 d h)) (fun h => (V m c main_arg9 : S2048.Idx → EReal) (ix1 h))
      (fun k n => (V m c main_v39 : S2048x1024.Idx → EReal) (ix2 k n)) (fun k n => (V m c main_v41 : S2048x1024.Idx → EReal) (ix2 k n))
      (fun n => (V m c main_arg11 : S1024.Idx → EReal) (ix1 n))
      (fun k n => (V m c main_v42 : S1024x512.Idx → EReal) (ix2 k n)) (fun n => (V m c main_arg13 : S512.Idx → EReal) (ix1 n))
      (fun k e => (V m c main_v43 : S512x2.Idx → EReal) (ix2 k e)) (fun e => (V m c main_arg15 : S2.Idx → EReal) (ix1 e)) = _
  rw [V_main_v27, V_main_v29, V_main_v35, V_main_v37, V_main_v42, V_main_v43,
    V_main_arg5, V_main_arg9, V_main_arg11, V_main_arg13, V_main_arg15]
  simp only [frameRows_apply _ b j _ r hr, V_main_v34_apply m c _ q' hq', V_main_v31_apply m c q' hq',
    V_main_v36_apply m c _ q' hq', V_main_v33_apply m c q' hq', V_main_v39_apply m c, V_main_v41_apply m c, eq']

/-- THE RESULT: what `main_v46` holds after the host operations that follow the region, given the region's output array. -/
theorem result_eq (c : Dev nD) :
    (Pipeline.afterTail₀ cfgs (dats m) 0 (V0 m) [hostOps1] c main_v46 : S512x4x2513.Idx → EReal)
      = Cert.Fusion.Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold Pipeline.afterTail₀
  show StableHlo.after hostOps1 _ (Proc.devRef .tc main_v46) = _
  after_results
  rw [show Pipeline.withArrays spec0 c (V0 m c) (fun w => (dats m 0 c).arrAt w cfg0.N) (Proc.devRef .tc main_v44)
      = (dats m 0 c).arrAt 17 cfg0.N from Pipeline.withArrays_arr spec0 launch0.win.arr_inj c _ _ 17, final17 m c]
  funext i
  obtain ⟨b, j, q, rfl⟩ : ∃ (b : Fin 512) (j : Fin 4) (q : Fin 2513), i = ix3 b j q := ⟨i 0, i 1, i 2, eq_ix3 i⟩
  have hr : b.val * 4 + j.val < 2048 := by have := b.isLt; have := j.isLt; omega
  have hq : q.val < 2560 := by have := q.isLt; omega
  refine (Cert.LibFlattenRows.shapeCast_mc_abc_apply _ _ b j q ⟨b.val * 4 + j.val, hr⟩ rfl).trans ?_
  refine (Cert.LibFrameStack.slice_cols_low_apply _ _ ⟨b.val * 4 + j.val, hr⟩ q hq).trans ?_
  exact Kfull_at m c b j q _ rfl _ rfl

end Cert.KernelIdeal.Hand

end
-- ==== Proof.RefGather.lean ====
/-
  The three frame selections of the reference, read at an index.

  Each selection is a gather along the frame axis of an `[A, N, C]` operand at `R` start indices: frame `r` of the
  result is the operand's frame at start index `r`, read signed and clamped to the last frame (`gather_frames_apply`).
  The start indices are closed integer vectors, the position times four with the negative-index wrap leaving it
  unchanged; so selected position `j` reads frame `4 j` of its operand, and the clamp never binds.
-/
import proofs.«164370_j19464791785861_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

section Frames
variable {α : Type}

/-- The dimension numbers of a selection of frames: an operand `[A, N, C]`, start indices `[R, 1]` naming a frame each,
    a result `[A, R, C]` whose frame `r` is the operand's frame at start index `r`. -/
abbrev frameDims (A N R C : Nat)
    (wf : GatherDims.WF ⟨3, ![A, N, C]⟩ ⟨2, ![R, 1]⟩ ⟨3, ![A, R, C]⟩ [0, 2] [1] [] [1] [] 1 ![A, 1, C]) :
    GatherDims ⟨3, ![A, N, C]⟩ ⟨2, ![R, 1]⟩ ⟨3, ![A, R, C]⟩ where
  offsetDims := [0, 2]
  collapsedSliceDims := [1]
  operandBatchingDims := []
  startIndicesBatchingDims := []
  startIndexMap := [1]
  indexVectorDim := 1
  sliceSizes := ![A, 1, C]
  wf := wf

theorem gather_frames_apply {A N R C w : Nat} (hN : 0 < N)
    (wf : GatherDims.WF ⟨3, ![A, N, C]⟩ ⟨2, ![R, 1]⟩ ⟨3, ![A, R, C]⟩ [0, 2] [1] [] [1] [] 1 ![A, 1, C])
    (x : (⟨3, ![A, N, C]⟩ : Shape).Idx → α) (idx : IVec ⟨2, ![R, 1]⟩ w) (a : Fin A) (r : Fin R) (c : Fin C) :
    Host.gather (frameDims A N R C wf) x idx (ix3 a r c)
      = x (ix3 a ⟨min (idx (ix2 r (0 : Fin 1))).toInt.toNat (N - 1), by omega⟩ c) := by
  unfold Host.gather
  congr 1
  funext q
  refine Fin.ext ?_
  show (frameDims A N R C wf).start (ix3 a r c) idx q + (frameDims A N R C wf).batchCoord (ix3 a r c) q
    + (frameDims A N R C wf).offCoord (ix3 a r c) q = _
  rw [GatherDims.batchCoord_eq_zero _ _ _ List.not_mem_nil, Nat.add_zero]
  have hb0 : ∀ (h : 0 < 3), (⟨0, h⟩ : Fin 3) ∉ ([1] : List (Fin 3)) :=
    fun h hm => (show (0 : ℕ) ≠ 1 by decide) (congrArg Fin.val (List.mem_singleton.mp hm))
  have hb2 : ∀ (h : 2 < 3), (⟨2, h⟩ : Fin 3) ∉ ([1] : List (Fin 3)) :=
    fun h hm => (show (2 : ℕ) ≠ 1 by decide) (congrArg Fin.val (List.mem_singleton.mp hm))
  match q with
  | ⟨0, h⟩ =>
    unfold GatherDims.start GatherDims.offCoord
    rw [dif_neg (hb0 h), dif_pos (((frameDims A N R C wf).mem_sKept _).2 ⟨hb0 h, List.not_mem_nil⟩)]
    exact Nat.zero_add _
  | ⟨1, h⟩ =>
    unfold GatherDims.start GatherDims.offCoord
    have h1 : (⟨1, h⟩ : Fin 3) ∈ ([1] : List (Fin 3)) := List.mem_singleton.mpr rfl
    rw [dif_pos (show (⟨1, h⟩ : Fin 3) ∈ (frameDims A N R C wf).startIndexMap from h1),
      dif_neg (fun hm => (((frameDims A N R C wf).mem_sKept _).1 hm).1 h1)]
    have hsi : (frameDims A N R C wf).siIdx (ix3 a r c) ⟨List.idxOf (⟨1, h⟩ : Fin 3) (frameDims A N R C wf).startIndexMap,
        List.idxOf_lt_length_iff.2 h1⟩ = ix2 r (0 : Fin 1) := by
      funext b; refine Fin.ext ?_
      match b with
      | ⟨0, _⟩ => rfl
      | ⟨1, _⟩ => rfl
    rw [hsi]
    rfl
  | ⟨2, h⟩ =>
    unfold GatherDims.start GatherDims.offCoord
    rw [dif_neg (hb2 h), dif_pos (((frameDims A N R C wf).mem_sKept _).2 ⟨hb2 h, List.not_mem_nil⟩)]
    exact Nat.zero_add _

end Frames

/-- Frame `4 j` of sixteen. -/
def sel16 (j : Fin 4) : Fin 16 := ⟨4 * j.val, by omega⟩
/-- Frame `4 t` of twenty-eight. -/
def sel28 (t : Fin 7) : Fin 28 := ⟨4 * t.val, by omega⟩

variable {F : FTy → Type} [FloatOps F]

/-- The start index of selected position `j` of the four (first selection): the word of `4 j`. -/
theorem start19_at (j : Fin 4) : val_main_v19 (F := F) (ix2 j (0 : Fin 1)) = BitVec.ofNat 32 (4 * j.val) := by
  rw [val_main_v19_apply, val_main_v18_apply, val_main_v15_apply, val_main_v17_apply, val_main_v13_apply,
    val_main_v11_apply, val_main_v9_apply, val_main_v10_apply, val_main_v12_apply, val_main_v14_apply, val_main_v16_apply]
  match j with
  | ⟨0, _⟩ => rfl
  | ⟨1, _⟩ => rfl
  | ⟨2, _⟩ => rfl
  | ⟨3, _⟩ => rfl

/-- The start index of selected position `j` of the four (second selection): the word of `4 j`. -/
theorem start26_at (j : Fin 4) : val_main_v26 (F := F) (ix2 j (0 : Fin 1)) = BitVec.ofNat 32 (4 * j.val) := by
  rw [val_main_v26_apply, val_main_v25_apply, val_main_v22_apply, val_main_v24_apply, val_main_v13_apply,
    val_main_v11_apply, val_main_v9_apply, val_main_v10_apply, val_main_v12_apply, val_main_v21_apply, val_main_v23_apply]
  match j with
  | ⟨0, _⟩ => rfl
  | ⟨1, _⟩ => rfl
  | ⟨2, _⟩ => rfl
  | ⟨3, _⟩ => rfl

/-- The start index of selected position `t` of the seven: the word of `4 t`. -/
theorem start38_at (t : Fin 7) : val_main_v38 (F := F) (ix2 t (0 : Fin 1)) = BitVec.ofNat 32 (4 * t.val) := by
  rw [val_main_v38_apply, val_main_v37_apply, val_main_v34_apply, val_main_v36_apply, val_main_v32_apply,
    val_main_v30_apply, val_main_v28_apply, val_main_v29_apply, val_main_v31_apply, val_main_v33_apply, val_main_v35_apply]
  match t with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- A small non-negative word read signed is its number, and below the clamp it stays. -/
theorem clamp_small (n N : Nat) (hn : n < 32) (hN : n ≤ N) : min (BitVec.ofNat 32 n).toInt.toNat N = n := by
  have h0 : (BitVec.ofNat 32 n).toNat = n := by
    rw [BitVec.toNat_ofNat]; exact Nat.mod_eq_of_lt (by omega)
  have h1 : (BitVec.ofNat 32 n).toInt = (n : Int) := by
    rw [BitVec.toInt_eq_toNat_of_lt (by rw [h0]; omega), h0]
  rw [h1, Int.toNat_natCast]
  exact Nat.min_eq_left hN

/-- The first selection at (b, j, c): frame `4 j` of the sixteen score frames. -/
theorem gather20_at (x : (⟨S512x16x2513, .f32⟩ : BufTy).Contents (Elt F)) (b : Fin 512) (j : Fin 4) (c : Fin 2513) :
    Host.gather gather_S512x16x2513_S4x1_S512x4x2513_02_1_n_n_1_1_51212513 x (val_main_v19 (F := F)) (ix3 b j c)
      = x (ix3 b (sel16 j) c) := by
  refine (gather_frames_apply (A := 512) (N := 16) (R := 4) (C := 2513) (by decide)
    gather_S512x16x2513_S4x1_S512x4x2513_02_1_n_n_1_1_51212513.wf x (val_main_v19 (F := F)) b j c).trans ?_
  refine congrArg x (congrArg (fun t => ix3 b t c) (Fin.ext ?_))
  show min (val_main_v19 (F := F) (ix2 j (0 : Fin 1))).toInt.toNat (16 - 1) = 4 * j.val
  rw [start19_at]
  exact clamp_small _ _ (by omega) (by omega)

/-- The second selection at (b, j, h): frame `4 j` of the sixteen context frames. -/
theorem gather27_at (x : (⟨S512x16x2048, .f32⟩ : BufTy).Contents (Elt F)) (b : Fin 512) (j : Fin 4) (h : Fin 2048) :
    Host.gather gather_S512x16x2048_S4x1_S512x4x2048_02_1_n_n_1_1_51212048 x (val_main_v26 (F := F)) (ix3 b j h)
      = x (ix3 b (sel16 j) h) := by
  refine (gather_frames_apply (A := 512) (N := 16) (R := 4) (C := 2048) (by decide)
    gather_S512x16x2048_S4x1_S512x4x2048_02_1_n_n_1_1_51212048.wf x (val_main_v26 (F := F)) b j h).trans ?_
  refine congrArg x (congrArg (fun t => ix3 b t h) (Fin.ext ?_))
  show min (val_main_v26 (F := F) (ix2 j (0 : Fin 1))).toInt.toNat (16 - 1) = 4 * j.val
  rw [start26_at]
  exact clamp_small _ _ (by omega) (by omega)

/-- The third selection at (b, t, d): frame `4 t` of the twenty-eight input frames. -/
theorem gather39_at (x : (⟨S512x28x1024, .f32⟩ : BufTy).Contents (Elt F)) (b : Fin 512) (t : Fin 7) (d : Fin 1024) :
    Host.gather gather_S512x28x1024_S7x1_S512x7x1024_02_1_n_n_1_1_51211024 x (val_main_v38 (F := F)) (ix3 b t d)
      = x (ix3 b (sel28 t) d) := by
  refine (gather_frames_apply (A := 512) (N := 28) (R := 7) (C := 1024) (by decide)
    gather_S512x28x1024_S7x1_S512x7x1024_02_1_n_n_1_1_51211024.wf x (val_main_v38 (F := F)) b t d).trans ?_
  refine congrArg x (congrArg (fun s => ix3 b s d) (Fin.ext ?_))
  show min (val_main_v38 (F := F) (ix2 t (0 : Fin 1))).toInt.toNat (28 - 1) = 4 * t.val
  rw [start38_at]
  exact clamp_small _ _ (by omega) (by omega)

end Cert.ReferenceIdeal.RefValue

end
-- ==== Proof.RefRows.lean ====
/-
  The branch scores and the branch contexts of the reference, read at an index.

  Branch 0 computes its scores and contexts on the last sixteen frames (frame `t` of sixteen is frame `12 + t` of the
  input) and then selects frames `4 j`; branch 1 selects frames `4 t` of its input first, computes on those seven and
  keeps the last four (position `j` is `t = 3 + j`). Either way position `j` reads input frame `12 + 4 j`. A score
  is the inner product of that frame's features with the class's weight column plus the class's bias; a context entry
  likewise with the context weights. The joined context is the first branch's row followed by the second's.
-/
import proofs.«164370_j19464791785861_2_alg».proof.Proof.RefGather
import proofs.«164370_j19464791785861_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Fusion

/-- Frame `t` of the last sixteen is frame `12 + t` of the twenty-eight. -/
def tail16 (t : Fin 16) : Fin 28 := ⟨12 + t.val, by omega⟩
/-- Position `j` of the last four of seven. -/
def last4 (j : Fin 4) : Fin 7 := ⟨3 + j.val, by omega⟩

theorem tail16_sel16 (j : Fin 4) : tail16 (sel16 j) = frameOf j := rfl
theorem sel28_last4 (j : Fin 4) : sel28 (last4 j) = frameOf j :=
  Fin.ext (by show 4 * (3 + j.val) = 12 + 4 * j.val; omega)

section Rows
variable (x0 x1 : (⟨S512x28x1024, .f32⟩ : BufTy).Contents (Elt Ideal)) (x2 : (⟨S1024x2513, .f32⟩ : BufTy).Contents (Elt Ideal))
  (x3 : (⟨S2513, .f32⟩ : BufTy).Contents (Elt Ideal)) (x4 : (⟨S1024x2048, .f32⟩ : BufTy).Contents (Elt Ideal))
  (x5 : (⟨S2048, .f32⟩ : BufTy).Contents (Elt Ideal)) (x6 : (⟨S1024x2513, .f32⟩ : BufTy).Contents (Elt Ideal))
  (x7 : (⟨S2513, .f32⟩ : BufTy).Contents (Elt Ideal)) (x8 : (⟨S1024x2048, .f32⟩ : BufTy).Contents (Elt Ideal))
  (x9 : (⟨S2048, .f32⟩ : BufTy).Contents (Elt Ideal)) (x10 : (⟨S4096x1024, .f32⟩ : BufTy).Contents (Elt Ideal))
  (x11 : (⟨S1024, .f32⟩ : BufTy).Contents (Elt Ideal)) (x12 : (⟨S1024x512, .f32⟩ : BufTy).Contents (Elt Ideal))
  (x13 : (⟨S512, .f32⟩ : BufTy).Contents (Elt Ideal)) (x14 : (⟨S512x2, .f32⟩ : BufTy).Contents (Elt Ideal))
  (x15 : (⟨S2, .f32⟩ : BufTy).Contents (Elt Ideal))

/-! ### Index bookkeeping -/

theorem idx0 (b : Fin 512) (t : Fin 16) (k : Fin 1024) : idx_main_v0 (ix3 b t k) = ix3 b (tail16 t) k :=
  funext fun a => by match a with | ⟨0, _⟩ => rfl | ⟨1, _⟩ => rfl | ⟨2, _⟩ => rfl
theorem lidx1 (b : Fin 512) (t : Fin 16) (c : Fin 2513) (k : Fin 1024) : lidx_main_v1 (ix3 b t c) k = ix3 b t k :=
  funext fun a => by match a with | ⟨0, _⟩ => rfl | ⟨1, _⟩ => rfl | ⟨2, _⟩ => rfl
theorem ridx1 (b : Fin 512) (t : Fin 16) (c : Fin 2513) (k : Fin 1024) : ridx_main_v1 (ix3 b t c) k = ix2 k c :=
  funext fun a => by match a with | ⟨0, _⟩ => rfl | ⟨1, _⟩ => rfl
theorem idx3 (b : Fin 512) (t : Fin 16) (c : Fin 2513) : idx_main_v2 (idx_main_v3 (ix3 b t c)) = ix1 c :=
  funext fun a => by match a with | ⟨0, _⟩ => rfl
theorem lidx5 (b : Fin 512) (t : Fin 16) (h : Fin 2048) (k : Fin 1024) : lidx_main_v5 (ix3 b t h) k = ix3 b t k :=
  funext fun a => by match a with | ⟨0, _⟩ => rfl | ⟨1, _⟩ => rfl | ⟨2, _⟩ => rfl
theorem ridx5 (b : Fin 512) (t : Fin 16) (h : Fin 2048) (k : Fin 1024) : ridx_main_v5 (ix3 b t h) k = ix2 k h :=
  funext fun a => by match a with | ⟨0, _⟩ => rfl | ⟨1, _⟩ => rfl
theorem idx7 (b : Fin 512) (t : Fin 16) (h : Fin 2048) : idx_main_v6 (idx_main_v7 (ix3 b t h)) = ix1 h :=
  funext fun a => by match a with | ⟨0, _⟩ => rfl
theorem lidx40 (b : Fin 512) (t : Fin 7) (c : Fin 2513) (k : Fin 1024) : lidx_main_v40 (ix3 b t c) k = ix3 b t k :=
  funext fun a => by match a with | ⟨0, _⟩ => rfl | ⟨1, _⟩ => rfl | ⟨2, _⟩ => rfl
theorem ridx40 (b : Fin 512) (t : Fin 7) (c : Fin 2513) (k : Fin 1024) : ridx_main_v40 (ix3 b t c) k = ix2 k c :=
  funext fun a => by match a with | ⟨0, _⟩ => rfl | ⟨1, _⟩ => rfl
theorem idx42 (b : Fin 512) (t : Fin 7) (c : Fin 2513) : idx_main_v41 (idx_main_v42 (ix3 b t c)) = ix1 c :=
  funext fun a => by match a with | ⟨0, _⟩ => rfl
theorem lidx44 (b : Fin 512) (t : Fin 7) (h : Fin 2048) (k : Fin 1024) : lidx_main_v44 (ix3 b t h) k = ix3 b t k :=
  funext fun a => by match a with | ⟨0, _⟩ => rfl | ⟨1, _⟩ => rfl | ⟨2, _⟩ => rfl
theorem ridx44 (b : Fin 512) (t : Fin 7) (h : Fin 2048) (k : Fin 1024) : ridx_main_v44 (ix3 b t h) k = ix2 k h :=
  funext fun a => by match a with | ⟨0, _⟩ => rfl | ⟨1, _⟩ => rfl
theorem idx46 (b : Fin 512) (t : Fin 7) (h : Fin 2048) : idx_main_v45 (idx_main_v46 (ix3 b t h)) = ix1 h :=
  funext fun a => by match a with | ⟨0, _⟩ => rfl
theorem idx48 (b : Fin 512) (j : Fin 4) (c : Fin 2513) : idx_main_v48 (ix3 b j c) = ix3 b (last4 j) c :=
  funext fun a => by match a with | ⟨0, _⟩ => rfl | ⟨1, _⟩ => rfl | ⟨2, _⟩ => rfl
theorem idx49 (b : Fin 512) (j : Fin 4) (h : Fin 2048) : idx_main_v49 (ix3 b j h) = ix3 b (last4 j) h :=
  funext fun a => by match a with | ⟨0, _⟩ => rfl | ⟨1, _⟩ => rfl | ⟨2, _⟩ => rfl

/-! ### Branch 0: compute on sixteen frames, then select -/

/-- A branch-0 score on frame `t` of the sixteen. -/
theorem score0_frame_at (b : Fin 512) (t : Fin 16) (c : Fin 2513) :
    val_main_v4 (F := Ideal) x0 x2 x3 (ix3 b t c)
      = dotBias (fun d => x0 (ix3 b (tail16 t) d)) (fun d => x2 (ix2 d c)) (x3 (ix1 c)) := by
  rw [val_main_v4_apply, val_main_v1_apply, val_main_v3_apply, val_main_v2_apply]
  simp only [lidx1, ridx1, idx3, val_main_v0_apply, idx0]
  rfl

/-- A branch-0 context entry on frame `t` of the sixteen. -/
theorem ctx0_frame_at (b : Fin 512) (t : Fin 16) (h : Fin 2048) :
    val_main_v8 (F := Ideal) x0 x4 x5 (ix3 b t h)
      = ctxRow (fun d => x0 (ix3 b (tail16 t) d)) (fun d h => x4 (ix2 d h)) (fun h => x5 (ix1 h)) h := by
  rw [val_main_v8_apply, val_main_v5_apply, val_main_v7_apply, val_main_v6_apply]
  simp only [lidx5, ridx5, idx7, val_main_v0_apply, idx0]
  rfl

/-- THE BRANCH-0 SCORE at (b, j, c): on input frame `12 + 4 j`. -/
theorem score0_at (b : Fin 512) (j : Fin 4) (c : Fin 2513) :
    val_main_v20 (F := Ideal) x0 x2 x3 (ix3 b j c)
      = dotBias (fun d => x0 (ix3 b (frameOf j) d)) (fun d => x2 (ix2 d c)) (x3 (ix1 c)) := by
  unfold val_main_v20
  rw [gather20_at, score0_frame_at, tail16_sel16]

/-- The branch-0 context at (b, j, h): on input frame `12 + 4 j`. -/
theorem ctx0_at (b : Fin 512) (j : Fin 4) (h : Fin 2048) :
    val_main_v27 (F := Ideal) x0 x4 x5 (ix3 b j h)
      = ctxRow (fun d => x0 (ix3 b (frameOf j) d)) (fun d h => x4 (ix2 d h)) (fun h => x5 (ix1 h)) h := by
  unfold val_main_v27
  rw [gather27_at, ctx0_frame_at, tail16_sel16]

/-! ### Branch 1: select seven frames, compute, keep the last four -/

/-- The selected input of branch 1 at (b, t, d): input frame `4 t`. -/
theorem sel1_at (b : Fin 512) (t : Fin 7) (d : Fin 1024) :
    val_main_v39 (F := Ideal) x1 (ix3 b t d) = x1 (ix3 b (sel28 t) d) := by
  unfold val_main_v39
  exact gather39_at x1 b t d

/-- THE BRANCH-1 SCORE at (b, j, c): on input frame `12 + 4 j`. -/
theorem score1_at (b : Fin 512) (j : Fin 4) (c : Fin 2513) :
    val_main_v48 (F := Ideal) x1 x6 x7 (ix3 b j c)
      = dotBias (fun d => x1 (ix3 b (frameOf j) d)) (fun d => x6 (ix2 d c)) (x7 (ix1 c)) := by
  rw [val_main_v48_apply, idx48, val_main_v43_apply, val_main_v40_apply, val_main_v42_apply, val_main_v41_apply]
  simp only [lidx40, ridx40, idx42, sel1_at, sel28_last4]
  rfl

/-- The branch-1 context at (b, j, h): on input frame `12 + 4 j`. -/
theorem ctx1_at (b : Fin 512) (j : Fin 4) (h : Fin 2048) :
    val_main_v49 (F := Ideal) x1 x8 x9 (ix3 b j h)
      = ctxRow (fun d => x1 (ix3 b (frameOf j) d)) (fun d h => x8 (ix2 d h)) (fun h => x9 (ix1 h)) h := by
  rw [val_main_v49_apply, idx49, val_main_v47_apply, val_main_v44_apply, val_main_v46_apply, val_main_v45_apply]
  simp only [lidx44, ridx44, idx46, sel1_at, sel28_last4]
  rfl

/-! ### The joined context: the first branch's row, then the second's -/

/-- The first half of the joined context row is the branch-0 context row. -/
theorem ctx_low_at (b : Fin 512) (j : Fin 4) (k : Fin 2048) :
    val_main_v50 (F := Ideal) x0 x1 x4 x5 x8 x9 (ix3 b j (lowHalf k))
      = ctxRow (fun d => x0 (ix3 b (frameOf j) d)) (fun d h => x4 (ix2 d h)) (fun h => x5 (ix1 h)) k := by
  rw [← ctx0_at]
  unfold val_main_v50
  generalize val_main_v27 (F := Ideal) x0 x4 x5 = y1
  generalize val_main_v49 (F := Ideal) x1 x8 x9 = y2
  exact concatenate_pair_apply_left (2 : Fin 3) y1 y2 concatenates_S512x4x2048_S512x4x2048_S512x4x4096_d2
    (ix3 b j (lowHalf k)) rfl (ix3 b j k) (fun a => by match a with | ⟨0, _⟩ => rfl | ⟨1, _⟩ => rfl | ⟨2, _⟩ => rfl)

/-- The second half of the joined context row is the branch-1 context row. -/
theorem ctx_high_at (b : Fin 512) (j : Fin 4) (k : Fin 2048) :
    val_main_v50 (F := Ideal) x0 x1 x4 x5 x8 x9 (ix3 b j (highHalf k))
      = ctxRow (fun d => x1 (ix3 b (frameOf j) d)) (fun d h => x8 (ix2 d h)) (fun h => x9 (ix1 h)) k := by
  rw [← ctx1_at]
  unfold val_main_v50
  generalize val_main_v27 (F := Ideal) x0 x4 x5 = y1
  generalize val_main_v49 (F := Ideal) x1 x8 x9 = y2
  exact concatenate_pair_apply_right (2 : Fin 3) y1 y2 concatenates_S512x4x2048_S512x4x2048_S512x4x4096_d2
    (ix3 b j (highHalf k)) rfl rfl (ix3 b j k)
    (fun a => by
      match a with
      | ⟨0, _⟩ => intro _; rfl
      | ⟨1, _⟩ => intro _; rfl
      | ⟨2, _⟩ => intro hne; exact absurd rfl hne)
    (by show k.val + 2048 = 2048 + k.val; omega)

end Rows

end Cert.ReferenceIdeal.RefValue

end
-- ==== Proof.RefGate.lean ====
/-
  The gating network of the reference, read at an index.

  Row `r = 4 b + j` of the joined context (4096 wide) goes through the two rectified layers and the two-logit layer;
  the softmax subtracts the row maximum (the fold of the maximum from −∞ over the two logits, joined with −∞ once
  more), exponentiates, sums the two exponentials from zero and divides. Read index by index this is the
  specification's `gate` of the row's logits, with the first layer still written as ONE sum over the 4096 joined
  features; `hid1Joined_split` is the step to the specification's two half sums (a finite sum over `2048 + 2048`
  indices is the sum of the sums over the two halves: associativity and commutativity of addition only).
-/
import proofs.«164370_j19464791785861_2_alg».proof.Proof.Gen.ReferenceIdeal.Read
import proofs.«164370_j19464791785861_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Fusion

/-- The row of the flattened `[2048, ·]` arrays that batch `b`, selected position `j` occupies: `4 b + j`. -/
def rowOf (b : Fin 512) (j : Fin 4) : Fin 2048 := ⟨4 * b.val + j.val, by omega⟩

/-- The gate's first layer on the joined context row, as ONE sum over its 4096 features. -/
def hid1Joined (ctx : Fin 4096 → EReal) (W1 : Fin 4096 → Fin 1024 → EReal) (b1 : Fin 1024 → EReal) (n : Fin 1024) : EReal :=
  max ((∑ k : Fin 4096, ctx k * W1 k n) + b1 n) zeroW

/-- One sum over the joined features is the sum over the first half plus the sum over the second half. -/
theorem hid1Joined_split (ctx : Fin 4096 → EReal) (W1 : Fin 4096 → Fin 1024 → EReal) (b1 : Fin 1024 → EReal) :
    hid1Joined ctx W1 b1
      = hid1 (fun k => ctx (lowHalf k)) (fun k => ctx (highHalf k)) (fun k n => W1 (lowHalf k) n) (fun k n => W1 (highHalf k) n) b1 := by
  funext n
  unfold hid1Joined hid1
  have h := Fin.sum_univ_add (M := EReal) (a := 2048) (b := 2048) (fun k : Fin (2048 + 2048) => ctx k * W1 k n)
  have e1 : ∀ k : Fin 2048, (Fin.castAdd 2048 k : Fin (2048 + 2048)) = lowHalf k := fun k => rfl
  have e2 : ∀ k : Fin 2048, (Fin.natAdd 2048 k : Fin (2048 + 2048)) = highHalf k := fun k => rfl
  simp only [e1, e2] at h
  exact congrArg (fun s => max (s + b1 n) zeroW) h

section Gate
variable (x0 x1 : (⟨S512x28x1024, .f32⟩ : BufTy).Contents (Elt Ideal)) (x2 : (⟨S1024x2513, .f32⟩ : BufTy).Contents (Elt Ideal))
  (x3 : (⟨S2513, .f32⟩ : BufTy).Contents (Elt Ideal)) (x4 : (⟨S1024x2048, .f32⟩ : BufTy).Contents (Elt Ideal))
  (x5 : (⟨S2048, .f32⟩ : BufTy).Contents (Elt Ideal)) (x6 : (⟨S1024x2513, .f32⟩ : BufTy).Contents (Elt Ideal))
  (x7 : (⟨S2513, .f32⟩ : BufTy).Contents (Elt Ideal)) (x8 : (⟨S1024x2048, .f32⟩ : BufTy).Contents (Elt Ideal))
  (x9 : (⟨S2048, .f32⟩ : BufTy).Contents (Elt Ideal)) (x10 : (⟨S4096x1024, .f32⟩ : BufTy).Contents (Elt Ideal))
  (x11 : (⟨S1024, .f32⟩ : BufTy).Contents (Elt Ideal)) (x12 : (⟨S1024x512, .f32⟩ : BufTy).Contents (Elt Ideal))
  (x13 : (⟨S512, .f32⟩ : BufTy).Contents (Elt Ideal)) (x14 : (⟨S512x2, .f32⟩ : BufTy).Contents (Elt Ideal))
  (x15 : (⟨S2, .f32⟩ : BufTy).Contents (Elt Ideal))

/-! ### Index bookkeeping: the generated index functions at coordinates -/

theorem lidx52 (r : Fin 2048) (n : Fin 1024) (k : Fin 4096) : lidx_main_v52 (ix2 r n) k = ix2 r k :=
  funext fun a => by match a with | ⟨0, _⟩ => rfl | ⟨1, _⟩ => rfl
theorem ridx52 (r : Fin 2048) (n : Fin 1024) (k : Fin 4096) : ridx_main_v52 (ix2 r n) k = ix2 k n :=
  funext fun a => by match a with | ⟨0, _⟩ => rfl | ⟨1, _⟩ => rfl
theorem idx54 (r : Fin 2048) (n : Fin 1024) : idx_main_v53 (idx_main_v54 (ix2 r n)) = ix1 n :=
  funext fun a => by match a with | ⟨0, _⟩ => rfl
theorem lidx57 (r : Fin 2048) (n : Fin 512) (k : Fin 1024) : lidx_main_v57 (ix2 r n) k = ix2 r k :=
  funext fun a => by match a with | ⟨0, _⟩ => rfl | ⟨1, _⟩ => rfl
theorem ridx57 (r : Fin 2048) (n : Fin 512) (k : Fin 1024) : ridx_main_v57 (ix2 r n) k = ix2 k n :=
  funext fun a => by match a with | ⟨0, _⟩ => rfl | ⟨1, _⟩ => rfl
theorem idx59 (r : Fin 2048) (n : Fin 512) : idx_main_v58 (idx_main_v59 (ix2 r n)) = ix1 n :=
  funext fun a => by match a with | ⟨0, _⟩ => rfl
theorem lidx62 (r : Fin 2048) (e : Fin 2) (k : Fin 512) : lidx_main_v62 (ix2 r e) k = ix2 r k :=
  funext fun a => by match a with | ⟨0, _⟩ => rfl | ⟨1, _⟩ => rfl
theorem ridx62 (r : Fin 2048) (e : Fin 2) (k : Fin 512) : ridx_main_v62 (ix2 r e) k = ix2 k e :=
  funext fun a => by match a with | ⟨0, _⟩ => rfl | ⟨1, _⟩ => rfl
theorem idx64 (r : Fin 2048) (e : Fin 2) : idx_main_v63 (idx_main_v64 (ix2 r e)) = ix1 e :=
  funext fun a => by match a with | ⟨0, _⟩ => rfl
theorem idx70 (r : Fin 2048) (e : Fin 2) : idx_main_v69 (idx_main_v70 (ix2 r e)) = ix1 r :=
  funext fun a => by match a with | ⟨0, _⟩ => rfl
theorem idx73 (r : Fin 2048) (k : Fin 2) : idx_main_v73 (ix1 r) k = ix2 r k :=
  funext fun a => by match a with | ⟨0, _⟩ => rfl | ⟨1, _⟩ => rfl
theorem idx75 (r : Fin 2048) (e : Fin 2) : idx_main_v74 (idx_main_v75 (ix2 r e)) = ix1 r :=
  funext fun a => by match a with | ⟨0, _⟩ => rfl
theorem idx77 (b : Fin 512) (j : Fin 4) (e : Fin 2) : idx_main_v77 (ix3 b j e) = ix2 (rowOf b j) e :=
  funext fun a => Fin.ext (by
    match a with
    | ⟨0, _⟩ => show ((b.val * 4 + j.val) * 2 + e.val) / 2 = 4 * b.val + j.val; omega
    | ⟨1, _⟩ => show ((b.val * 4 + j.val) * 2 + e.val) % 2 = e.val; omega)
theorem idx51 (b : Fin 512) (j : Fin 4) (k : Fin 4096) : idx_main_v51 (ix2 (rowOf b j) k) = ix3 b j k :=
  funext fun a => Fin.ext (by
    match a with
    | ⟨0, _⟩ => show ((4 * b.val + j.val) * 4096 + k.val) / 16384 = b.val; omega
    | ⟨1, _⟩ => show ((4 * b.val + j.val) * 4096 + k.val) / 4096 % 4 = j.val; omega
    | ⟨2, _⟩ => show ((4 * b.val + j.val) * 4096 + k.val) % 4096 = k.val; omega)

/-! ### The three layers -/

/-- The joined context row of the flattened array is the row of the `[512, 4, 4096]` one. -/
theorem joined_row_at (b : Fin 512) (j : Fin 4) (k : Fin 4096) :
    val_main_v51 (F := Ideal) x0 x1 x4 x5 x8 x9 (ix2 (rowOf b j) k) = val_main_v50 (F := Ideal) x0 x1 x4 x5 x8 x9 (ix3 b j k) := by
  rw [val_main_v51_apply, idx51]

/-- First layer: the one contraction over the joined row, the bias, the rectifier. -/
theorem layer1_at (r : Fin 2048) (n : Fin 1024) :
    val_main_v56 (F := Ideal) x0 x1 x4 x5 x8 x9 x10 x11 (ix2 r n)
      = hid1Joined (fun k => val_main_v51 (F := Ideal) x0 x1 x4 x5 x8 x9 (ix2 r k)) (fun k n => x10 (ix2 k n)) (fun n => x11 (ix1 n)) n := by
  rw [val_main_v56_apply, val_main_v55_apply, val_main_v52_apply, val_main_v54_apply, val_main_v53_apply,
    val_main_call0_v0_apply, val_main_call0_cst_apply]
  simp only [lidx52, ridx52, idx54]
  rfl

/-- Second layer. -/
theorem layer2_at (r : Fin 2048) (n : Fin 512) :
    val_main_v61 (F := Ideal) x0 x1 x4 x5 x8 x9 x10 x11 x12 x13 (ix2 r n)
      = hid2 (fun k => val_main_v56 (F := Ideal) x0 x1 x4 x5 x8 x9 x10 x11 (ix2 r k)) (fun k n => x12 (ix2 k n)) (fun n => x13 (ix1 n)) n := by
  rw [val_main_v61_apply, val_main_v60_apply, val_main_v57_apply, val_main_v59_apply, val_main_v58_apply,
    val_main_call1_v0_apply, val_main_call1_cst_apply]
  simp only [lidx57, ridx57, idx59]
  rfl

/-- The two logits. -/
theorem logit_at (r : Fin 2048) (e : Fin 2) :
    val_main_v65 (F := Ideal) x0 x1 x4 x5 x8 x9 x10 x11 x12 x13 x14 x15 (ix2 r e)
      = logit (fun k => val_main_v61 (F := Ideal) x0 x1 x4 x5 x8 x9 x10 x11 x12 x13 (ix2 r k)) (fun k e => x14 (ix2 k e)) (fun e => x15 (ix1 e)) e := by
  rw [val_main_v65_apply, val_main_v62_apply, val_main_v64_apply, val_main_v63_apply]
  simp only [lidx62, ridx62, idx64]
  rfl

/-- The logits of row `r` as the specification's composition of the three layers, the first over the joined row. -/
theorem logits_row (r : Fin 2048) :
    (fun e => val_main_v65 (F := Ideal) x0 x1 x4 x5 x8 x9 x10 x11 x12 x13 x14 x15 (ix2 r e))
      = logit (hid2 (hid1Joined (fun k => val_main_v51 (F := Ideal) x0 x1 x4 x5 x8 x9 (ix2 r k)) (fun k n => x10 (ix2 k n)) (fun n => x11 (ix1 n)))
          (fun k n => x12 (ix2 k n)) (fun n => x13 (ix1 n))) (fun k e => x14 (ix2 k e)) (fun e => x15 (ix1 e)) := by
  funext e
  rw [logit_at]
  have h2 : (fun k => val_main_v61 (F := Ideal) x0 x1 x4 x5 x8 x9 x10 x11 x12 x13 (ix2 r k))
      = hid2 (fun k => val_main_v56 (F := Ideal) x0 x1 x4 x5 x8 x9 x10 x11 (ix2 r k)) (fun k n => x12 (ix2 k n)) (fun n => x13 (ix1 n)) :=
    funext fun n => layer2_at x0 x1 x4 x5 x8 x9 x10 x11 x12 x13 r n
  have h1 : (fun k => val_main_v56 (F := Ideal) x0 x1 x4 x5 x8 x9 x10 x11 (ix2 r k))
      = hid1Joined (fun k => val_main_v51 (F := Ideal) x0 x1 x4 x5 x8 x9 (ix2 r k)) (fun k n => x10 (ix2 k n)) (fun n => x11 (ix1 n)) :=
    funext fun n => layer1_at x0 x1 x4 x5 x8 x9 x10 x11 r n
  rw [h2, h1]

/-! ### The softmax -/

/-- The host's maximum over the two logits of row `r`, from −∞: the fold of `max` over them. -/
theorem rowfold_at (r : Fin 2048) :
    val_main_v66 (F := Ideal) x0 x1 x4 x5 x8 x9 x10 x11 x12 x13 x14 x15 (ix1 r)
      = (Finset.univ : Finset (Fin 2)).fold max negInfW (fun e => val_main_v65 (F := Ideal) x0 x1 x4 x5 x8 x9 x10 x11 x12 x13 x14 x15 (ix2 r e)) := by
  unfold val_main_v66
  generalize val_main_v65 (F := Ideal) x0 x1 x4 x5 x8 x9 x10 x11 x12 x13 x14 x15 = y
  refine (Host.reduce_eq_fold_single (α := Ideal .f32) FloatOps.maximumf y (val_main_cst (F := Ideal))
    reducesTo_S2048x2_S2048_d1 (by decide : S2048x2.Reduces [1] S2048) h_S_ (ix1 r)).trans ?_
  have hf : (y ∘ (Shape.Reduces.lift (by decide : S2048x2.Reduces [1] S2048) (ix1 r))) = fun e : Fin 2 => y (ix2 r e) :=
    funext fun k => congrArg y (funext fun a => Fin.ext (by match a with | ⟨0, _⟩ => rfl | ⟨1, _⟩ => rfl))
  exact congrArg (fun f => Finset.fold max negInfW f (Finset.univ : Finset (Fin 2))) hf

/-- The row maximum the softmax subtracts. -/
theorem rowmax_at (r : Fin 2048) :
    val_main_v68 (F := Ideal) x0 x1 x4 x5 x8 x9 x10 x11 x12 x13 x14 x15 (ix1 r) = rowMax (fun e => val_main_v65 (F := Ideal) x0 x1 x4 x5 x8 x9 x10 x11 x12 x13 x14 x15 (ix2 r e)) := by
  rw [val_main_v68_apply, val_main_v67_apply, val_main_cst_9_apply, rowfold_at]
  rfl

/-- The exponential of a logit less the row maximum. -/
theorem exp_at (r : Fin 2048) (e : Fin 2) :
    val_main_v72 (F := Ideal) x0 x1 x4 x5 x8 x9 x10 x11 x12 x13 x14 x15 (ix2 r e)
      = Ideal.exp (val_main_v65 (F := Ideal) x0 x1 x4 x5 x8 x9 x10 x11 x12 x13 x14 x15 (ix2 r e) - rowMax (fun e => val_main_v65 (F := Ideal) x0 x1 x4 x5 x8 x9 x10 x11 x12 x13 x14 x15 (ix2 r e))) := by
  rw [val_main_v72_apply, val_main_v71_apply, val_main_v70_apply, val_main_v69_apply, idx70, rowmax_at]
  rfl

/-- The sum of the two exponentials: the host sums from the zero word, which is zero. -/
theorem expsum_at (r : Fin 2048) :
    val_main_v73 (F := Ideal) x0 x1 x4 x5 x8 x9 x10 x11 x12 x13 x14 x15 (ix1 r) = ∑ e : Fin 2, val_main_v72 (F := Ideal) x0 x1 x4 x5 x8 x9 x10 x11 x12 x13 x14 x15 (ix2 r e) := by
  rw [val_main_v73_apply, val_main_cst_10_apply]
  simp only [idx73, Ideal.ofBits_def, Ideal.ofBits_zero_f32, zero_add]

/-- The softmax weight of logit `e` of row `r`. -/
theorem softmax_at (r : Fin 2048) (e : Fin 2) :
    val_main_v76 (F := Ideal) x0 x1 x4 x5 x8 x9 x10 x11 x12 x13 x14 x15 (ix2 r e) = gate (fun e => val_main_v65 (F := Ideal) x0 x1 x4 x5 x8 x9 x10 x11 x12 x13 x14 x15 (ix2 r e)) e := by
  rw [val_main_v76_apply, val_main_v75_apply, val_main_v74_apply, idx75, expsum_at]
  simp only [exp_at]
  rfl

/-- THE GATE AT (b, j): the reshaped softmax weights are the specification's `gate` of the row's logits. -/
theorem gate_at (b : Fin 512) (j : Fin 4) (e : Fin 2) :
    val_main_v77 (F := Ideal) x0 x1 x4 x5 x8 x9 x10 x11 x12 x13 x14 x15 (ix3 b j e)
      = gate (logit (hid2 (hid1Joined (fun k => val_main_v51 (F := Ideal) x0 x1 x4 x5 x8 x9 (ix2 (rowOf b j) k)) (fun k n => x10 (ix2 k n)) (fun n => x11 (ix1 n)))
          (fun k n => x12 (ix2 k n)) (fun n => x13 (ix1 n))) (fun k e => x14 (ix2 k e)) (fun e => x15 (ix1 e))) e := by
  rw [val_main_v77_apply, idx77, softmax_at, logits_row]

end Gate

end Cert.ReferenceIdeal.RefValue

end
-- ==== Proof.RefIsG.lean ====
/-
  THE REFERENCE IS THE SPECIFICATION.

  At result index (b, j, c) the reference forms  s₀ · a₀ + s₁ · a₁:  the two branch scores at input frame `12 + 4 j`,
  each times its softmax weight of row `4 b + j` of the gating network, whose joined context row is the branch-0
  context followed by the branch-1 context of the same frame. With the first gate layer's one sum over the joined
  row split into its two halves, that is the specification's row function, entry by entry.
-/
import proofs.«164370_j19464791785861_2_alg».proof.Proof.RefRows
import proofs.«164370_j19464791785861_2_alg».proof.Proof.RefGate

noncomputable section

namespace Cert.ReferenceIdeal.RefValue

open Cert.ReferenceIdeal Cert.ReferenceIdeal.Gen Cert.ReferenceIdeal.Read Idealize.ShloMosaic Idealize.ShloMosaic.ValueIdx
open Cert.Fusion

/-- The first softmax weight, broadcast along the classes, is read at logit 0. -/
theorem idx78 (b : Fin 512) (j : Fin 4) (c : Fin 2513) : idx_main_v78 (idx_main_v79 (ix3 b j c)) = ix3 b j (0 : Fin 2) :=
  funext fun a => by match a with | ⟨0, _⟩ => rfl | ⟨1, _⟩ => rfl | ⟨2, _⟩ => rfl
/-- The second softmax weight, broadcast along the classes, is read at logit 1. -/
theorem idx81 (b : Fin 512) (j : Fin 4) (c : Fin 2513) : idx_main_v81 (idx_main_v82 (ix3 b j c)) = ix3 b j (1 : Fin 2) :=
  funext fun a => by match a with | ⟨0, _⟩ => rfl | ⟨1, _⟩ => rfl | ⟨2, _⟩ => rfl

theorem ref_is_G
    (x0 x1 : (⟨S512x28x1024, .f32⟩ : BufTy).Contents (Elt Ideal)) (x2 : (⟨S1024x2513, .f32⟩ : BufTy).Contents (Elt Ideal)) (x3 : (⟨S2513, .f32⟩ : BufTy).Contents (Elt Ideal)) (x4 : (⟨S1024x2048, .f32⟩ : BufTy).Contents (Elt Ideal)) (x5 : (⟨S2048, .f32⟩ : BufTy).Contents (Elt Ideal)) (x6 : (⟨S1024x2513, .f32⟩ : BufTy).Contents (Elt Ideal)) (x7 : (⟨S2513, .f32⟩ : BufTy).Contents (Elt Ideal)) (x8 : (⟨S1024x2048, .f32⟩ : BufTy).Contents (Elt Ideal)) (x9 : (⟨S2048, .f32⟩ : BufTy).Contents (Elt Ideal)) (x10 : (⟨S4096x1024, .f32⟩ : BufTy).Contents (Elt Ideal)) (x11 : (⟨S1024, .f32⟩ : BufTy).Contents (Elt Ideal)) (x12 : (⟨S1024x512, .f32⟩ : BufTy).Contents (Elt Ideal)) (x13 : (⟨S512, .f32⟩ : BufTy).Contents (Elt Ideal)) (x14 : (⟨S512x2, .f32⟩ : BufTy).Contents (Elt Ideal)) (x15 : (⟨S2, .f32⟩ : BufTy).Contents (Elt Ideal)) :
    Cert.ReferenceIdeal.Read.val_main_v84 (F := Ideal) x0 x1 x2 x3 x4 x5 x6 x7 x8 x9 x10 x11 x12 x13 x14 x15
      = Cert.Fusion.Garr x0 x1 x2 x3 x4 x5 x6 x7 x8 x9 x10 x11 x12 x13 x14 x15 := by
  funext i
  obtain ⟨b, j, c, rfl⟩ : ∃ (b : Fin 512) (j : Fin 4) (c : Fin 2513), i = ix3 b j c := ⟨i 0, i 1, i 2, eq_ix3 i⟩
  rw [val_main_v84_apply, val_main_v80_apply, val_main_v83_apply, val_main_v79_apply, val_main_v78_apply,
    val_main_v82_apply, val_main_v81_apply, idx78, idx81, gate_at, gate_at, score0_at, score1_at, hid1Joined_split]
  simp only [joined_row_at, ctx_low_at, ctx_high_at]
  rfl

end Cert.ReferenceIdeal.RefValue

end
-- ==== Proof.lean ====
/-
  The five claims for the fused two-branch gate kernel against its plain reference.

  THE MATHEMATICS. Both programs compute, for every batch entry `b`, selected position `j < 4` and class `c < 2513`,
      s₀ · a₀ + s₁ · a₁
  where `s_i = ⟨x_i[b, 12 + 4 j, ·], Ws_i[·, c]⟩ + bs_i[c]` are the two branch scores at frame `12 + 4 j` and `(a₀, a₁)` is the
  softmax of the two logits a three-layer gate computes from the two branch contexts at that frame
  (Proof/Spec.lean states this as one function `G` on the extended reals).
  * The reference projects all sixteen (respectively seven) frames of a branch, then gathers frames `{0, 4, 8, 12}` of the
    sixteen (respectively keeps the last four of frames `{0, 4, …, 24}`): the entries it keeps are those of frames
    `12, 16, 20, 24`. It contracts the joined 4096-wide context against the gate's first layer in one sum.
  * The kernel gathers frames `12, 16, 20, 24` first, flattens `(b, j)` to the row `4 b + j`, pads the 2513 score columns
    with 47 zero columns, computes 128 rows per grid point, contracts the two 2048-wide contexts against the two halves
    of the first layer and adds, and finally drops the padding and cuts the rows back to `(b, j)`.
  The two agree index by index: the only law used is that a sum over 4096 terms is the sum of the sums over its first and
  its last 2048 terms, which holds on the extended reals with no finiteness assumption (addition there is commutative and
  associative also at the infinities); a change of float format is the identity on the extended reals; and the literal
  words (zero, minus infinity) are the same words on both sides. So the precondition is never opened.

  THE FRAMES. The kernel program's frame — every weakly fair execution of `@main` terminates without a fault and leaves the
  sixteen argument arrays as launched — is proved at any float instance (Proof/FrameIdeal*.lean, and the same text for the
  word-level program in Proof/FrameBits*.lean): the body's triple by symbolic execution, the pipeline's proof data with each
  input buffer at its block and the output buffer at the stored value, and the launch theorem for a region between host
  operations. The reference's frame is its generated run with the result dropped.
  The idealization's ledger is empty, so `preserves` is `True`.
-/
import proofs.«164370_j19464791785861_2_alg».proof.Defs
import proofs.«164370_j19464791785861_2_alg».proof.Proof.Gen.Kernel
import proofs.«164370_j19464791785861_2_alg».proof.Proof.Gen.KernelIdeal
import proofs.«164370_j19464791785861_2_alg».proof.Proof.Gen.ReferenceIdeal
import proofs.«164370_j19464791785861_2_alg».proof.Proof.Gen.ReferenceIdeal.Run
import proofs.«164370_j19464791785861_2_alg».proof.Proof.Gen.ReferenceIdeal.Read
import proofs.«164370_j19464791785861_2_alg».proof.Proof.Gen.Pre_finite_inputs
import proofs.«164370_j19464791785861_2_alg».proof.Proof.FrameBits
import proofs.«164370_j19464791785861_2_alg».proof.Proof.FrameIdeal
import proofs.«164370_j19464791785861_2_alg».proof.Proof.KernelResult
import proofs.«164370_j19464791785861_2_alg».proof.Proof.RefIsG
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end, faults nowhere and leaves its arguments as launched. -/
theorem frame_kernel :
    Cert.frame_Kernel (hKernel := Cert.Kernel.Gen.facts) (hPre_finite_inputs := Cert.Pre_finite_inputs.Gen.facts) :=
  fun m ρ _ => Cert.Kernel.Hand.frame (F := Bits) m ρ

/-- The same for the kernel program read on the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame: its run, with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals both programs end with the specification's array `G` of the (agreeing) arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Fusion.Garr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · refine (θ_run Cert.KernelIdeal.defs _ _).mono (fun r h c => ⟨?_, Cert.KernelIdeal.Hand.post_args m r h c⟩)
      (Cert.KernelIdeal.Hand.run_main (F := Ideal) m ρ)
    exact ((h c).2 Cert.KernelIdeal.main_v46 (Pipeline.mem_restRefs_of Cert.KernelIdeal.main_v46 (by decide) (by decide))).trans
      (Cert.KernelIdeal.Hand.result_eq m c)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15⟩ := hagree c
    rw [(h c).1, Cert.ReferenceIdeal.Read.val_main_v84_eq, Cert.ReferenceIdeal.RefValue.ref_is_G,
      e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
